-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x12 : Shape := ⟨2, ![524288, 12]⟩
abbrev S96x12 : Shape := ⟨2, ![96, 12]⟩
abbrev S_ : Shape := ⟨0, ![]⟩

class Facts : Prop where
  bcast_S_S524288x12 : S_.BroadcastsInDim S524288x12 (![] : Fin 0 → Fin S524288x12.rank)
  reducesTo_S524288x12_S_d0_1 : S524288x12.ReducesTo [0, 1] S_
  h_S_ : 0 < S_.numel
  bcast_S_S96x12 : S_.BroadcastsInDim S96x12 (![] : Fin 0 → Fin S96x12.rank)
  reducesTo_S96x12_S_d0_1 : S96x12.ReducesTo [0, 1] S_

variable [Facts]

def fn {F : FTy → Type} [FloatOps F] (main_arg0 : FVec F S524288x12 .f32) (main_arg1 : IVec S524288x12 32) (main_arg2 : FVec F S96x12 .f32) : IVec S_ 1 :=
  let main_v0 : FVec F S524288x12 .f32 := Host.absf main_arg0
  let main_cst : FVec F S_ .f32 := constant S_ .f32 0x7F800000#32
  let main_v1 : FVec F S524288x12 .f32 := broadcastInDim S524288x12 ![] bcast_S_S524288x12 main_cst
  let main_v2 : IVec S524288x12 1 := cmpf .olt main_v0 main_v1
  let main_c : IVec S_ 1 := constantI S_ 1 1#1
  let main_v3 : IVec S_ 1 := (fun x v => Host.reduce IntOp.andi x v reducesTo_S524288x12_S_d0_1 h_S_) main_v2 main_c
  let main_v4 : FVec F S96x12 .f32 := Host.absf main_arg2
  let main_cst_0 : FVec F S_ .f32 := constant S_ .f32 0x7F800000#32
  let main_v5 : FVec F S96x12 .f32 := broadcastInDim S96x12 ![] bcast_S_S96x12 main_cst_0
  let main_v6 : IVec S96x12 1 := cmpf .olt main_v4 main_v5
  let main_c_1 : IVec S_ 1 := constantI S_ 1 1#1
  let main_v7 : IVec S_ 1 := (fun x v => Host.reduce IntOp.andi x v reducesTo_S96x12_S_d0_1 h_S_) main_v6 main_c_1
  let main_v8 : IVec S_ 1 := andi main_v3 main_v7
  main_v8
-- ==== Kernel.lean ====
abbrev S524288x12 : Shape := ⟨2, ![524288, 12]⟩
abbrev S96x12 : Shape := ⟨2, ![96, 12]⟩
abbrev S12x96 : Shape := ⟨2, ![12, 96]⟩
abbrev S_ : Shape := ⟨0, ![]⟩
abbrev S64x1x3 : Shape := ⟨3, ![64, 1, 3]⟩
abbrev S8192x12 : Shape := ⟨2, ![8192, 12]⟩
abbrev S1x1x3 : Shape := ⟨3, ![1, 1, 3]⟩
abbrev S8192x96 : Shape := ⟨2, ![8192, 96]⟩
abbrev S8192 : Shape := ⟨1, ![8192]⟩
abbrev S8192x1 : Shape := ⟨2, ![8192, 1]⟩
abbrev S12 : Shape := ⟨1, ![12]⟩
abbrev S1x12 : Shape := ⟨2, ![1, 12]⟩
abbrev S1x1 : Shape := ⟨2, ![1, 1]⟩
abbrev S1x5 : Shape := ⟨2, ![1, 5]⟩
abbrev S1 : Shape := ⟨1, ![1]⟩
abbrev S1x6 : Shape := ⟨2, ![1, 6]⟩
abbrev S1x3 : Shape := ⟨2, ![1, 3]⟩
abbrev S3 : Shape := ⟨1, ![3]⟩

abbrev nBuf : Space → Nat
  | .hbm => 29
  | .vmem => 10
  | .smem => 0
  | _ => 0

abbrev bufTy : (tb : Table) → Fin (tcTables nBuf tb) → BufTy
  | .hbm, ⟨0, _⟩ => ⟨S524288x12, .f32⟩
  | .hbm, ⟨1, _⟩ => ⟨S524288x12, .i32⟩
  | .hbm, ⟨2, _⟩ => ⟨S96x12, .f32⟩
  | .hbm, ⟨3, _⟩ => ⟨S524288x12, .f32⟩
  | .hbm, ⟨4, _⟩ => ⟨S12x96, .f32⟩
  | .hbm, ⟨5, _⟩ => ⟨S_, .f32⟩
  | .hbm, ⟨6, _⟩ => ⟨S96x12, .f32⟩
  | .hbm, ⟨7, _⟩ => ⟨S96x12, .i1⟩
  | .hbm, ⟨8, _⟩ => ⟨S96x12, .f32⟩
  | .hbm, ⟨9, _⟩ => ⟨S524288x12, .f32⟩
  | .hbm, ⟨10, _⟩ => ⟨S64x1x3, .f32⟩
  | .hbm, ⟨11, _⟩ => ⟨S_, .f32⟩
  | .hbm, ⟨12, _⟩ => ⟨S3, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S3, .f32⟩
  | .local _ .vmem, ⟨0, _⟩ => ⟨S8192x12, .f32⟩
  | .local _ .vmem, ⟨1, _⟩ => ⟨S8192x12, .f32⟩
  | .local _ .vmem, ⟨2, _⟩ => ⟨S8192x12, .f32⟩
  | .local _ .vmem, ⟨3, _⟩ => ⟨S8192x12, .f32⟩
  | .local _ .vmem, ⟨4, _⟩ => ⟨S12x96, .f32⟩
  | .local _ .vmem, ⟨5, _⟩ => ⟨S96x12, .f32⟩
  | .local _ .vmem, ⟨6, _⟩ => ⟨S8192x12, .f32⟩
  | .local _ .vmem, ⟨7, _⟩ => ⟨S8192x12, .f32⟩
  | .local _ .vmem, ⟨8, _⟩ => ⟨S1x1x3, .f32⟩
  | .local _ .vmem, ⟨9, _⟩ => ⟨S1x1x3, .f32⟩
  | _, _ => ⟨S524288x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S96x12_S12x96_1_0 : S96x12.Transposes [1, 0] S12x96
  bcast_S_S96x12 : S_.BroadcastsInDim S96x12 (![] : Fin 0 → Fin S96x12.rank)
  inb_S8192x12_S8192x12_0_0 : ∀ a, (![0, 0] : Fin 2 → Nat) a + S8192x12.size a ≤ S8192x12.size a
  h_S8192x12 : 0 < S8192x12.numel
  inb_S12x96_S12x96_0_0 : ∀ a, (![0, 0] : Fin 2 → Nat) a + S12x96.size a ≤ S12x96.size a
  h_S12x96 : 0 < S12x96.numel
  shapeCasts_S12x96_S12x96 : S12x96.ShapeCasts S12x96
  reduces_S8192x96_S8192 : S8192x96.Reduces [1] S8192
  shapeCasts_S8192_S8192x1 : S8192.ShapeCasts S8192x1
  broadcasts_S8192x1_S8192x96 : S8192x1.Broadcasts S8192x96
  inb_S96x12_S96x12_0_0 : ∀ a, (![0, 0] : Fin 2 → Nat) a + S96x12.size a ≤ S96x12.size a
  h_S96x12 : 0 < S96x12.numel
  shapeCasts_S96x12_S96x12 : S96x12.ShapeCasts S96x12
  broadcasts_S8192x1_S8192x12 : S8192x1.Broadcasts S8192x12
  iota_S8192x1_d0_w32 : S8192x1.Iotas .tc 32 [0]
  natLt_1_32 : 1 < 32
  shapeCasts_S8192x12_S8192x12 : S8192x12.ShapeCasts S8192x12
  reduces_S8192x12_S12 : S8192x12.Reduces [0] S12
  shapeCasts_S12_S1x12 : S12.ShapeCasts S1x12
  slices_S1x12_o0_0_S1x1 : S1x12.Slices ![0, 0] S1x1
  slices_S1x12_o0_1_S1x5 : S1x12.Slices ![0, 1] S1x5
  reduces_S1x5_S1 : S1x5.Reduces [1] S1
  shapeCasts_S1_S1x1 : S1.ShapeCasts S1x1
  slices_S1x12_o0_6_S1x6 : S1x12.Slices ![0, 6] S1x6
  reduces_S1x6_S1 : S1x6.Reduces [1] S1
  concatenates_S1x1_S1x1_S1x1_S1x3_d1 : Shape.Concatenates [S1x1, S1x1, S1x1] S1x3 1
  shapeCasts_S1x3_S1x1x3 : S1x3.ShapeCasts S1x1x3
  inb_S1x1x3_S1x1x3_0_0_0 : ∀ a, (![0, 0, 0] : Fin 3 → Nat) a + S1x1x3.size a ≤ S1x1x3.size a
  h_S1x1x3 : 0 < S1x1x3.numel
  reducesTo_S64x1x3_S3_d0_1 : S64x1x3.ReducesTo [0, 1] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  bcast_S_S1 : S_.BroadcastsInDim S1 (![] : Fin 0 → Fin S1.rank)
  concatenates_S1_S1_S1_S3_d0 : Shape.Concatenates [S1, S1, S1] S3 0
  dot_S8192x12_S12x96_S8192x96_1_0_0_1_n_n_wf : DotDims.WF S8192x12 S12x96 S8192x96 [1] [0] [0] [1] [] []
  dot_S8192x96_S96x12_S8192x12_1_0_0_1_n_n_wf : DotDims.WF S8192x96 S96x12 S8192x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x12.size a ≤ S524288x12.size a
  hwx0_0 : ∀ i : grid0.Coords, EltTy.bits .f32 = 32 ∨ (Rect.block (s := S524288x12) S8192x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x12.size a ≤ S524288x12.size a
  hwx0_1 : ∀ i : grid0.Coords, EltTy.bits .f32 = 32 ∨ (Rect.block (s := S524288x12) S8192x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x96.size a ≤ S12x96.size a
  hwx0_2 : ∀ i : grid0.Coords, EltTy.bits .f32 = 32 ∨ (Rect.block (s := S12x96) S12x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x12.size a ≤ S96x12.size a
  hwx0_3 : ∀ i : grid0.Coords, EltTy.bits .f32 = 32 ∨ (Rect.block (s := S96x12) S96x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x12.size a ≤ S524288x12.size a
  hwx0_4 : ∀ i : grid0.Coords, EltTy.bits .f32 = 32 ∨ (Rect.block (s := S524288x12) S8192x12.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x3.size a ≤ S64x1x3.size a
  hwx0_5 : ∀ i : grid0.Coords, EltTy.bits .f32 = 32 ∨ (Rect.block (s := S64x1x3) S1x1x3.size (cc0_transform_5 i) (hinb0_5 i)).WholeWords (EltTy.packing .f32)

variable [Facts₀]

def dot_S8192x12_S12x96_S8192x96_1_0_0_1_n_n : DotDims S8192x12 S12x96 S8192x96 where
  lhsContracting := [1]
  rhsContracting := [0]
  lhsNonContracting := [0]
  rhsNonContracting := [1]
  lhsBatch := []
  rhsBatch := []
  wf := dot_S8192x12_S12x96_S8192x96_1_0_0_1_n_n_wf
def dot_S8192x96_S96x12_S8192x12_1_0_0_1_n_n : DotDims S8192x96 S96x12 S8192x12 where
  lhsContracting := [1]
  rhsContracting := [0]
  lhsNonContracting := [0]
  rhsNonContracting := [1]
  lhsBatch := []
  rhsBatch := []
  wf := dot_S8192x96_S96x12_S8192x12_1_0_0_1_n_n_wf

abbrev win0_0 : Pipeline.Window sig grid0 :=
  Pipeline.Window.ofSpec (Memref.whole main_arg0) S8192x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x12.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S12x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S96x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S8192x12.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S1x1x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S524288x12 : Shape := ⟨2, ![524288, 12]⟩
abbrev S96x12 : Shape := ⟨2, ![96, 12]⟩
abbrev S12x524288 : Shape := ⟨2, ![12, 524288]⟩
abbrev S96x524288 : Shape := ⟨2, ![96, 524288]⟩
abbrev S_ : Shape := ⟨0, ![]⟩
abbrev S524288 : Shape := ⟨1, ![524288]⟩
abbrev S1x524288 : Shape := ⟨2, ![1, 524288]⟩
abbrev S524288x96 : Shape := ⟨2, ![524288, 96]⟩
abbrev S524288x1 : Shape := ⟨2, ![524288, 1]⟩
abbrev S524288x5 : Shape := ⟨2, ![524288, 5]⟩
abbrev S524288x6 : Shape := ⟨2, ![524288, 6]⟩
abbrev S1 : Shape := ⟨1, ![1]⟩
abbrev S3 : Shape := ⟨1, ![3]⟩

abbrev nBuf : Space → Nat
  | .hbm => 107
  | .vmem => 0
  | .smem => 0
  | _ => 0

abbrev bufTy : (tb : Table) → Fin (tcTables nBuf tb) → BufTy
  | .hbm, ⟨0, _⟩ => ⟨S524288x12, .f32⟩
  | .hbm, ⟨1, _⟩ => ⟨S524288x12, .i32⟩
  | .hbm, ⟨2, _⟩ => ⟨S96x12, .f32⟩
  | .hbm, ⟨3, _⟩ => ⟨S524288x12, .f32⟩
  | .hbm, ⟨4, _⟩ => ⟨S12x524288, .f32⟩
  | .hbm, ⟨5, _⟩ => ⟨S96x524288, .f32⟩
  | .hbm, ⟨6, _⟩ => ⟨S_, .f32⟩
  | .hbm, ⟨7, _⟩ => ⟨S524288, .f32⟩
  | .hbm, ⟨8, _⟩ => ⟨S1x524288, .f32⟩
  | .hbm, ⟨9, _⟩ => ⟨S96x524288, .f32⟩
  | .hbm, ⟨10, _⟩ => ⟨S96x524288, .f32⟩
  | .hbm, ⟨11, _⟩ => ⟨S96x524288, .f32⟩
  | .hbm, ⟨12, _⟩ => ⟨S_, .f32⟩
  | .hbm, ⟨13, _⟩ => ⟨S524288, .f32⟩
  | .hbm, ⟨14, _⟩ => ⟨S_, .f32⟩
  | .hbm, ⟨15, _⟩ => ⟨S96x12, .f32⟩
  | .hbm, ⟨16, _⟩ => ⟨S96x12, .i1⟩
  | .hbm, ⟨17, _⟩ => ⟨S96x12, .f32⟩
  | .hbm, ⟨18, _⟩ => ⟨S524288x96, .f32⟩
  | .hbm, ⟨19, _⟩ => ⟨S524288x12, .f32⟩
  | .hbm, ⟨20, _⟩ => ⟨S524288x1, .f32⟩
  | .hbm, ⟨21, _⟩ => ⟨S524288x12, .f32⟩
  | .hbm, ⟨22, _⟩ => ⟨S524288x12, .f32⟩
  | .hbm, ⟨23, _⟩ => ⟨S524288x1, .f32⟩
  | .hbm, ⟨24, _⟩ => ⟨S524288, .f32⟩
  | .hbm, ⟨25, _⟩ => ⟨S524288x5, .f32⟩
  | .hbm, ⟨26, _⟩ => ⟨S524288x6, .f32⟩
  | .hbm, ⟨27, _⟩ => ⟨S524288x1, .f32⟩
  | .hbm, ⟨28, _⟩ => ⟨S524288, .f32⟩
  | .hbm, ⟨29, _⟩ => ⟨S524288x5, .f32⟩
  | .hbm, ⟨30, _⟩ => ⟨S524288x6, .f32⟩
  | .hbm, ⟨31, _⟩ => ⟨S524288, .f32⟩
  | .hbm, ⟨32, _⟩ => ⟨S_, .f32⟩
  | .hbm, ⟨33, _⟩ => ⟨S524288, .f32⟩
  | .hbm, ⟨34, _⟩ => ⟨S524288, .f32⟩
  | .hbm, ⟨35, _⟩ => ⟨S524288, .f32⟩
  | .hbm, ⟨36, _⟩ => ⟨S_, .f32⟩
  | .hbm, ⟨37, _⟩ => ⟨S524288, .f32⟩
  | .hbm, ⟨38, _⟩ => ⟨S524288, .f32⟩
  | .hbm, ⟨39, _⟩ => ⟨S_, .f32⟩
  | .hbm, ⟨40, _⟩ => ⟨S524288, .f32⟩
  | .hbm, ⟨41, _⟩ => ⟨S524288, .f32⟩
  | .hbm, ⟨42, _⟩ => ⟨S524288, .f32⟩
  | .hbm, ⟨43, _⟩ => ⟨S_, .f32⟩
  | .hbm, ⟨44, _⟩ => ⟨S524288, .f32⟩
  | .hbm, ⟨45, _⟩ => ⟨S524288, .f32⟩
  | .hbm, ⟨46, _⟩ => ⟨S524288, .f32⟩
  | .hbm, ⟨47, _⟩ => ⟨S524288, .f32⟩
  | .hbm, ⟨48, _⟩ => ⟨S_, .f32⟩
  | .hbm, ⟨49, _⟩ => ⟨S524288, .f32⟩
  | .hbm, ⟨50, _⟩ => ⟨S524288, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S524288x5, .f32⟩
  | .hbm, ⟨56, _⟩ => ⟨S_, .f32⟩
  | .hbm, ⟨57, _⟩ => ⟨S524288x5, .f32⟩
  | .hbm, ⟨58, _⟩ => ⟨S524288x5, .f32⟩
  | .hbm, ⟨59, _⟩ => ⟨S524288x5, .f32⟩
  | .hbm, ⟨60, _⟩ => ⟨S_, .f32⟩
  | .hbm, ⟨61, _⟩ => ⟨S524288x5, .f32⟩
  | .hbm, ⟨62, _⟩ => ⟨S524288x5, .f32⟩
  | .hbm, ⟨63, _⟩ => ⟨S_, .f32⟩
  | .hbm, ⟨64, _⟩ => ⟨S524288x5, .f32⟩
  | .hbm, ⟨65, _⟩ => ⟨S524288x5, .f32⟩
  | .hbm, ⟨66, _⟩ => ⟨S524288x5, .f32⟩
  | .hbm, ⟨67, _⟩ => ⟨S_, .f32⟩
  | .hbm, ⟨68, _⟩ => ⟨S524288x5, .f32⟩
  | .hbm, ⟨69, _⟩ => ⟨S524288x5, .f32⟩
  | .hbm, ⟨70, _⟩ => ⟨S524288x5, .f32⟩
  | .hbm, ⟨71, _⟩ => ⟨S524288x5, .f32⟩
  | .hbm, ⟨72, _⟩ => ⟨S_, .f32⟩
  | .hbm, ⟨73, _⟩ => ⟨S524288x5, .f32⟩
  | .hbm, ⟨74, _⟩ => ⟨S524288x5, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S524288x6, .f32⟩
  | .hbm, ⟨80, _⟩ => ⟨S_, .f32⟩
  | .hbm, ⟨81, _⟩ => ⟨S524288x6, .f32⟩
  | .hbm, ⟨82, _⟩ => ⟨S524288x6, .f32⟩
  | .hbm, ⟨83, _⟩ => ⟨S524288x6, .f32⟩
  | .hbm, ⟨84, _⟩ => ⟨S_, .f32⟩
  | .hbm, ⟨85, _⟩ => ⟨S524288x6, .f32⟩
  | .hbm, ⟨86, _⟩ => ⟨S524288x6, .f32⟩
  | .hbm, ⟨87, _⟩ => ⟨S_, .f32⟩
  | .hbm, ⟨88, _⟩ => ⟨S524288x6, .f32⟩
  | .hbm, ⟨89, _⟩ => ⟨S524288x6, .f32⟩
  | .hbm, ⟨90, _⟩ => ⟨S524288x6, .f32⟩
  | .hbm, ⟨91, _⟩ => ⟨S_, .f32⟩
  | .hbm, ⟨92, _⟩ => ⟨S524288x6, .f32⟩
  | .hbm, ⟨93, _⟩ => ⟨S524288x6, .f32⟩
  | .hbm, ⟨94, _⟩ => ⟨S524288x6, .f32⟩
  | .hbm, ⟨95, _⟩ => ⟨S524288x6, .f32⟩
  | .hbm, ⟨96, _⟩ => ⟨S_, .f32⟩
  | .hbm, ⟨97, _⟩ => ⟨S524288x6, .f32⟩
  | .hbm, ⟨98, _⟩ => ⟨S524288x6, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S1, .f32⟩
  | .hbm, ⟨104, _⟩ => ⟨S1, .f32⟩
  | .hbm, ⟨105, _⟩ => ⟨S1, .f32⟩
  | .hbm, ⟨106, _⟩ => ⟨S3, .f32⟩
  | _, _ => ⟨S524288x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_10 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_13 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_cst_16 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_17 : Ref sig .tc := ⟨.hbm, 84, rfl⟩
abbrev main_v63 : Ref sig .tc := ⟨.hbm, 85, rfl⟩
abbrev main_v64 : Ref sig .tc := ⟨.hbm, 86, rfl⟩
abbrev main_cst_18 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_19 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_20 : Ref sig .tc := ⟨.hbm, 96, rfl⟩
abbrev main_v72 : Ref sig .tc := ⟨.hbm, 97, rfl⟩
abbrev main_v73 : Ref sig .tc := ⟨.hbm, 98, rfl⟩
abbrev main_cst_21 : Ref sig .tc := ⟨.hbm, 99, rfl⟩
abbrev main_v74 : Ref sig .tc := ⟨.hbm, 100, rfl⟩
abbrev main_cst_22 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  transposes_S524288x12_S12x524288_1_0 : S524288x12.Transposes [1, 0] S12x524288
  reducesTo_S96x524288_S524288_d0 : S96x524288.ReducesTo [0] S524288
  h_S_ : 0 < S_.numel
  bcast_S524288_S1x524288_1 : S524288.BroadcastsInDim S1x524288 (![1] : Fin 1 → Fin S1x524288.rank)
  bcast_S1x524288_S96x524288_0_1 : S1x524288.BroadcastsInDim S96x524288 (![0, 1] : Fin 2 → Fin S96x524288.rank)
  bcast_S_S96x12 : S_.BroadcastsInDim S96x12 (![] : Fin 0 → Fin S96x12.rank)
  transposes_S96x524288_S524288x96_1_0 : S96x524288.Transposes [1, 0] S524288x96
  bcast_S524288_S524288x1_0 : S524288.BroadcastsInDim S524288x1 (![0] : Fin 1 → Fin S524288x1.rank)
  bcast_S524288x1_S524288x12_0_1 : S524288x1.BroadcastsInDim S524288x12 (![0, 1] : Fin 2 → Fin S524288x12.rank)
  slices_S524288x12_S524288x1_0_0 : S524288x12.Slices ![0, 0] S524288x1
  shapeCasts_S524288x1_S524288 : S524288x1.ShapeCasts S524288
  slices_S524288x12_S524288x5_0_1 : S524288x12.Slices ![0, 1] S524288x5
  slices_S524288x12_S524288x6_0_6 : S524288x12.Slices ![0, 6] S524288x6
  bcast_S_S524288 : S_.BroadcastsInDim S524288 (![] : Fin 0 → Fin S524288.rank)
  reducesTo_S524288_S_d0 : S524288.ReducesTo [0] S_
  bcast_S_S524288x5 : S_.BroadcastsInDim S524288x5 (![] : Fin 0 → Fin S524288x5.rank)
  reducesTo_S524288x5_S_d0_1 : S524288x5.ReducesTo [0, 1] S_
  bcast_S_S524288x6 : S_.BroadcastsInDim S524288x6 (![] : Fin 0 → Fin S524288x6.rank)
  reducesTo_S524288x6_S_d0_1 : S524288x6.ReducesTo [0, 1] S_
  bcast_S_S1 : S_.BroadcastsInDim S1 (![] : Fin 0 → Fin S1.rank)
  concatenates_S1_S1_S1_S3_d0 : Shape.Concatenates [S1, S1, S1] S3 0
  dot_S96x12_S12x524288_S96x524288_1_0_0_1_n_n_wf : DotDims.WF S96x12 S12x524288 S96x524288 [1] [0] [0] [1] [] []
  dot_S524288x96_S96x12_S524288x12_1_0_0_1_n_n_wf : DotDims.WF S524288x96 S96x12 S524288x12 [1] [0] [0] [1] [] []

variable [Facts₀]

def dot_S96x12_S12x524288_S96x524288_1_0_0_1_n_n : DotDims S96x12 S12x524288 S96x524288 where
  lhsContracting := [1]
  rhsContracting := [0]
  lhsNonContracting := [0]
  rhsNonContracting := [1]
  lhsBatch := []
  rhsBatch := []
  wf := dot_S96x12_S12x524288_S96x524288_1_0_0_1_n_n_wf
def dot_S524288x96_S96x12_S524288x12_1_0_0_1_n_n : DotDims S524288x96 S96x12 S524288x12 where
  lhsContracting := [1]
  rhsContracting := [0]
  lhsNonContracting := [0]
  rhsNonContracting := [1]
  lhsBatch := []
  rhsBatch := []
  wf := dot_S524288x96_S96x12_S524288x12_1_0_0_1_n_n_wf

class Facts : Prop extends Facts₀ where

variable [Facts]
-- ==== Proof.KernelFrame.lean ====
/-
  The frame run of `Cert.Kernel`: every weakly fair execution of @main terminates without a fault, and the state it ends in
  is known array by array.

  @main is a stretch of host operations (the labels cast to floats, the legal-state matrix transposed, its mask
  computed), ONE region of 64 grid points, and a stretch of host operations that reduce the 64 × 1 × 3 partial sums
  to the three losses. At grid point `t` the body reads four input blocks (rows `8192·t … 8192·t + 8191` of the
  features and of the labels, the whole transposed matrix, the whole mask) and writes two output blocks (the same rows
  of the marginals, and the point's three partial sums), each output buffer covered by ONE store. So what each output
  buffer holds after the body is a function of the four input blocks alone (`outMargin`, `outPartial`), the region's
  proof data states exactly that, and the library's frame run for a region followed by host lines applies.
-/
import proofs.«115745_j21517786153440_2_alg».proof.Proof.Gen.Kernel.Launch
import proofs.«115745_j21517786153440_2_alg».proof.Proof.Gen.Kernel.Skeleton
import proofs.«115745_j21517786153440_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes an argument array: the region finds each as launched. -/
theorem V_arg (b : Ref sig .tc) (hb : b = main_arg0 ∨ b = main_arg1 ∨ b = main_arg2) (c : Dev nD) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    rcases hb with rfl | rfl | rfl
    all_goals repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved): for any proof data whose array is the region-entry one and whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rRows : Rect S8192x12 := Rect.unit (s := S8192x12) ![0, 0] S8192x12.size inb_S8192x12_S8192x12_0_0
abbrev rStates : Rect S12x96 := Rect.unit (s := S12x96) ![0, 0] S12x96.size inb_S12x96_S12x96_0_0
abbrev rMask : Rect S96x12 := Rect.unit (s := S96x12) ![0, 0] S96x12.size inb_S96x12_S96x12_0_0
abbrev rPartial : Rect S1x1x3 := Rect.unit (s := S1x1x3) ![0, 0, 0] S1x1x3.size inb_S1x1x3_S1x1x3_0_0_0

/-! ## What the body leaves in each output buffer -/

/-- The marginals' buffer after the body: its one store, of the features' block, the transposed matrix and the mask. -/
def outMargin (x0 : Vec F S8192x12 .f32) (x2 : Vec F S12x96 .f32) (x3 : Vec F S96x12 .f32) : Vec F S8192x12 .f32 :=
  View.canon [⟨rRows, k0_pay2 (View.ld x0 rRows) (View.ld x2 rStates) (View.ld x3 rMask)⟩]

/-- The partial sums' buffer after the body: its one store, of all four input blocks and the point's coordinate. -/
def outPartial (i : grid0.Coords) (x0 x1 : Vec F S8192x12 .f32) (x2 : Vec F S12x96 .f32) (x3 : Vec F S96x12 .f32) : Vec F S1x1x3 .f32 :=
  View.canon [⟨rPartial, k0_pay1 (k0_pay3 (F := F) i)
    (k0_pay5 (View.ld x0 rRows) (View.ld x2 rStates) (View.ld x3 rMask) (View.ld x1 rRows))
    (k0_pay6 (View.ld x0 rRows) (View.ld x2 rStates) (View.ld x3 rMask) (View.ld x1 rRows))⟩]

/-- Each store covers its buffer. -/
theorem coverMargin (p0 : Vec F S8192x12 .f32) (y : S8192x12.Idx) :
    ∃ pc ∈ ([⟨rRows, p0⟩] : List (View.Piece (Elt F) S8192x12 .f32)), y ∈ pc.1.set :=
  View.cover_of_tiled [⟨rRows, p0⟩] S8192x12.size (by rfl) y
theorem coverPartial (p0 : Vec F S1x1x3 .f32) (y : S1x1x3.Idx) :
    ∃ pc ∈ ([⟨rPartial, p0⟩] : List (View.Piece (Elt F) S1x1x3 .f32)), y ∈ pc.1.set :=
  View.cover_of_tiled [⟨rPartial, p0⟩] S1x1x3.size (by rfl) y

/-! ## The body's triple -/

set_option maxHeartbeats 4000000 in
/-- The body on whole staging buffers, the inputs' at contents `x0 … x3` and the outputs' at anything, runs to the
    continuation with the inputs as they were and the outputs at `outMargin`, `outPartial` of the inputs. -/
theorem sound_kernel (c : Dev nD) (E : Set ℕ) (i : grid0.Coords)
    (arg1 : Memref sig .tc .vmem S8192x12 .f32) (harg1 : arg1.IsWhole) (arg2 : Memref sig .tc .vmem S8192x12 .f32) (harg2 : arg2.IsWhole)
    (arg3 : Memref sig .tc .vmem S12x96 .f32) (harg3 : arg3.IsWhole) (arg4 : Memref sig .tc .vmem S96x12 .f32) (harg4 : arg4.IsWhole)
    (arg5 : Memref sig .tc .vmem S8192x12 .f32) (harg5 : arg5.IsWhole) (arg6 : Memref sig .tc .vmem S1x1x3 .f32) (harg6 : arg6.IsWhole)
    (x0 x1 : Vec F S8192x12 .f32) (x2 : Vec F S12x96 .f32) (x3 : Vec F S96x12 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outMargin x0 x2 x3)
            ∗ owns (c : Thread nD τ) arg6 fullShare (outPartial i x0 x1 x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverMargin _)
  iexists _; isplitr
  swap; · iexact H5
  ipureintro
  try dsimp only
  exact View.read_writes_eq_canon _ _ _ (coverPartial _)

/-! ## The region's proof data -/

/-- The arrays as the region finds them; after the body at point `t` each input's buffer at its block and each output's
    at its function of the input blocks; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outMargin (iblk m c 0 t) (iblk m c 2 t) (iblk m c 3 t)
    | ⟨5, _⟩ => outPartial (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outMargin (iblk m c 0 t) (iblk m c 2 t) (iblk m c 3 t) := by dsimp only [dats]
theorem after5 (c : Dev nD) (t : Fin cfg0.N) :
    (dats m 0 c).after 5 t = outPartial (grid0.coords t) (iblk m c 0 t) (iblk m c 1 t) (iblk m c 2 t) (iblk m c 3 t) := by
  dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    each array of the region at what its write-backs leave and every other buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- No host operation after the region writes an argument array. -/
theorem W_arg (b : Ref sig .tc) (hb : b = main_arg1 ∨ b = main_arg2) (hne : ∀ w, Pipeline.arrRef spec0 w ≠ b) (c : Dev nD) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      rcases hb with rfl | rfl
      all_goals repeat' apply And.intro
      all_goals exact StableHlo.devRef_ne_of_ne (by decide))),
    Pipeline.withArrays_of_ne _ c (V0 m c) _ b hne]
  exact V_arg m b (by rcases hb with rfl | rfl <;> simp) c

/-- THE FRAME: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_arg m main_arg0 (.inl rfl) c))),
     ((h c).2 main_arg1 (Pipeline.mem_restRefs_of main_arg1 (by decide) (by decide))).trans (W_arg m main_arg1 (.inl rfl) (by decide) c),
     ((h c).2 main_arg2 (Pipeline.mem_restRefs_of main_arg2 (by decide) (by decide))).trans (W_arg m main_arg2 (.inr rfl) (by decide) c)⟩)
    (run_main m ρ)

end Cert.Kernel.Frame

end
-- ==== Proof.KernelIdealFrame.lean ====
/-
  The frame run of `Cert.KernelIdeal`: every weakly fair execution of @main terminates without a fault, and the state it ends in
  is known array by array.

  @main is a stretch of host operations (the labels cast to floats, the legal-state matrix transposed, its mask
  computed), ONE region of 64 grid points, and a stretch of host operations that reduce the 64 × 1 × 3 partial sums
  to the three losses. At grid point `t` the body reads four input blocks (rows `8192·t … 8192·t + 8191` of the
  features and of the labels, the whole transposed matrix, the whole mask) and writes two output blocks (the same rows
  of the marginals, and the point's three partial sums), each output buffer covered by ONE store. So what each output
  buffer holds after the body is a function of the four input blocks alone (`outMargin`, `outPartial`), the region's
  proof data states exactly that, and the library's frame run for a region followed by host lines applies.
-/
import proofs.«115745_j21517786153440_2_alg».proof.Proof.Gen.KernelIdeal.Launch
import proofs.«115745_j21517786153440_2_alg».proof.Proof.Gen.KernelIdeal.Skeleton
import proofs.«115745_j21517786153440_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes an argument array: the region finds each as launched. -/
theorem V_arg (b : Ref sig .tc) (hb : b = main_arg0 ∨ b = main_arg1 ∨ b = main_arg2) (c : Dev nD) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    rcases hb with rfl | rfl | rfl
    all_goals repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved): for any proof data whose array is the region-entry one and whose body leaves the
    block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev rRows : Rect S8192x12 := Rect.unit (s := S8192x12) ![0, 0] S8192x12.size inb_S8192x12_S8192x12_0_0
abbrev rStates : Rect S12x96 := Rect.unit (s := S12x96) ![0, 0] S12x96.size inb_S12x96_S12x96_0_0
abbrev rMask : Rect S96x12 := Rect.unit (s := S96x12) ![0, 0] S96x12.size inb_S96x12_S96x12_0_0
abbrev rPartial : Rect S1x1x3 := Rect.unit (s := S1x1x3) ![0, 0, 0] S1x1x3.size inb_S1x1x3_S1x1x3_0_0_0

/-! ## What the body leaves in each output buffer -/

/-- The marginals' buffer after the body: its one store, of the features' block, the transposed matrix and the mask. -/
def outMargin (x0 : Vec F S8192x12 .f32) (x2 : Vec F S12x96 .f32) (x3 : Vec F S96x12 .f32) : Vec F S8192x12 .f32 :=
  View.canon [⟨rRows, k0_pay2 (View.ld x0 rRows) (View.ld x2 rStates) (View.ld x3 rMask)⟩]

/-- The partial sums' buffer after the body: its one store, of all four input blocks and the point's coordinate. -/
def outPartial (i : grid0.Coords) (x0 x1 : Vec F S8192x12 .f32) (x2 : Vec F S12x96 .f32) (x3 : Vec F S96x12 .f32) : Vec F S1x1x3 .f32 :=
  View.canon [⟨rPartial, k0_pay1 (k0_pay3 (F := F) i)
    (k0_pay5 (View.ld x0 rRows) (View.ld x2 rStates) (View.ld x3 rMask) (View.ld x1 rRows))
    (k0_pay6 (View.ld x0 rRows) (View.ld x2 rStates) (View.ld x3 rMask) (View.ld x1 rRows))⟩]

/-- Each store covers its buffer. -/
theorem coverMargin (p0 : Vec F S8192x12 .f32) (y : S8192x12.Idx) :
    ∃ pc ∈ ([⟨rRows, p0⟩] : List (View.Piece (Elt F) S8192x12 .f32)), y ∈ pc.1.set :=
  View.cover_of_tiled [⟨rRows, p0⟩] S8192x12.size (by rfl) y
theorem coverPartial (p0 : Vec F S1x1x3 .f32) (y : S1x1x3.Idx) :
    ∃ pc ∈ ([⟨rPartial, p0⟩] : List (View.Piece (Elt F) S1x1x3 .f32)), y ∈ pc.1.set :=
  View.cover_of_tiled [⟨rPartial, p0⟩] S1x1x3.size (by rfl) y

/-! ## The body's triple -/

set_option maxHeartbeats 4000000 in
/-- The body on whole staging buffers, the inputs' at contents `x0 … x3` and the outputs' at anything, runs to the
    continuation with the inputs as they were and the outputs at `outMargin`, `outPartial` of the inputs. -/
theorem sound_kernel (c : Dev nD) (E : Set ℕ) (i : grid0.Coords)
    (arg1 : Memref sig .tc .vmem S8192x12 .f32) (harg1 : arg1.IsWhole) (arg2 : Memref sig .tc .vmem S8192x12 .f32) (harg2 : arg2.IsWhole)
    (arg3 : Memref sig .tc .vmem S12x96 .f32) (harg3 : arg3.IsWhole) (arg4 : Memref sig .tc .vmem S96x12 .f32) (harg4 : arg4.IsWhole)
    (arg5 : Memref sig .tc .vmem S8192x12 .f32) (harg5 : arg5.IsWhole) (arg6 : Memref sig .tc .vmem S1x1x3 .f32) (harg6 : arg6.IsWhole)
    (x0 x1 : Vec F S8192x12 .f32) (x2 : Vec F S12x96 .f32) (x3 : Vec F S96x12 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outMargin x0 x2 x3)
            ∗ owns (c : Thread nD τ) arg6 fullShare (outPartial i x0 x1 x2 x3)) -∗ K ⟨⟩))
      ⊢ wp frame (wpE (defs₀ (F := F)) Variants.none c none) E (cc0__kernel i arg1 harg1 arg2 harg2 arg3 harg3 arg4 harg4 arg5 harg5 arg6 harg6) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (coverMargin _)
  iexists _; isplitr
  swap; · iexact H5
  ipureintro
  try dsimp only
  exact View.read_writes_eq_canon _ _ _ (coverPartial _)

/-! ## The region's proof data -/

/-- The arrays as the region finds them; after the body at point `t` each input's buffer at its block and each output's
    at its function of the input blocks; nothing else kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outMargin (iblk m c 0 t) (iblk m c 2 t) (iblk m c 3 t)
    | ⟨5, _⟩ => outPartial (grid0.coords t) (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outMargin (iblk m c 0 t) (iblk m c 2 t) (iblk m c 3 t) := by dsimp only [dats]
theorem after5 (c : Dev nD) (t : Fin cfg0.N) :
    (dats m 0 c).after 5 t = outPartial (grid0.coords t) (iblk m c 0 t) (iblk m c 1 t) (iblk m c 2 t) (iblk m c 3 t) := by
  dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, and every final state has
    each array of the region at what its write-backs leave and every other buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- No host operation after the region writes an argument array. -/
theorem W_arg (b : Ref sig .tc) (hb : b = main_arg1 ∨ b = main_arg2) (hne : ∀ w, Pipeline.arrRef spec0 w ≠ b) (c : Dev nD) :
    Pipeline.afterTail₀ cfgs (dats m) 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      rcases hb with rfl | rfl
      all_goals repeat' apply And.intro
      all_goals exact StableHlo.devRef_ne_of_ne (by decide))),
    Pipeline.withArrays_of_ne _ c (V0 m c) _ b hne]
  exact V_arg m b (by rcases hb with rfl | rfl <;> simp) c

/-- THE FRAME: @main runs and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans ((A_eq m c 0).trans (V_arg m main_arg0 (.inl rfl) c))),
     ((h c).2 main_arg1 (Pipeline.mem_restRefs_of main_arg1 (by decide) (by decide))).trans (W_arg m main_arg1 (.inl rfl) (by decide) c),
     ((h c).2 main_arg2 (Pipeline.mem_restRefs_of main_arg2 (by decide) (by decide))).trans (W_arg m main_arg2 (.inr rfl) (by decide) c)⟩)
    (run_main m ρ)

end Cert.KernelIdeal.Frame

end
-- ==== Proof.Spec.lean ====
/-
  The mathematics both programs compute, stated once over coordinates.

  For a batch row `b` with features `f b ·` (twelve numbers), and the 96 legal states with rows `S s ·`:
  the potential of state `s` is the inner product `∑ k, f b k * S s k`; the states' weights are
  `exp (potential - rowMax)` with `rowMax` the largest potential of the row (a fold of `max` from `-∞`);
  the marginal of label `l` is the weight of the states that switch `l` on (`S s l > 0`) over the total weight.
  The fidelity term of an entry compares the marginal with the 0/1 label, and each of the three losses is the mean
  of the fidelity terms over a group of label columns: column 0, columns 1-5, columns 6-11.
  Everything is an extended real; float literals stay as their words, the same words in both programs.
-/
import Idealize.ShloMosaic.PureOps.Ideal
import Idealize.ShloMosaic.PureOps.Ideal.Laws

noncomputable section

namespace Cert.Spec

open Idealize.ShloMosaic

/-- The float words the two programs share. -/
abbrev negInf : EReal := Ideal.ofBits .f32 0xFF800000#32
abbrev zeroW : EReal := Ideal.ofBits .f32 0x00000000#32
abbrev oneW : EReal := Ideal.ofBits .f32 0x3F800000#32
abbrev epsW : EReal := Ideal.ofBits .f32 0x322BCC77#32

variable (f : Fin 524288 → Fin 12 → EReal) (y : Fin 524288 → Fin 12 → BitVec 32) (S : Fin 96 → Fin 12 → EReal)

/-- The potential of state `s` on row `b`: the inner product of the row's features with the state's row. -/
def potential (b : Fin 524288) (s : Fin 96) : EReal := ∑ k : Fin 12, f b k * S s k

/-- The largest potential of row `b`, folded from `-∞`. -/
def rowMax (b : Fin 524288) : EReal :=
  (Finset.univ : Finset (Fin 96)).fold max negInf (fun s => potential f S b s)

/-- The weight of state `s` on row `b`. -/
def weight (b : Fin 524288) (s : Fin 96) : EReal := Ideal.exp (potential f S b s - rowMax f S b)

/-- The total weight of row `b`. -/
def partition (b : Fin 524288) : EReal := ∑ s : Fin 96, weight f S b s

/-- Whether state `s` switches label `l` on, as 0 or 1. -/
def legal (s : Fin 96) (l : Fin 12) : EReal := (((Ideal.cmp .ogt (S s l) zeroW).toNat : ℝ) : EReal)

/-- The marginal of label `l` on row `b`. -/
def marginal (b : Fin 524288) (l : Fin 12) : EReal :=
  Ideal.div (∑ s : Fin 96, weight f S b s * legal S s l) (partition f S b)

/-- The 0/1 label as a number. -/
def label (b : Fin 524288) (l : Fin 12) : EReal := (((y b l).toInt : ℝ) : EReal)

/-- The fidelity term of an entry. -/
def fidelity (b : Fin 524288) (l : Fin 12) : EReal :=
  oneW - (Ideal.sqrt (marginal f S b l * label y b l + epsW)
    + Ideal.sqrt ((oneW - marginal f S b l) * (oneW - label y b l) + epsW))

/-- Column `l + 1` of the five middle columns, and column `l + 6` of the last six. -/
def mid (l : Fin 5) : Fin 12 := ⟨l.val + 1, by omega⟩
def last (l : Fin 6) : Fin 12 := ⟨l.val + 6, by omega⟩

/-- The three losses: the fidelity terms summed over the rows and the group's columns, over the group's size. -/
def loss0 : EReal := Ideal.div (∑ b : Fin 524288, fidelity f y S b 0) (Ideal.ofBits .f32 0x49000000#32)
def loss1 : EReal := Ideal.div (∑ b : Fin 524288, ∑ l : Fin 5, fidelity f y S b (mid l)) (Ideal.ofBits .f32 0x4A200000#32)
def loss2 : EReal := Ideal.div (∑ b : Fin 524288, ∑ l : Fin 6, fidelity f y S b (last l)) (Ideal.ofBits .f32 0x4A400000#32)

/-- The losses as the array of three. -/
def losses (j : Fin 3) : EReal := ![loss0 f y S, loss1 f y S, loss2 f y S] j

end Cert.Spec

end
-- ==== Proof.BlockSpec.lean ====
/-
  What ONE grid point's body computes, over coordinates of its blocks: for the point's 8192 rows `x0 r ·` of features
  and `x1 r ·` of labels, the transposed legal-state matrix `st k s` and the mask `mk s l`, the marginal of row `r` and
  label `l` is the weight of the masked states over the total weight, where a state's weight is `exp` of its potential
  less the row's largest; and the point's three partial sums add the fidelity terms of the point's rows over column 0,
  columns 1-5 and columns 6-11.
-/
import proofs.«115745_j21517786153440_2_alg».proof.Proof.Spec

noncomputable section

namespace Cert.Block

open Idealize.ShloMosaic

variable (x0 : Fin 8192 → Fin 12 → EReal) (st : Fin 12 → Fin 96 → EReal) (mk : Fin 96 → Fin 12 → EReal)

/-- The potential of state `s` on the block's row `r`. -/
def pot (r : Fin 8192) (s : Fin 96) : EReal := ∑ k : Fin 12, x0 r k * st k s

/-- The row's largest potential, folded from `-∞`. -/
def rowMax (r : Fin 8192) : EReal :=
  (Finset.univ : Finset (Fin 96)).fold max Cert.Spec.negInf (fun s => pot x0 st r s)

/-- The weight of state `s` on row `r`. -/
def weight (r : Fin 8192) (s : Fin 96) : EReal := Ideal.exp (pot x0 st r s - rowMax x0 st r)

/-- The marginal of label `l` on row `r`. -/
def marg (r : Fin 8192) (l : Fin 12) : EReal :=
  Ideal.div (∑ s : Fin 96, weight x0 st r s * mk s l) (∑ s : Fin 96, weight x0 st r s)

/-- The three partial sums of a block of terms `T r l`: column 0, columns 1-5, columns 6-11, each column summed over the
    block's rows first. -/
def partials (T : Fin 8192 → Fin 12 → EReal) (j : Fin 3) : EReal :=
  ![∑ r : Fin 8192, T r 0,
    ∑ l : Fin 5, ∑ r : Fin 8192, T r (Cert.Spec.mid l),
    ∑ l : Fin 6, ∑ r : Fin 8192, T r (Cert.Spec.last l)] j

end Cert.Block

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KPayA.lean ====
/-
  The marginal's payload of the kernel body read at an index: the first product is the potential (a sum over the twelve
  features), the row's maximum is a fold of max from minus infinity, the weights are the exponentials of the potentials
  less the row's maximum, and the payload is the masked sum of the weights over their row sum.
-/
import proofs.«115745_j21517786153440_2_alg».proof.Proof.Gen.KernelIdeal.Skeleton
import proofs.«115745_j21517786153440_2_alg».proof.Proof.BlockSpec
import proofs.«115745_j21517786153440_2_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The first product: the potential -/

theorem potL0 (i : S8192x96.Idx) (q : dot_S8192x12_S12x96_S8192x96_1_0_0_1_n_n.contr.Idx) :
    (dot_S8192x12_S12x96_S8192x96_1_0_0_1_n_n.lhsIdx i q 0).val = (i 0).val := by
  unfold DotDims.lhsIdx
  rw [dif_neg (show ¬(0 : Fin S8192x12.rank) ∈ dot_S8192x12_S12x96_S8192x96_1_0_0_1_n_n.lhsBatch by decide), dif_pos (show (0 : Fin S8192x12.rank) ∈ dot_S8192x12_S12x96_S8192x96_1_0_0_1_n_n.lhsNonContracting by decide)]
  rfl
theorem potL1 (i : S8192x96.Idx) (q : dot_S8192x12_S12x96_S8192x96_1_0_0_1_n_n.contr.Idx) :
    (dot_S8192x12_S12x96_S8192x96_1_0_0_1_n_n.lhsIdx i q 1).val = (q ⟨0, by decide⟩).val :=
  dot_S8192x12_S12x96_S8192x96_1_0_0_1_n_n.lhsIdx_val_of_single rfl i q
theorem potR0 (i : S8192x96.Idx) (q : dot_S8192x12_S12x96_S8192x96_1_0_0_1_n_n.contr.Idx) :
    (dot_S8192x12_S12x96_S8192x96_1_0_0_1_n_n.rhsIdx i q 0).val = (q ⟨0, by decide⟩).val :=
  dot_S8192x12_S12x96_S8192x96_1_0_0_1_n_n.rhsIdx_val_of_single rfl i q
theorem potR1 (i : S8192x96.Idx) (q : dot_S8192x12_S12x96_S8192x96_1_0_0_1_n_n.contr.Idx) :
    (dot_S8192x12_S12x96_S8192x96_1_0_0_1_n_n.rhsIdx i q 1).val = (i 1).val := by
  unfold DotDims.rhsIdx
  rw [dif_neg (show ¬(1 : Fin S12x96.rank) ∈ dot_S8192x12_S12x96_S8192x96_1_0_0_1_n_n.rhsBatch by decide), dif_pos (show (1 : Fin S12x96.rank) ∈ dot_S8192x12_S12x96_S8192x96_1_0_0_1_n_n.rhsNonContracting by decide)]
  rfl

/-- The product of the rows' block with the transposed state matrix into the zero accumulator, read at (r, s): the sum
    over the twelve features. -/
theorem pot_apply (x0 : FVec Ideal S8192x12 .f32) (x2 : FVec Ideal S12x96 .f32) (r : Fin 8192) (s : Fin 96) :
    matmul dot_S8192x12_S12x96_S8192x96_1_0_0_1_n_n (some .fp32) x0 x2 (constant (F := Ideal) S8192x96 .f32 0x00000000#32) (ix2 r s)
      = ∑ k : Fin 12, x0 (ix2 r k) * x2 (ix2 k s) := by
  refine (Ideal.matmul_constant_zero_apply dot_S8192x12_S12x96_S8192x96_1_0_0_1_n_n (some .fp32) x0 x2 (ix2 r s)).trans ?_
  rw [← Equiv.sum_comp (ValueIdx.contrEquiv1 dot_S8192x12_S12x96_S8192x96_1_0_0_1_n_n 12 rfl rfl).symm]
  refine Finset.sum_congr rfl fun k _ => ?_
  have hk := ValueIdx.contrEquiv1_symm_val dot_S8192x12_S12x96_S8192x96_1_0_0_1_n_n 12 rfl rfl k
  have el : dot_S8192x12_S12x96_S8192x96_1_0_0_1_n_n.lhsIdx (ix2 r s) ((ValueIdx.contrEquiv1 dot_S8192x12_S12x96_S8192x96_1_0_0_1_n_n 12 rfl rfl).symm k) = ix2 r k := funext fun a => Fin.ext (by
    match a with
    | ⟨0, _⟩ => exact potL0 _ _
    | ⟨1, _⟩ => exact (potL1 _ _).trans hk)
  have er : dot_S8192x12_S12x96_S8192x96_1_0_0_1_n_n.rhsIdx (ix2 r s) ((ValueIdx.contrEquiv1 dot_S8192x12_S12x96_S8192x96_1_0_0_1_n_n 12 rfl rfl).symm k) = ix2 k s := funext fun a => Fin.ext (by
    match a with
    | ⟨0, _⟩ => exact (potR0 _ _).trans hk
    | ⟨1, _⟩ => exact potR1 _ _)
  rw [el, er]

/-! ## The second product: the masked weights -/

theorem mskL0 (i : S8192x12.Idx) (q : dot_S8192x96_S96x12_S8192x12_1_0_0_1_n_n.contr.Idx) :
    (dot_S8192x96_S96x12_S8192x12_1_0_0_1_n_n.lhsIdx i q 0).val = (i 0).val := by
  unfold DotDims.lhsIdx
  rw [dif_neg (show ¬(0 : Fin S8192x96.rank) ∈ dot_S8192x96_S96x12_S8192x12_1_0_0_1_n_n.lhsBatch by decide), dif_pos (show (0 : Fin S8192x96.rank) ∈ dot_S8192x96_S96x12_S8192x12_1_0_0_1_n_n.lhsNonContracting by decide)]
  rfl
theorem mskL1 (i : S8192x12.Idx) (q : dot_S8192x96_S96x12_S8192x12_1_0_0_1_n_n.contr.Idx) :
    (dot_S8192x96_S96x12_S8192x12_1_0_0_1_n_n.lhsIdx i q 1).val = (q ⟨0, by decide⟩).val :=
  dot_S8192x96_S96x12_S8192x12_1_0_0_1_n_n.lhsIdx_val_of_single rfl i q
theorem mskR0 (i : S8192x12.Idx) (q : dot_S8192x96_S96x12_S8192x12_1_0_0_1_n_n.contr.Idx) :
    (dot_S8192x96_S96x12_S8192x12_1_0_0_1_n_n.rhsIdx i q 0).val = (q ⟨0, by decide⟩).val :=
  dot_S8192x96_S96x12_S8192x12_1_0_0_1_n_n.rhsIdx_val_of_single rfl i q
theorem mskR1 (i : S8192x12.Idx) (q : dot_S8192x96_S96x12_S8192x12_1_0_0_1_n_n.contr.Idx) :
    (dot_S8192x96_S96x12_S8192x12_1_0_0_1_n_n.rhsIdx i q 1).val = (i 1).val := by
  unfold DotDims.rhsIdx
  rw [dif_neg (show ¬(1 : Fin S96x12.rank) ∈ dot_S8192x96_S96x12_S8192x12_1_0_0_1_n_n.rhsBatch by decide), dif_pos (show (1 : Fin S96x12.rank) ∈ dot_S8192x96_S96x12_S8192x12_1_0_0_1_n_n.rhsNonContracting by decide)]
  rfl

/-- The product of a block of weights with the mask into the zero accumulator, read at (r, l): the sum over the 96
    states. -/
theorem msk_apply (w : FVec Ideal S8192x96 .f32) (x3 : FVec Ideal S96x12 .f32) (r : Fin 8192) (l : Fin 12) :
    matmul dot_S8192x96_S96x12_S8192x12_1_0_0_1_n_n (some .fp32) w x3 (constant (F := Ideal) S8192x12 .f32 0x00000000#32) (ix2 r l)
      = ∑ s : Fin 96, w (ix2 r s) * x3 (ix2 s l) := by
  refine (Ideal.matmul_constant_zero_apply dot_S8192x96_S96x12_S8192x12_1_0_0_1_n_n (some .fp32) w x3 (ix2 r l)).trans ?_
  rw [← Equiv.sum_comp (ValueIdx.contrEquiv1 dot_S8192x96_S96x12_S8192x12_1_0_0_1_n_n 96 rfl rfl).symm]
  refine Finset.sum_congr rfl fun k _ => ?_
  have hk := ValueIdx.contrEquiv1_symm_val dot_S8192x96_S96x12_S8192x12_1_0_0_1_n_n 96 rfl rfl k
  have el : dot_S8192x96_S96x12_S8192x12_1_0_0_1_n_n.lhsIdx (ix2 r l) ((ValueIdx.contrEquiv1 dot_S8192x96_S96x12_S8192x12_1_0_0_1_n_n 96 rfl rfl).symm k) = ix2 r k := funext fun a => Fin.ext (by
    match a with
    | ⟨0, _⟩ => exact mskL0 _ _
    | ⟨1, _⟩ => exact (mskL1 _ _).trans hk)
  have er : dot_S8192x96_S96x12_S8192x12_1_0_0_1_n_n.rhsIdx (ix2 r l) ((ValueIdx.contrEquiv1 dot_S8192x96_S96x12_S8192x12_1_0_0_1_n_n 96 rfl rfl).symm k) = ix2 k l := funext fun a => Fin.ext (by
    match a with
    | ⟨0, _⟩ => exact (mskR0 _ _).trans hk
    | ⟨1, _⟩ => exact mskR1 _ _)
  rw [el, er]

/-! ## The row reductions -/

/-- The index over row r with the state coordinate s inserted is (r, s). -/
theorem lift_row (h : S8192x96.Reduces [1] S8192) (r : Fin 8192) (s : Fin 96) : h.lift (ix1 r) s = ix2 r s :=
  funext fun a => Fin.ext (by match a with | ⟨0, _⟩ => rfl | ⟨1, _⟩ => rfl)

/-- A row's maximum from the word of minus infinity: the fold of max over the row's 96 entries. -/
theorem rowMax_apply (v : FVec Ideal S8192x96 .f32) (r : Fin 8192) :
    multiReduction (F := Ideal) .maximumf [1] S8192 v 0xFF800000#32 reduces_S8192x96_S8192 (.inl rfl) rfl (ix1 r)
      = (Finset.univ : Finset (Fin 96)).fold max Cert.Spec.negInf (fun s => v (ix2 r s)) := by
  refine (Ideal.multiReduction_maximumf_single v 0xFF800000#32 reduces_S8192x96_S8192 (.inl rfl) rfl (ix1 r)).trans ?_
  exact congrArg (fun f => (Finset.univ : Finset (Fin 96)).fold max Cert.Spec.negInf f)
    (funext fun s => congrArg v (lift_row reduces_S8192x96_S8192 r s))

/-- A row's sum from the zero word: the sum of the row's 96 entries. -/
theorem rowSum_apply (v : FVec Ideal S8192x96 .f32) (r : Fin 8192) :
    multiReduction (F := Ideal) .add [1] S8192 v 0x00000000#32 reduces_S8192x96_S8192 (.inl rfl) rfl (ix1 r)
      = ∑ s : Fin 96, v (ix2 r s) := by
  refine (Ideal.multiReduction_add_single v 0x00000000#32 reduces_S8192x96_S8192 (.inl rfl) rfl (ix1 r)).trans ?_
  exact Finset.sum_congr rfl fun s _ => congrArg v (lift_row reduces_S8192x96_S8192 r s)

/-! ## The marginal -/

/-- The block of potentials: the first product. -/
def potV (x0 : FVec Ideal S8192x12 .f32) (x2 : FVec Ideal S12x96 .f32) : FVec Ideal S8192x96 .f32 :=
  matmul dot_S8192x12_S12x96_S8192x96_1_0_0_1_n_n (some .fp32) x0 x2 (constant (F := Ideal) S8192x96 .f32 0x00000000#32)

/-- The block of weights: the exponential of each potential less its row's maximum, the maximum kept as a column and
    spread over the row. -/
def wV (x0 : FVec Ideal S8192x12 .f32) (x2 : FVec Ideal S12x96 .f32) : FVec Ideal S8192x96 .f32 :=
  exp (subf (potV x0 x2) (broadcastTo S8192x96 (shapeCast S8192x1
    (multiReduction (F := Ideal) .maximumf [1] S8192 (potV x0 x2) 0xFF800000#32 reduces_S8192x96_S8192 (.inl rfl) rfl)
    shapeCasts_S8192_S8192x1) broadcasts_S8192x1_S8192x96))

theorem potV_apply (x0 : FVec Ideal S8192x12 .f32) (x2 : FVec Ideal S12x96 .f32) (r : Fin 8192) (s : Fin 96) :
    potV x0 x2 (ix2 r s) = Cert.Block.pot (fun r k => x0 (ix2 r k)) (fun k s => x2 (ix2 k s)) r s :=
  pot_apply x0 x2 r s

theorem wV_apply (x0 : FVec Ideal S8192x12 .f32) (x2 : FVec Ideal S12x96 .f32) (r : Fin 8192) (s : Fin 96) :
    wV x0 x2 (ix2 r s) = Cert.Block.weight (fun r k => x0 (ix2 r k)) (fun k s => x2 (ix2 k s)) r s := by
  unfold wV Cert.Block.weight Cert.Block.rowMax
  show Ideal.exp (potV x0 x2 (ix2 r s) - broadcastTo S8192x96 _ broadcasts_S8192x1_S8192x96 (ix2 r s)) = _
  rw [Cert.LibColumn.broadcastTo_a1_ab_apply, Cert.LibColumn.shapeCast_a_a1_apply, rowMax_apply]
  simp only [potV_apply]

/-- The payload is the masked product of the weights over the column of the weights' row sums. -/
theorem pay2_eq (x0 : Vec Ideal S8192x12 .f32) (x2 : Vec Ideal S12x96 .f32) (x3 : Vec Ideal S96x12 .f32) :
    k0_pay2 (F := Ideal) x0 x2 x3
      = divf (matmul (φ₂ := .f32) dot_S8192x96_S96x12_S8192x12_1_0_0_1_n_n (some .fp32) (wV x0 x2) x3 (constant (F := Ideal) S8192x12 .f32 0x00000000#32))
          (broadcastTo S8192x12 (shapeCast S8192x1
            (multiReduction (F := Ideal) .add [1] S8192 (wV x0 x2) 0x00000000#32 reduces_S8192x96_S8192 (.inl rfl) rfl)
            shapeCasts_S8192_S8192x1) broadcasts_S8192x1_S8192x12) := by
  unfold k0_pay2 wV potV
  simp only [shapeCast_self]

/-- The marginal of label l on the block's row r. -/
theorem pay2_apply (x0 : Vec Ideal S8192x12 .f32) (x2 : Vec Ideal S12x96 .f32) (x3 : Vec Ideal S96x12 .f32) (r : Fin 8192) (l : Fin 12) :
    k0_pay2 (F := Ideal) x0 x2 x3 (ix2 r l)
      = Cert.Block.marg (fun r k => x0 (ix2 r k)) (fun k s => x2 (ix2 k s)) (fun s l => x3 (ix2 s l)) r l := by
  rw [pay2_eq]
  unfold Cert.Block.marg
  show Ideal.div (matmul (φ₂ := .f32) dot_S8192x96_S96x12_S8192x12_1_0_0_1_n_n (some .fp32) (wV x0 x2) x3 (constant (F := Ideal) S8192x12 .f32 0x00000000#32) (ix2 r l))
    (broadcastTo S8192x12 _ broadcasts_S8192x1_S8192x12 (ix2 r l)) = _
  rw [msk_apply, Cert.LibColumn.broadcastTo_a1_ab_apply, Cert.LibColumn.shapeCast_a_a1_apply, rowSum_apply]
  simp only [wV_apply]

end Cert.KernelIdeal.Pay

end
-- ==== Proof.KPay.lean ====
/-
  The two payloads built on the marginal, read at an index: the square root of the marginal times the label plus the
  small word, and one less the marginal times one less the label plus the small word. The labels' block reaches both
  through an identity cast.
-/
import proofs.«115745_j21517786153440_2_alg».proof.Proof.Gen.KernelIdeal.Skeleton
import proofs.«115745_j21517786153440_2_alg».proof.Proof.BlockSpec
import proofs.«115745_j21517786153440_2_alg».proof.Proof.LibColumn
import proofs.«115745_j21517786153440_2_alg».proof.Proof.KPayA
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-! ## The two square-root arguments -/

/-- The labels' block passes through an identity cast. -/
theorem pay4_eq (x1 : Vec Ideal S8192x12 .f32) : k0_pay4 (F := Ideal) x1 = x1 := shapeCast_self _ _

/-- The first fidelity term's square root: of the marginal times the label plus the small word. -/
theorem pay5_apply (x0 : Vec Ideal S8192x12 .f32) (x2 : Vec Ideal S12x96 .f32) (x3 : Vec Ideal S96x12 .f32)
    (x1 : Vec Ideal S8192x12 .f32) (r : Fin 8192) (l : Fin 12) :
    k0_pay5 (F := Ideal) x0 x2 x3 x1 (ix2 r l)
      = Ideal.sqrt (k0_pay2 (F := Ideal) x0 x2 x3 (ix2 r l) * x1 (ix2 r l) + Cert.Spec.epsW) := by
  unfold k0_pay5
  rw [pay4_eq]
  rfl

/-- The second fidelity term's argument: one less the marginal, times one less the label, plus the small word. -/
theorem pay6_apply (x0 : Vec Ideal S8192x12 .f32) (x2 : Vec Ideal S12x96 .f32) (x3 : Vec Ideal S96x12 .f32)
    (x1 : Vec Ideal S8192x12 .f32) (r : Fin 8192) (l : Fin 12) :
    k0_pay6 (F := Ideal) x0 x2 x3 x1 (ix2 r l)
      = (Cert.Spec.oneW - k0_pay2 (F := Ideal) x0 x2 x3 (ix2 r l)) * (Cert.Spec.oneW - x1 (ix2 r l)) + Cert.Spec.epsW := by
  unfold k0_pay6
  rw [pay4_eq]
  rfl

end Cert.KernelIdeal.Pay

end
-- ==== Proof.KPay1.lean ====
/-
  Two of the kernel body's values read at an index: the row-validity flag, which is 1 on every row of every block
  (the rows of all 64 blocks lie below 524288), and the block's three partial sums, which add the masked terms
  `(1 - (v30 + sqrt v37)) · flag` over column 0, columns 1-5 and columns 6-11.
-/
import proofs.«115745_j21517786153440_2_alg».proof.Proof.Gen.KernelIdeal.Skeleton
import proofs.«115745_j21517786153440_2_alg».proof.Proof.BlockSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

variable [Facts]

/-- Row `a · 8192 + r` of block `a < 64` lies below 524288, as 32-bit signed words. -/
theorem flag_word (a r : Nat) (ha : a < 64) (hr : r < 8192) :
    (BitVec.ofNat 32 a * 8192#32 + BitVec.ofNat 32 (0 * 8192 + r)).slt 524288#32 = true := by
  have hx : (BitVec.ofNat 32 a * 8192#32 + BitVec.ofNat 32 (0 * 8192 + r)).toNat = a * 8192 + r := by
    simp only [BitVec.toNat_add, BitVec.toNat_mul, BitVec.toNat_ofNat]
    omega
  have hi : (BitVec.ofNat 32 a * 8192#32 + BitVec.ofNat 32 (0 * 8192 + r)).toInt = ((a * 8192 + r : Nat) : Int) := by
    rw [BitVec.toInt_eq_toNat_cond, hx, if_pos (by omega)]
  rw [BitVec.slt, decide_eq_true_iff, hi]
  show ((a * 8192 + r : Nat) : Int) < 524288
  omega

/-- The row-validity flag is 1 on every row of every block. -/
theorem pay3_apply (i : grid0.Coords) (r : Fin 8192) : k0_pay3 (F := Ideal) i (ix2 r 0) = 1 := by
  have ha : (i 0).val < 64 := (i 0).isLt
  unfold k0_pay3
  show ((((BitVec.ofBool ((BitVec.ofNat 32 (i 0).val * 8192#32 + BitVec.ofNat 32 (0 * 8192 + r.val)).slt 524288#32)).setWidth 32).toInt : ℝ) : EReal) = 1
  rw [flag_word (i 0).val r.val ha r.isLt]
  have h1 : ((BitVec.ofBool true).setWidth 32).toInt = 1 := by decide
  rw [h1]
  norm_num

/-! ### The block's partial sums -/

/-- The masked terms: `(1 - (v30 + sqrt v37))` times the flag column spread over the twelve columns. -/
def terms (v24 : FVec Ideal S8192x1 .f32) (v30 v37 : FVec Ideal S8192x12 .f32) : FVec Ideal S8192x12 .f32 :=
  mulf (subf (broadcast S8192x12 (Scalar.ofBits (F := Ideal) .f32 0x3F800000#32)) (addf v30 (sqrt v37)))
    (broadcastTo S8192x12 v24 broadcasts_S8192x1_S8192x12)

/-- Their column sums over the block's rows. -/
def colSums (v24 : FVec Ideal S8192x1 .f32) (v30 v37 : FVec Ideal S8192x12 .f32) : FVec Ideal S12 .f32 :=
  multiReduction .add [0] S12 (terms v24 v30 v37) 0x00000000#32 reduces_S8192x12_S12 (.inl rfl) rfl

/-- The column sums as a one-row array. -/
def sumsRow (v24 : FVec Ideal S8192x1 .f32) (v30 v37 : FVec Ideal S8192x12 .f32) : FVec Ideal S1x12 .f32 :=
  shapeCast S1x12 (colSums v24 v30 v37) shapeCasts_S12_S1x12

/-- The value stored is the three group sums of the one-row array, joined and reshaped. -/
theorem pay1_unfold (v24 : FVec Ideal S8192x1 .f32) (v30 v37 : FVec Ideal S8192x12 .f32) :
    k0_pay1 (F := Ideal) v24 v30 v37
      = shapeCast S1x1x3
          (concatenate S1x3 1
            [⟨S1x1, extractStridedSlice S1x1 ![0, 0] (sumsRow v24 v30 v37) slices_S1x12_o0_0_S1x1⟩,
             ⟨S1x1, shapeCast S1x1 (multiReduction .add [1] S1
                (extractStridedSlice S1x5 ![0, 1] (sumsRow v24 v30 v37) slices_S1x12_o0_1_S1x5)
                0x00000000#32 reduces_S1x5_S1 (.inl rfl) rfl) shapeCasts_S1_S1x1⟩,
             ⟨S1x1, shapeCast S1x1 (multiReduction .add [1] S1
                (extractStridedSlice S1x6 ![0, 6] (sumsRow v24 v30 v37) slices_S1x12_o0_6_S1x6)
                0x00000000#32 reduces_S1x6_S1 (.inl rfl) rfl) shapeCasts_S1_S1x1⟩]
            concatenates_S1x1_S1x1_S1x1_S1x3_d1)
          shapeCasts_S1x3_S1x1x3 := rfl

/-- A masked term at `(r, c)`. -/
theorem terms_apply (v24 : FVec Ideal S8192x1 .f32) (v30 v37 : FVec Ideal S8192x12 .f32) (r : Fin 8192) (c : Fin 12) :
    terms v24 v30 v37 (ix2 r c)
      = (Cert.Spec.oneW - (v30 (ix2 r c) + Ideal.sqrt (v37 (ix2 r c)))) * v24 (ix2 r 0) := by
  unfold terms
  rw [ValueIdx.mulf_apply, broadcastTo_apply v24 broadcasts_S8192x1_S8192x12 (ix2 r c) (ix2 r (0 : Fin 1))
    (fun a => match a with
      | ⟨0, _⟩ => by show r.val = if (8192 : Nat) = 1 then 0 else r.val; rw [if_neg (by decide)]
      | ⟨1, _⟩ => by show 0 = if (1 : Nat) = 1 then 0 else c.val; rw [if_pos rfl])]
  rfl

/-- A column sum. -/
theorem colSums_apply (v24 : FVec Ideal S8192x1 .f32) (v30 v37 : FVec Ideal S8192x12 .f32) (c : Fin 12) :
    colSums v24 v30 v37 (ix1 c)
      = ∑ r : Fin 8192, (Cert.Spec.oneW - (v30 (ix2 r c) + Ideal.sqrt (v37 (ix2 r c)))) * v24 (ix2 r 0) := by
  unfold colSums
  refine (Ideal.multiReduction_add_single (terms v24 v30 v37) 0x00000000#32 reduces_S8192x12_S12 (.inl rfl) rfl (ix1 c)).trans ?_
  refine Finset.sum_congr rfl fun (r : Fin 8192) _ => ?_
  have e : reduces_S8192x12_S12.lift (ix1 c) r = ix2 r c :=
    funext fun a => Fin.ext (by match a with | ⟨0, _⟩ => rfl | ⟨1, _⟩ => rfl)
  exact (congrArg (terms v24 v30 v37) e).trans (terms_apply v24 v30 v37 r c)

/-- The one-row array at `(0, c)`. -/
theorem sumsRow_apply (v24 : FVec Ideal S8192x1 .f32) (v30 v37 : FVec Ideal S8192x12 .f32) (c : Fin 12) :
    sumsRow v24 v30 v37 (ix2 (0 : Fin 1) c)
      = ∑ r : Fin 8192, (Cert.Spec.oneW - (v30 (ix2 r c) + Ideal.sqrt (v37 (ix2 r c)))) * v24 (ix2 r 0) := by
  unfold sumsRow
  rw [ValueIdx.shapeCast_a_1a_apply _ shapeCasts_S12_S1x12 0 c]
  exact colSums_apply v24 v30 v37 c

/-- Three one-element pieces joined along the second axis, read at `(0, j)`: piece `j`. -/
theorem rowconcat3_apply (a b c : S1x1.Idx → EReal) (j : Fin 3) :
    concatenate S1x3 1 [⟨S1x1, a⟩, ⟨S1x1, b⟩, ⟨S1x1, c⟩] concatenates_S1x1_S1x1_S1x1_S1x3_d1 (ix2 (0 : Fin 1) j)
      = ![a (ix2 0 0), b (ix2 0 0), c (ix2 0 0)] j := by
  have hi : ∀ b' : Fin S1x1.rank, b'.cast (rfl : S1x1.rank = S1x3.rank) ≠ (1 : Fin S1x3.rank) →
      ((ix2 (0 : Fin 1) (0 : Fin 1) : S1x1.Idx) b').val
        = ((ix2 (0 : Fin 1) j : S1x3.Idx) (b'.cast rfl)).val := fun b' hb' =>
    match b', hb' with
    | ⟨0, _⟩, _ => rfl
    | ⟨1, _⟩, hb' => absurd rfl hb'
  match j with
  | ⟨0, _⟩ =>
    exact concatenate_apply_piece (t := S1x3) 1 [⟨S1x1, a⟩, ⟨S1x1, b⟩, ⟨S1x1, c⟩] concatenates_S1x1_S1x1_S1x1_S1x3_d1 _ 0
      (by show 0 < 3; omega) S1x1 a rfl rfl 0 rfl (ix2 0 0) hi rfl
  | ⟨1, _⟩ =>
    exact concatenate_apply_piece (t := S1x3) 1 [⟨S1x1, a⟩, ⟨S1x1, b⟩, ⟨S1x1, c⟩] concatenates_S1x1_S1x1_S1x1_S1x3_d1 _ 1
      (by show 1 < 3; omega) S1x1 b rfl rfl 1 rfl (ix2 0 0) hi rfl
  | ⟨2, _⟩ =>
    exact concatenate_apply_piece (t := S1x3) 1 [⟨S1x1, a⟩, ⟨S1x1, b⟩, ⟨S1x1, c⟩] concatenates_S1x1_S1x1_S1x1_S1x3_d1 _ 2
      (by show 2 < 3; omega) S1x1 c rfl rfl 2 rfl (ix2 0 0) hi rfl

/-- A one-row array of five summed along its row. -/
theorem rowSum5 (x : FVec Ideal S1x5 .f32) :
    multiReduction .add [1] S1 x 0x00000000#32 reduces_S1x5_S1 (.inl rfl) rfl (ix1 (0 : Fin 1))
      = ∑ l : Fin 5, x (ix2 (0 : Fin 1) l) := by
  refine (Ideal.multiReduction_add_single x 0x00000000#32 reduces_S1x5_S1 (.inl rfl) rfl (ix1 (0 : Fin 1))).trans ?_
  refine Finset.sum_congr rfl fun (l : Fin 5) _ => congrArg x ?_
  exact funext fun a => Fin.ext (by match a with | ⟨0, _⟩ => rfl | ⟨1, _⟩ => rfl)

/-- A one-row array of six summed along its row. -/
theorem rowSum6 (x : FVec Ideal S1x6 .f32) :
    multiReduction .add [1] S1 x 0x00000000#32 reduces_S1x6_S1 (.inl rfl) rfl (ix1 (0 : Fin 1))
      = ∑ l : Fin 6, x (ix2 (0 : Fin 1) l) := by
  refine (Ideal.multiReduction_add_single x 0x00000000#32 reduces_S1x6_S1 (.inl rfl) rfl (ix1 (0 : Fin 1))).trans ?_
  refine Finset.sum_congr rfl fun (l : Fin 6) _ => congrArg x ?_
  exact funext fun a => Fin.ext (by match a with | ⟨0, _⟩ => rfl | ⟨1, _⟩ => rfl)

/-- The first piece: column 0's sum. -/
theorem grp0_apply (v24 : FVec Ideal S8192x1 .f32) (v30 v37 : FVec Ideal S8192x12 .f32) :
    extractStridedSlice S1x1 ![0, 0] (sumsRow v24 v30 v37) slices_S1x12_o0_0_S1x1 (ix2 0 0)
      = ∑ r : Fin 8192, (Cert.Spec.oneW - (v30 (ix2 r 0) + Ideal.sqrt (v37 (ix2 r 0)))) * v24 (ix2 r 0) := by
  rw [extractStridedSlice_apply ![0, 0] (sumsRow v24 v30 v37) slices_S1x12_o0_0_S1x1 (ix2 0 0) (ix2 (0 : Fin 1) (0 : Fin 12))
    (fun a => match a with
      | ⟨0, _⟩ => by show 0 = 0 + 0; omega
      | ⟨1, _⟩ => by show 0 = 0 + 0; omega)]
  exact sumsRow_apply v24 v30 v37 0

/-- The second piece: the sum of columns 1-5's sums. -/
theorem grp1_apply (v24 : FVec Ideal S8192x1 .f32) (v30 v37 : FVec Ideal S8192x12 .f32) :
    shapeCast S1x1 (multiReduction .add [1] S1
        (extractStridedSlice S1x5 ![0, 1] (sumsRow v24 v30 v37) slices_S1x12_o0_1_S1x5)
        0x00000000#32 reduces_S1x5_S1 (.inl rfl) rfl) shapeCasts_S1_S1x1 (ix2 0 0)
      = ∑ l : Fin 5, ∑ r : Fin 8192, (Cert.Spec.oneW - (v30 (ix2 r (Cert.Spec.mid l)) + Ideal.sqrt (v37 (ix2 r (Cert.Spec.mid l))))) * v24 (ix2 r 0) := by
  refine (ValueIdx.shapeCast_a_1a_apply (a := 1) _ shapeCasts_S1_S1x1 0 0).trans ?_
  refine (rowSum5 _).trans ?_
  refine Finset.sum_congr rfl fun (l : Fin 5) _ => ?_
  rw [extractStridedSlice_apply ![0, 1] (sumsRow v24 v30 v37) slices_S1x12_o0_1_S1x5 (ix2 0 l) (ix2 (0 : Fin 1) (Cert.Spec.mid l))
    (fun a => match a with
      | ⟨0, _⟩ => by show 0 = 0 + 0; omega
      | ⟨1, _⟩ => by show l.val + 1 = 1 + l.val; omega)]
  exact sumsRow_apply v24 v30 v37 (Cert.Spec.mid l)

/-- The third piece: the sum of columns 6-11's sums. -/
theorem grp2_apply (v24 : FVec Ideal S8192x1 .f32) (v30 v37 : FVec Ideal S8192x12 .f32) :
    shapeCast S1x1 (multiReduction .add [1] S1
        (extractStridedSlice S1x6 ![0, 6] (sumsRow v24 v30 v37) slices_S1x12_o0_6_S1x6)
        0x00000000#32 reduces_S1x6_S1 (.inl rfl) rfl) shapeCasts_S1_S1x1 (ix2 0 0)
      = ∑ l : Fin 6, ∑ r : Fin 8192, (Cert.Spec.oneW - (v30 (ix2 r (Cert.Spec.last l)) + Ideal.sqrt (v37 (ix2 r (Cert.Spec.last l))))) * v24 (ix2 r 0) := by
  refine (ValueIdx.shapeCast_a_1a_apply (a := 1) _ shapeCasts_S1_S1x1 0 0).trans ?_
  refine (rowSum6 _).trans ?_
  refine Finset.sum_congr rfl fun (l : Fin 6) _ => ?_
  rw [extractStridedSlice_apply ![0, 6] (sumsRow v24 v30 v37) slices_S1x12_o0_6_S1x6 (ix2 0 l) (ix2 (0 : Fin 1) (Cert.Spec.last l))
    (fun a => match a with
      | ⟨0, _⟩ => by show 0 = 0 + 0; omega
      | ⟨1, _⟩ => by show l.val + 6 = 6 + l.val; omega)]
  exact sumsRow_apply v24 v30 v37 (Cert.Spec.last l)

/-- The block's three partial sums. -/
theorem pay1_apply (v24 : FVec Ideal S8192x1 .f32) (v30 v37 : FVec Ideal S8192x12 .f32) (j : Fin 3) :
    k0_pay1 (F := Ideal) v24 v30 v37 (ix3 0 0 j)
      = Cert.Block.partials (fun r l => (Cert.Spec.oneW - (v30 (ix2 r l) + Ideal.sqrt (v37 (ix2 r l)))) * v24 (ix2 r 0)) j := by
  rw [pay1_unfold, ValueIdx.shapeCast_ab_1ab_apply _ shapeCasts_S1x3_S1x1x3 0 0 j, rowconcat3_apply,
    grp0_apply, grp1_apply, grp2_apply]
  rfl

end Cert.KernelIdeal.Pay

end
-- ==== Proof.KFinal.lean ====
/-
  What the region's two output arrays hold after the run, at the exact values.

  Grid point `t` handles rows `8192·t … 8192·t + 8191`. Its marginals' block is, entry by entry, the marginal of the
  specification at the array's row and label: the block's features are those rows of the features, the transposed
  matrix read at `(k, s)` is the legal-state matrix at `(s, k)`, and the mask at `(s, l)` is the specification's
  0/1 flag. Its three partial sums add the specification's fidelity terms of its own rows (the row-validity flag is 1
  on every row, since `8192·t + r < 524288`). The blocks tile both arrays, so each array is ONE function of the
  argument arrays.
-/
import proofs.«115745_j21517786153440_2_alg».proof.Proof.KernelIdealFrame
import proofs.«115745_j21517786153440_2_alg».proof.Proof.KPay
import proofs.«115745_j21517786153440_2_alg».proof.Proof.KPay1
import proofs.«115745_j21517786153440_2_alg».proof.Proof.BlockSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.Final

open Cert.KernelIdeal Cert.KernelIdeal.Gen Cert.KernelIdeal.Frame Cert.KernelIdeal.Pay
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## Coordinates -/

/-- Row `r` of grid point `t`'s block is row `8192·t + r` of the arrays. -/
def row (t : Fin 64) (r : Fin 8192) : Fin 524288 := ⟨t.val * 8192 + r.val, by have := t.isLt; have := r.isLt; omega⟩

/-- A grid point as a number below 64. -/
def pt (t : Fin cfg0.N) : Fin 64 := Fin.cast N_0 t

/-- The argument arrays over coordinates. -/
def feats (c : Dev nD) : Fin 524288 → Fin 12 → EReal := fun b k => m ((c : Thread nD τ).loc main_arg0) (ix2 b k)
def labs (c : Dev nD) : Fin 524288 → Fin 12 → BitVec 32 := fun b k => m ((c : Thread nD τ).loc main_arg1) (ix2 b k)
def states (c : Dev nD) : Fin 96 → Fin 12 → EReal := fun s k => m ((c : Thread nD τ).loc main_arg2) (ix2 s k)

/-! ## The arrays the host lines before the region wrote -/

theorem V_labels (c : Dev nD) : (V m c main_v0 : S524288x12.Idx → EReal)
    = sitofp (F := Ideal) .f32 (m ((c : Thread nD τ).loc main_arg1)) := by
  show StableHlo.after hostOps0 (fun b => m (c, b)) (Proc.devRef .tc main_v0) = _
  after_results

theorem V_statesT (c : Dev nD) : (V m c main_v1 : S12x96.Idx → EReal)
    = transpose S12x96 [1, 0] (m ((c : Thread nD τ).loc main_arg2)) transposes_S96x12_S12x96_1_0 := by
  show StableHlo.after hostOps0 (fun b => m (c, b)) (Proc.devRef .tc main_v1) = _
  after_results

theorem V_mask (c : Dev nD) : (V m c main_v4 : S96x12.Idx → EReal)
    = uitofp (F := Ideal) .f32 (cmpf .ogt (m ((c : Thread nD τ).loc main_arg2))
        (broadcastInDim S96x12 ![] bcast_S_S96x12 (constant (F := Ideal) S_ .f32 0x00000000#32))) := by
  show StableHlo.after hostOps0 (fun b => m (c, b)) (Proc.devRef .tc main_v4) = _
  after_results

/-! ## The index maps, decided over the grid -/

theorem hz2 : (![0, 0] : Fin 2 → Nat) = fun _ => 0 := funext fun a => by fin_cases a <;> rfl
theorem hz3 : (![0, 0, 0] : Fin 3 → Nat) = fun _ => 0 := funext fun a => by fin_cases a <;> rfl

theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The input blocks read at coordinates -/

theorem blk_feats (c : Dev nD) (t : Fin cfg0.N) (r : Fin 8192) (k : Fin 12) :
    iblk m c 0 t (ix2 r k) = feats m c (row (pt t) r) k := by
  show V m c main_arg0 (((cfg0.win 0).blk t).view.emb (ix2 r k)) = _
  rw [V_arg m main_arg0 (.inl rfl) c]
  unfold feats
  refine congrArg _ (funext fun a => Fin.ext ?_)
  obtain ⟨e0, e1, -⟩ := idx_facts t
  match a with
  | ⟨0, _⟩ => show win0_0.index t (0 : Fin 2) * 8192 + 1 * r.val = t.val * 8192 + r.val; omega
  | ⟨1, _⟩ => show win0_0.index t (1 : Fin 2) * 12 + 1 * k.val = k.val; omega

theorem blk_labels (c : Dev nD) (t : Fin cfg0.N) (r : Fin 8192) (l : Fin 12) :
    iblk m c 1 t (ix2 r l) = Cert.Spec.label (labs m c) (row (pt t) r) l := by
  show V m c main_v0 (((cfg0.win 1).blk t).view.emb (ix2 r l)) = _
  rw [V_labels]
  unfold Cert.Spec.label labs
  show (((m ((c : Thread nD τ).loc main_arg1) (((cfg0.win 1).blk t).view.emb (ix2 r l))).toInt : ℝ) : EReal) = _
  refine congrArg (fun i => (((m ((c : Thread nD τ).loc main_arg1) i).toInt : ℝ) : EReal)) (funext fun a => Fin.ext ?_)
  obtain ⟨-, -, e0, e1, -⟩ := idx_facts t
  match a with
  | ⟨0, _⟩ => show win0_1.index t (0 : Fin 2) * 8192 + 1 * r.val = t.val * 8192 + r.val; omega
  | ⟨1, _⟩ => show win0_1.index t (1 : Fin 2) * 12 + 1 * l.val = l.val; omega

theorem blk_statesT (c : Dev nD) (t : Fin cfg0.N) (k : Fin 12) (s : Fin 96) :
    iblk m c 2 t (ix2 k s) = states m c s k := by
  show V m c main_v1 (((cfg0.win 2).blk t).view.emb (ix2 k s)) = _
  rw [V_statesT]
  have e : ((cfg0.win 2).blk t).view.emb (ix2 k s) = ix2 k s := by
    funext a; apply Fin.ext
    obtain ⟨-, -, -, -, e0, e1, -⟩ := idx_facts t
    match a with
    | ⟨0, _⟩ => show win0_2.index t (0 : Fin 2) * 12 + 1 * k.val = k.val; omega
    | ⟨1, _⟩ => show win0_2.index t (1 : Fin 2) * 96 + 1 * s.val = s.val; omega
  rw [e]
  exact transpose_ix2_apply _ _ k s

theorem blk_mask (c : Dev nD) (t : Fin cfg0.N) (s : Fin 96) (l : Fin 12) :
    iblk m c 3 t (ix2 s l) = Cert.Spec.legal (states m c) s l := by
  show V m c main_v4 (((cfg0.win 3).blk t).view.emb (ix2 s l)) = _
  rw [V_mask]
  have e : ((cfg0.win 3).blk t).view.emb (ix2 s l) = ix2 s l := by
    funext a; apply Fin.ext
    obtain ⟨-, -, -, -, -, -, e0, e1, -⟩ := idx_facts t
    match a with
    | ⟨0, _⟩ => show win0_3.index t (0 : Fin 2) * 96 + 1 * s.val = s.val; omega
    | ⟨1, _⟩ => show win0_3.index t (1 : Fin 2) * 12 + 1 * l.val = l.val; omega
  rw [e]
  unfold Cert.Spec.legal states
  rfl

/-! ## A block's marginal is the specification's -/

theorem marg_eq (x0 : Fin 8192 → Fin 12 → EReal) (st : Fin 12 → Fin 96 → EReal) (mk : Fin 96 → Fin 12 → EReal)
    (f : Fin 524288 → Fin 12 → EReal) (S : Fin 96 → Fin 12 → EReal) (r : Fin 8192) (b : Fin 524288) (l : Fin 12)
    (hx : ∀ k, x0 r k = f b k) (hst : ∀ k s, st k s = S s k) (hmk : ∀ s l, mk s l = Cert.Spec.legal S s l) :
    Cert.Block.marg x0 st mk r l = Cert.Spec.marginal f S b l := by
  have hp : ∀ s, Cert.Block.pot x0 st r s = Cert.Spec.potential f S b s := fun s => by
    unfold Cert.Block.pot Cert.Spec.potential
    exact Finset.sum_congr rfl fun k _ => by rw [hx, hst]
  have hm : Cert.Block.rowMax x0 st r = Cert.Spec.rowMax f S b := by
    unfold Cert.Block.rowMax Cert.Spec.rowMax
    rw [show (fun s => Cert.Block.pot x0 st r s) = fun s => Cert.Spec.potential f S b s from funext hp]
  have hw : ∀ s, Cert.Block.weight x0 st r s = Cert.Spec.weight f S b s := fun s => by
    unfold Cert.Block.weight Cert.Spec.weight
    rw [hp, hm]
  unfold Cert.Block.marg Cert.Spec.marginal Cert.Spec.partition
  rw [Finset.sum_congr rfl fun s _ => by rw [hw s, hmk s l], Finset.sum_congr rfl fun s _ => hw s]

/-! ## The two output arrays as functions of the argument arrays -/

/-- The marginals' array: the specification's marginal at the array's row and label. -/
def marginalsArr (c : Dev nD) : S524288x12.Idx → EReal :=
  fun i => Cert.Spec.marginal (feats m c) (states m c) (i 0) (i 1)

/-- The partial sums' array: point `t`'s three partial sums of the specification's fidelity terms over its rows. -/
def partialsArr (c : Dev nD) : S64x1x3.Idx → EReal :=
  fun i => Cert.Block.partials (fun r l => Cert.Spec.fidelity (feats m c) (labs m c) (states m c) (row (i 0) r) l) (i 2)

/-- The body's marginal at row `r` of point `t` is the specification's at row `8192·t + r`. -/
theorem pay2_at (c : Dev nD) (t : Fin cfg0.N) (r : Fin 8192) (l : Fin 12) :
    k0_pay2 (F := Ideal) (iblk m c 0 t) (iblk m c 2 t) (iblk m c 3 t) (ix2 r l)
      = Cert.Spec.marginal (feats m c) (states m c) (row (pt t) r) l :=
  (pay2_apply (iblk m c 0 t) (iblk m c 2 t) (iblk m c 3 t) r l).trans
    (marg_eq _ _ _ (feats m c) (states m c) r (row (pt t) r) l (fun k => blk_feats m c t r k)
      (fun k s => blk_statesT m c t k s) (fun s l => blk_mask m c t s l))

/-- WHAT POINT `t` WRITES BACK to the marginals' array is block `t` of `marginalsArr`. -/
theorem flushed4_eq (c : Dev nD) (t : Fin cfg0.N) :
    (dats m 0 c).flushed 4 t = ((cfg0.win 4).blk t).view.read (Elt Ideal) (marginalsArr m c) := by
  show (cfg0.win 4).cut (grid0.coords t) ((dats m 0 c).after 4 t) = _
  rw [after4]
  unfold outMargin
  rw [View.canon_unit_zero hz2]
  simp only [View.ld_unit_zero (S := S8192x12) hz2, View.ld_unit_zero (S := S12x96) hz2, View.ld_unit_zero (S := S96x12) hz2]
  funext j
  obtain ⟨r, l, rfl⟩ : ∃ (r : Fin 8192) (l : Fin 12), j = ix2 r l := ⟨j 0, j 1, eq_ix2 j⟩
  refine (pay2_at m c t r l).trans ?_
  show _ = marginalsArr m c (((cfg0.win 4).blk t).view.emb (ix2 r l))
  have e : ((cfg0.win 4).blk t).view.emb (ix2 r l) = ix2 (row (pt t) r) l := by
    funext a; apply Fin.ext
    obtain ⟨-, -, -, -, -, -, -, -, e0, e1, -⟩ := idx_facts t
    match a with
    | ⟨0, _⟩ => show win0_4.index t (0 : Fin 2) * 8192 + 1 * r.val = t.val * 8192 + r.val; omega
    | ⟨1, _⟩ => show win0_4.index t (1 : Fin 2) * 12 + 1 * l.val = l.val; omega
  rw [e]
  rfl

/-- WHAT POINT `t` WRITES BACK to the partial sums' array is block `t` of `partialsArr`. -/
theorem flushed5_eq (c : Dev nD) (t : Fin cfg0.N) :
    (dats m 0 c).flushed 5 t = ((cfg0.win 5).blk t).view.read (Elt Ideal) (partialsArr m c) := by
  show (cfg0.win 5).cut (grid0.coords t) ((dats m 0 c).after 5 t) = _
  rw [after5]
  unfold outPartial
  rw [View.canon_unit_zero hz3]
  simp only [View.ld_unit_zero (S := S8192x12) hz2, View.ld_unit_zero (S := S12x96) hz2, View.ld_unit_zero (S := S96x12) hz2]
  funext j
  obtain ⟨a0, a1, q, rfl⟩ : ∃ (a0 a1 : Fin 1) (q : Fin 3), j = ix3 a0 a1 q := ⟨j 0, j 1, j 2, eq_ix3 j⟩
  obtain rfl : a0 = 0 := Subsingleton.elim _ _
  obtain rfl : a1 = 0 := Subsingleton.elim _ _
  refine (pay1_apply _ _ _ q).trans ?_
  show _ = partialsArr m c (((cfg0.win 5).blk t).view.emb (ix3 0 0 q))
  have e : ((cfg0.win 5).blk t).view.emb (ix3 0 0 q) = ix3 (pt t) 0 q := by
    funext a; apply Fin.ext
    obtain ⟨-, -, -, -, -, -, -, -, -, -, e0, e1, e2⟩ := idx_facts t
    match a with
    | ⟨0, _⟩ => show win0_5.index t (0 : Fin 3) * 1 + 1 * 0 = t.val; omega
    | ⟨1, _⟩ => show win0_5.index t (1 : Fin 3) * 1 + 1 * 0 = 0; omega
    | ⟨2, _⟩ => show win0_5.index t (2 : Fin 3) * 3 + 1 * q.val = q.val; omega
  rw [e]
  unfold partialsArr
  refine congrArg (fun T => Cert.Block.partials T q) (funext fun r => funext fun l => ?_)
  show _ = Cert.Spec.fidelity (feats m c) (labs m c) (states m c) (row (pt t) r) l
  rw [pay5_apply, pay6_apply, pay3_apply, mul_one, pay2_at, blk_labels]
  rfl

/-! ## The blocks tile the arrays -/

theorem mem_blk4 (t : Fin cfg0.N) (i : S524288x12.Idx) :
    i ∈ ((cfg0.win 4).blk t).view.set ↔ ∀ a : Fin 2, win0_4.index t a * S8192x12.size a ≤ (i a).val ∧ (i a).val < win0_4.index t a * S8192x12.size a + S8192x12.size a := by
  show i ∈ ((View.whole main_v5_0).slice (win0_4.rect t)).set ↔ _
  rw [View.set_slice_whole, Rect.mem_set_unit]
  exact Iff.rfl

theorem mem_blk5 (t : Fin cfg0.N) (i : S64x1x3.Idx) :
    i ∈ ((cfg0.win 5).blk t).view.set ↔ ∀ a : Fin 3, win0_5.index t a * S1x1x3.size a ≤ (i a).val ∧ (i a).val < win0_5.index t a * S1x1x3.size a + S1x1x3.size a := by
  show i ∈ ((View.whole main_v5_1).slice (win0_5.rect t)).set ↔ _
  rw [View.set_slice_whole, Rect.mem_set_unit]
  exact Iff.rfl

/-- Row `b` is in the block of point `b / 8192`. -/
theorem cover4 (i : S524288x12.Idx) : ∃ t : Fin cfg0.N, (cfg0.win 4).flush t = true ∧ i ∈ ((cfg0.win 4).blk t).view.set := by
  have hi0 : (i 0).val < 524288 := (i 0).isLt
  have hi1 : (i 1).val < 12 := (i 1).isLt
  let t : Fin cfg0.N := Fin.cast N_0.symm ⟨(i 0).val / 8192, by omega⟩
  have ht : t.val = (i 0).val / 8192 := rfl
  refine ⟨t, flush0_4 t, ?_⟩
  rw [mem_blk4]
  obtain ⟨-, -, -, -, -, -, -, -, e0, e1, -⟩ := idx_facts t
  intro a
  match a with
  | ⟨0, _⟩ => show win0_4.index t (0 : Fin 2) * 8192 ≤ (i 0).val ∧ (i 0).val < win0_4.index t (0 : Fin 2) * 8192 + 8192; omega
  | ⟨1, _⟩ => show win0_4.index t (1 : Fin 2) * 12 ≤ (i 1).val ∧ (i 1).val < win0_4.index t (1 : Fin 2) * 12 + 12; omega

/-- Partial-sum row `t` is the block of point `t`. -/
theorem cover5 (i : S64x1x3.Idx) : ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 3 := (i 2).isLt
  let t : Fin cfg0.N := Fin.cast N_0.symm ⟨(i 0).val, hi0⟩
  have ht : t.val = (i 0).val := rfl
  refine ⟨t, flush0_5 t, ?_⟩
  rw [mem_blk5]
  obtain ⟨-, -, -, -, -, -, -, -, -, -, e0, e1, e2⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 3 ≤ (i 2).val ∧ (i 2).val < win0_5.index t (2 : Fin 3) * 3 + 3; omega

/-! ## The arrays after the run -/

theorem final4 (c : Dev nD) : (dats m 0 c).arrAt 4 cfg0.N = marginalsArr m c :=
  (dats m 0 c).arrAt_eq_of_cover 4 (marginalsArr m c) (fun t _ => flushed4_eq m c t) cover4

theorem final5 (c : Dev nD) : (dats m 0 c).arrAt 5 cfg0.N = partialsArr m c :=
  (dats m 0 c).arrAt_eq_of_cover 5 (partialsArr m c) (fun t _ => flushed5_eq m c t) cover5

end Cert.KernelIdeal.Final

end
-- ==== Proof.LibGroupSum.lean ====
/-
  A sum over `G * R` consecutive positions, read as `G` groups of `R`: when every term outside one group vanishes, the
  sum is the sum over that group. In any additive commutative monoid, for any `G` and `R`.
-/
import Mathlib.Algebra.BigOperators.Fin
import Mathlib.Algebra.BigOperators.Group.Finset.Basic
import Mathlib.Logic.Equiv.Fin.Basic

namespace Cert.LibGroupSum

open Finset

/-- Position `R * g + r` of `G * R`: place `r` of group `g`. -/
def pos {G R : Nat} (g : Fin G) (r : Fin R) : Fin (G * R) := finProdFinEquiv (g, r)

theorem pos_val {G R : Nat} (g : Fin G) (r : Fin R) : (pos g r).val = r.val + R * g.val := rfl

/-- A sum over `G * R` positions is the sum over the groups of the sums over their places. -/
theorem sum_groups {M : Type*} [AddCommMonoid M] {G R : Nat} (f : Fin (G * R) → M) :
    ∑ j : Fin (G * R), f j = ∑ g : Fin G, ∑ r : Fin R, f (pos g r) := by
  rw [← Fintype.sum_prod_type' (fun g r => f (pos g r))]
  exact (Fintype.sum_equiv finProdFinEquiv (fun p => f (pos p.1 p.2)) f (fun _ => rfl)).symm

/-- If every term outside group `g` is zero, the whole sum is the sum over group `g`. -/
theorem sum_one_group {M : Type*} [AddCommMonoid M] {G R : Nat} (f : Fin (G * R) → M) (g : Fin G)
    (h0 : ∀ (g' : Fin G) (r : Fin R), g' ≠ g → f (pos g' r) = 0) :
    ∑ j : Fin (G * R), f j = ∑ r : Fin R, f (pos g r) := by
  rw [sum_groups]
  refine Finset.sum_eq_single_of_mem g (Finset.mem_univ g) fun g' _ hg' => ?_
  exact Finset.sum_eq_zero fun r _ => h0 g' r hg'

end Cert.LibGroupSum
-- ==== Proof.KTail.lean ====
/-
  The host lines after the region: the 64 × 1 × 3 partial sums are added over the 64 grid points (from the zero word),
  each of the three totals is divided by its group's size word, and the three quotients are joined into the array of
  three losses. Read at `j`: `(0 + ∑ t, P (t, 0, j)) / size j`.
-/
import proofs.«115745_j21517786153440_2_alg».proof.Proof.KFinal
import proofs.«115745_j21517786153440_2_alg».proof.Proof.LibGroupSum

set_option maxRecDepth 16384

noncomputable section

namespace Cert.KernelIdeal.Tail

open Cert.KernelIdeal Cert.KernelIdeal.Gen Cert.KernelIdeal.Frame Cert.KernelIdeal.Final
open Idealize.ShloMosaic Idealize.ShloMosaic.TcCoe Idealize.ShloMosaic.ValueIdx
open Idealize.SL Idealize.SL.Sem
open Idealize.ShloMosaic.Pipeline (Dat Cfg Window)

variable {F : FTy → Type} [FloatOps F]

/-- The totals of the partial sums over the grid points. -/
def totals (P : (⟨S64x1x3, .f32⟩ : BufTy).Contents (Elt F)) : (⟨S3, .f32⟩ : BufTy).Contents (Elt F) :=
  Host.reduceAdd P (constant (F := F) S_ .f32 0x00000000#32) reducesTo_S64x1x3_S3_d0_1 h_S_

/-- Total `q` over its group's size word, as an array of one. -/
def meanOf (q : Nat) (hq : S3.Slices ![q] S1) (w : BitVec 32) (T : (⟨S3, .f32⟩ : BufTy).Contents (Elt F)) :
    (⟨S1, .f32⟩ : BufTy).Contents (Elt F) :=
  broadcastInDim S1 ![] bcast_S_S1 (Host.divf (shapeCast S_ (extractStridedSlice S1 ![q] T hq) shapeCasts_S1_S_) (constant (F := F) S_ .f32 w))

/-- The three losses from the partial sums. -/
def lossTail (P : (⟨S64x1x3, .f32⟩ : BufTy).Contents (Elt F)) : (⟨S3, .f32⟩ : BufTy).Contents (Elt F) :=
  concatenate S3 0 [⟨S1, meanOf 0 slices_S3_S1_0 0x49000000#32 (totals P)⟩, ⟨S1, meanOf 1 slices_S3_S1_1 0x4A200000#32 (totals P)⟩,
    ⟨S1, meanOf 2 slices_S3_S1_2 0x4A400000#32 (totals P)⟩] concatenates_S1_S1_S1_S3_d0

/-- The host lines after the region but the last, and the last (the join of the three losses). -/
abbrev tailHead : List (HloOp τ sig (Elt F)) := (hostOps1 (F := F)).dropLast
abbrev joinOp : HloOp τ sig (Elt F) :=
  StableHlo.nary ![main_v16, main_v17, main_v18] main_v19 (fun u => concatenate S3 0 [⟨S1, u 0⟩, ⟨S1, u 1⟩, ⟨S1, u 2⟩] concatenates_S1_S1_S1_S3_d0)

theorem hostOps1_split : (hostOps1 : List (HloOp τ sig (Elt F))) = tailHead ++ [joinOp] := rfl

/-- The contents after two stretches of operations are the second's after the first's. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- With the partial sums' array at `P`, the three quotients the head of the tail leaves. -/
theorem head_mean (W : Valuation τ sig (Elt F)) :
    StableHlo.after tailHead W (Proc.devRef .tc main_v16) = meanOf 0 slices_S3_S1_0 0x49000000#32 (totals (W (Proc.devRef .tc main_v5_1)))
    ∧ StableHlo.after tailHead W (Proc.devRef .tc main_v17) = meanOf 1 slices_S3_S1_1 0x4A200000#32 (totals (W (Proc.devRef .tc main_v5_1)))
    ∧ StableHlo.after tailHead W (Proc.devRef .tc main_v18) = meanOf 2 slices_S3_S1_2 0x4A400000#32 (totals (W (Proc.devRef .tc main_v5_1))) := by
  refine ⟨?_, ?_, ?_⟩
  · simp only [tailHead, hostOps1, List.dropLast]; after_results; rfl
  · simp only [tailHead, hostOps1, List.dropLast]; after_results; rfl
  · simp only [tailHead, hostOps1, List.dropLast]; after_results; rfl

/-- The last line joins the three quotients. -/
theorem join_result (W : Valuation τ sig (Elt F)) :
    (joinOp (F := F)).result W (Proc.devRef .tc main_v19)
      = concatenate S3 0 [⟨S1, W (Proc.devRef .tc main_v16)⟩, ⟨S1, W (Proc.devRef .tc main_v17)⟩, ⟨S1, W (Proc.devRef .tc main_v18)⟩] concatenates_S1_S1_S1_S3_d0 :=
  StableHlo.nary_result _ _ _ _ _ W

variable (m : (ℓ : Loc nD τ sig) → Buf (Elt Ideal) ℓ)

/-- The losses' buffer after the run is the tail of the partial sums' array. -/
theorem tail_eq (c : Dev nD) :
    Pipeline.afterTail₀ cfgs (dats m) 0 (V0 m) [hostOps1] c main_v19 = lossTail (F := Ideal) (partialsArr m c) := by
  unfold Pipeline.afterTail₀
  show StableHlo.after hostOps1 _ (Proc.devRef .tc main_v19) = _
  rw [hostOps1_split, after_append]
  show (joinOp (F := Ideal)).result (StableHlo.after tailHead _) (Proc.devRef .tc main_v19) = _
  rw [join_result]
  obtain ⟨h0, h1, h2⟩ := head_mean (F := Ideal) (Pipeline.withArrays (cfgs 0).spec c (V0 m c) (fun w => (dats m 0 c).arrAt w (cfgs 0).N))
  have hP : Pipeline.withArrays (cfgs 0).spec c (V0 m c) (fun w => (dats m 0 c).arrAt w (cfgs 0).N) (Proc.devRef .tc main_v5_1)
      = partialsArr m c := (Pipeline.withArrays_arr spec0 launch0.win.arr_inj c _ _ 5).trans (final5 m c)
  rw [hP] at h0 h1 h2
  rw [h0, h1, h2]
  rfl

/-! ## The tail read at an index -/

/-- The group sizes' words. -/
def sizeW (j : Fin 3) : EReal :=
  ![Ideal.ofBits .f32 0x49000000#32, Ideal.ofBits .f32 0x4A200000#32, Ideal.ofBits .f32 0x4A400000#32] j

/-- Total `j` is the zero word plus the sum over the 64 grid points of their partial sum `j`. -/
theorem totals_apply (P : S64x1x3.Idx → EReal) (j : Fin 3) :
    totals (F := Ideal) P (ix1 j) = Cert.Spec.zeroW + ∑ t : Fin 64, P (ix3 t 0 j) := by
  unfold totals
  simp only [Host.reduceAdd, Ideal.hostReduceAdd_def]
  unfold Ideal.hostReduceAdd
  refine congrArg (Cert.Spec.zeroW + ·) ?_
  have hl : ∀ i ∈ Finset.univ.filter (fun i : S64x1x3.Idx => reducesTo_S64x1x3_S3_d0_1.drop i = ix1 j), ix3 (i 0 : Fin 64) (0 : Fin 1) j = i := by
    intro i hi
    rw [Finset.mem_filter] at hi
    have h2 : (i 2).val = j.val := congrArg Fin.val (congrFun hi.2 (0 : Fin 1))
    funext a; apply Fin.ext
    match a with
    | ⟨0, _⟩ => rfl
    | ⟨1, _⟩ => show (0 : Fin 1).val = (i 1).val; have h1 : (i 1).val < 1 := (i 1).isLt; omega
    | ⟨2, _⟩ => exact h2.symm
  refine Finset.sum_nbij' (fun i => (i 0 : Fin 64)) (fun t => ix3 t 0 j) (fun _ _ => Finset.mem_univ _) ?_ hl (fun _ _ => rfl)
    (fun i hi => congrArg P (hl i hi).symm)
  intro t _
  rw [Finset.mem_filter]
  refine ⟨Finset.mem_univ _, funext fun b => Fin.ext ?_⟩
  match b with
  | ⟨0, _⟩ => rfl

/-- Three arrays of one joined: entry `j` is the `j`-th array's one entry. -/
theorem join_apply (a b c : S1.Idx → EReal) (j : Fin 3) :
    concatenate S3 0 [⟨S1, a⟩, ⟨S1, b⟩, ⟨S1, c⟩] concatenates_S1_S1_S1_S3_d0 (ix1 j) = ![a (ix1 0), b (ix1 0), c (ix1 0)] j := by
  match j with
  | ⟨0, _⟩ =>
    exact concatenate_apply_piece (t := S3) (0 : Fin 1) [⟨S1, a⟩, ⟨S1, b⟩, ⟨S1, c⟩] concatenates_S1_S1_S1_S3_d0 (ix1 0) 0 (by show 0 < 3; omega) S1 a rfl rfl 0 rfl (ix1 0)
      (fun b hb => absurd (Subsingleton.elim _ _) hb) rfl
  | ⟨1, _⟩ =>
    exact concatenate_apply_piece (t := S3) (0 : Fin 1) [⟨S1, a⟩, ⟨S1, b⟩, ⟨S1, c⟩] concatenates_S1_S1_S1_S3_d0 (ix1 1) 1 (by show 1 < 3; omega) S1 b rfl rfl 1 rfl (ix1 0)
      (fun b hb => absurd (Subsingleton.elim _ _) hb) rfl
  | ⟨2, _⟩ =>
    exact concatenate_apply_piece (t := S3) (0 : Fin 1) [⟨S1, a⟩, ⟨S1, b⟩, ⟨S1, c⟩] concatenates_S1_S1_S1_S3_d0 (ix1 2) 2 (by show 2 < 3; omega) S1 c rfl rfl 2 rfl (ix1 0)
      (fun b hb => absurd (Subsingleton.elim _ _) hb) rfl

/-- Loss `j` is total `j` over the group's size. -/
theorem lossTail_apply (P : S64x1x3.Idx → EReal) (j : Fin 3) :
    lossTail (F := Ideal) P (ix1 j) = Ideal.div (Cert.Spec.zeroW + ∑ t : Fin 64, P (ix3 t 0 j)) (sizeW j) := by
  have hmean : ∀ (q : Nat) (hq : S3.Slices ![q] S1) (w : BitVec 32) (T : S3.Idx → EReal) (hq3 : q < 3),
      meanOf (F := Ideal) q hq w T (ix1 0) = Ideal.div (T (ix1 ⟨q, hq3⟩)) (Ideal.ofBits .f32 w) := by
    intro q hq w T hq3
    unfold meanOf
    rw [broadcastInDim_apply _ _ _ (ix1 0) ix0 (fun a => a.elim0)]
    show Ideal.div (shapeCast S_ (extractStridedSlice S1 ![q] T hq) shapeCasts_S1_S_ ix0) (Ideal.ofBits .f32 w) = _
    rw [shapeCast_apply _ _ ix0 (ix1 0) (by rfl),
      extractStridedSlice_apply _ T hq (ix1 0) (ix1 ⟨q, hq3⟩) (fun a => by match a with | ⟨0, _⟩ => rfl)]
  unfold lossTail
  rw [join_apply]
  match j with
  | ⟨0, _⟩ => show meanOf (F := Ideal) 0 _ _ _ (ix1 0) = _; rw [hmean 0 _ _ _ (by decide), totals_apply]; rfl
  | ⟨1, _⟩ => show meanOf (F := Ideal) 1 _ _ _ (ix1 0) = _; rw [hmean 1 _ _ _ (by decide), totals_apply]; rfl
  | ⟨2, _⟩ => show meanOf (F := Ideal) 2 _ _ _ (ix1 0) = _; rw [hmean 2 _ _ _ (by decide), totals_apply]; rfl

/-! ## The kernel's losses are the specification's -/

/-- The rows of the 64 blocks, block after block, are all the rows. -/
theorem sum_rows (g : Fin 524288 → EReal) : ∑ t : Fin 64, ∑ r : Fin 8192, g (row t r) = ∑ b : Fin 524288, g b :=
  ((Cert.LibGroupSum.sum_groups (G := 64) (R := 8192) g).trans
    (Finset.sum_congr rfl fun t _ => Finset.sum_congr rfl fun r _ => congrArg g (Fin.ext (by
      rw [Cert.LibGroupSum.pos_val]; show r.val + 8192 * t.val = t.val * 8192 + r.val; omega)))).symm

/-- The zero word is the number zero. -/
theorem zeroW_add (x : EReal) : Cert.Spec.zeroW + x = x := by
  unfold Cert.Spec.zeroW; rw [Ideal.ofBits_zero_f32, zero_add]

theorem losses_eq (c : Dev nD) (j : Fin 3) :
    lossTail (F := Ideal) (partialsArr m c) (ix1 j)
      = Cert.Spec.losses (feats m c) (labs m c) (states m c) j := by
  rw [lossTail_apply, zeroW_add]
  match j with
  | ⟨0, _⟩ =>
    show Ideal.div (∑ t : Fin 64, ∑ r : Fin 8192, Cert.Spec.fidelity (feats m c) (labs m c) (states m c) (row t r) 0) _ = Cert.Spec.loss0 _ _ _
    rw [sum_rows fun b => Cert.Spec.fidelity (feats m c) (labs m c) (states m c) b 0]
    rfl
  | ⟨1, _⟩ =>
    show Ideal.div (∑ t : Fin 64, ∑ l : Fin 5, ∑ r : Fin 8192, Cert.Spec.fidelity (feats m c) (labs m c) (states m c) (row t r) (Cert.Spec.mid l)) _ = Cert.Spec.loss1 _ _ _
    rw [Finset.sum_congr rfl fun t _ => Finset.sum_comm,
      sum_rows fun b => ∑ l : Fin 5, Cert.Spec.fidelity (feats m c) (labs m c) (states m c) b (Cert.Spec.mid l)]
    rfl
  | ⟨2, _⟩ =>
    show Ideal.div (∑ t : Fin 64, ∑ l : Fin 6, ∑ r : Fin 8192, Cert.Spec.fidelity (feats m c) (labs m c) (states m c) (row t r) (Cert.Spec.last l)) _ = Cert.Spec.loss2 _ _ _
    rw [Finset.sum_congr rfl fun t _ => Finset.sum_comm,
      sum_rows fun b => ∑ l : Fin 6, Cert.Spec.fidelity (feats m c) (labs m c) (states m c) b (Cert.Spec.last l)]
    rfl

/-! ## The run, read -/

/-- The three losses over the argument arrays. -/
def lossesArr (c : Dev nD) : S3.Idx → EReal :=
  fun j => Cert.Spec.losses (feats m c) (labs m c) (states m c) (j 0)

theorem tail_losses (c : Dev nD) : lossTail (F := Ideal) (partialsArr m c) = lossesArr m c :=
  funext fun j => by
    obtain ⟨q, rfl⟩ : ∃ q : Fin 3, j = ix1 q := ⟨j 0, eq_ix1 j⟩
    exact losses_eq m c q

/-- The idealized kernel's run with both results named: the losses and the marginals of the specification, the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v19) = lossesArr m c
      ∧ r.2.mem ((c.tc : Thread nD τ).loc main_v5_0) = marginalsArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v19 (Pipeline.mem_restRefs_of main_v19 (by decide) (by decide))).trans ((tail_eq m c).trans (tail_losses m c)),
     ((h c).1 4).trans (final4 m c),
     ((h c).1 0).trans (((dats m 0 c).arrAt_in 0 rfl _).trans ((A_eq m c 0).trans (V_arg m main_arg0 (.inl rfl) c))),
     ((h c).2 main_arg1 (Pipeline.mem_restRefs_of main_arg1 (by decide) (by decide))).trans (W_arg m main_arg1 (.inl rfl) (by decide) c),
     ((h c).2 main_arg2 (Pipeline.mem_restRefs_of main_arg2 (by decide) (by decide))).trans (W_arg m main_arg2 (.inr rfl) (by decide) c)⟩)
    (run_main m ρ)

end Cert.KernelIdeal.Tail

end
-- ==== Proof.RefStages.lean ====
/-
  The reference program's values as functions of its three arguments, in named stages: the labels as floats, the
  potentials, their column maximum, the weights, the partition sums, the mask of switched-on labels, the marginals;
  then, for each of the three column groups, the slice of the marginals and of the labels, the fidelity terms, and
  their mean; and the three means joined. Each stage applies the operations the printed program applies, in its order,
  at any float values.
-/
import proofs.«115745_j21517786153440_2_alg».proof.Proof.Gen.ReferenceIdeal

noncomputable section

namespace Cert.RefRun

open Cert.ReferenceIdeal Cert.ReferenceIdeal.Gen Idealize.ShloMosaic Idealize.ShloMosaic.StableHlo

variable {F : FTy → Type} [FloatOps F]

/-- The labels converted to floats. -/
def labels (x1 : (⟨S524288x12, .i32⟩ : BufTy).Contents (Elt F)) : (⟨S524288x12, .f32⟩ : BufTy).Contents (Elt F) :=
  sitofp .f32 x1

/-- The potentials: the state rows times the transposed features. -/
def potentials (x0 : (⟨S524288x12, .f32⟩ : BufTy).Contents (Elt F)) (x2 : (⟨S96x12, .f32⟩ : BufTy).Contents (Elt F)) :
    (⟨S96x524288, .f32⟩ : BufTy).Contents (Elt F) :=
  Host.dotGeneral dot_S96x12_S12x524288_S96x524288_1_0_0_1_n_n none x2
    (transpose S12x524288 [1, 0] x0 transposes_S524288x12_S12x524288_1_0)

/-- The largest potential of each column. -/
def colMax (x0 : (⟨S524288x12, .f32⟩ : BufTy).Contents (Elt F)) (x2 : (⟨S96x12, .f32⟩ : BufTy).Contents (Elt F)) :
    (⟨S524288, .f32⟩ : BufTy).Contents (Elt F) :=
  Host.reduce FloatOps.maximumf (potentials (F := F) x0 x2) (constant (F := F) S_ .f32 0xFF800000#32)
    reducesTo_S96x524288_S524288_d0 h_S_

/-- The weights: the exponential of the potentials less their column's maximum. -/
def weights (x0 : (⟨S524288x12, .f32⟩ : BufTy).Contents (Elt F)) (x2 : (⟨S96x12, .f32⟩ : BufTy).Contents (Elt F)) :
    (⟨S96x524288, .f32⟩ : BufTy).Contents (Elt F) :=
  Host.exp (subf (potentials (F := F) x0 x2)
    (broadcastInDim S96x524288 ![0, 1] bcast_S1x524288_S96x524288_0_1
      (broadcastInDim S1x524288 ![1] bcast_S524288_S1x524288_1 (colMax (F := F) x0 x2))))

/-- The total weight of each column. -/
def partitions (x0 : (⟨S524288x12, .f32⟩ : BufTy).Contents (Elt F)) (x2 : (⟨S96x12, .f32⟩ : BufTy).Contents (Elt F)) :
    (⟨S524288, .f32⟩ : BufTy).Contents (Elt F) :=
  Host.reduceAdd (weights (F := F) x0 x2) (constant (F := F) S_ .f32 0x00000000#32)
    reducesTo_S96x524288_S524288_d0 h_S_

/-- The mask: which labels each state switches on, as 0 or 1. -/
def legalMask (x2 : (⟨S96x12, .f32⟩ : BufTy).Contents (Elt F)) : (⟨S96x12, .f32⟩ : BufTy).Contents (Elt F) :=
  uitofp .f32 (cmpf .ogt x2 (broadcastInDim S96x12 ![] bcast_S_S96x12 (constant (F := F) S_ .f32 0x00000000#32)))

/-- The marginals: the transposed weights times the mask, over the partition sums. -/
def refMarginals (x0 : (⟨S524288x12, .f32⟩ : BufTy).Contents (Elt F)) (x2 : (⟨S96x12, .f32⟩ : BufTy).Contents (Elt F)) :
    (⟨S524288x12, .f32⟩ : BufTy).Contents (Elt F) :=
  Host.divf
    (Host.dotGeneral dot_S524288x96_S96x12_S524288x12_1_0_0_1_n_n none
      (transpose S524288x96 [1, 0] (weights (F := F) x0 x2) transposes_S96x524288_S524288x96_1_0) (legalMask (F := F) x2))
    (broadcastInDim S524288x12 ![0, 1] bcast_S524288x1_S524288x12_0_1
      (broadcastInDim S524288x1 ![0] bcast_S524288_S524288x1_0 (partitions (F := F) x0 x2)))

/-- Column 0 of a [524288, 12] array, as a vector. -/
def col0 (p : (⟨S524288x12, .f32⟩ : BufTy).Contents (Elt F)) : (⟨S524288, .f32⟩ : BufTy).Contents (Elt F) :=
  shapeCast _ (extractStridedSlice S524288x1 ![0, 0] p slices_S524288x12_S524288x1_0_0) shapeCasts_S524288x1_S524288

/-- Columns 1-5. -/
def cols1 (p : (⟨S524288x12, .f32⟩ : BufTy).Contents (Elt F)) : (⟨S524288x5, .f32⟩ : BufTy).Contents (Elt F) :=
  extractStridedSlice S524288x5 ![0, 1] p slices_S524288x12_S524288x5_0_1

/-- Columns 6-11. -/
def cols2 (p : (⟨S524288x12, .f32⟩ : BufTy).Contents (Elt F)) : (⟨S524288x6, .f32⟩ : BufTy).Contents (Elt F) :=
  extractStridedSlice S524288x6 ![0, 6] p slices_S524288x12_S524288x6_0_6

/-- The fidelity terms of a group: `1 - (sqrt (p·g + eps) + sqrt ((1 - p)·(1 - g) + eps))`, the constants splat over
    the group's shape. -/
def fidelity (s : Shape) (hb : S_.BroadcastsInDim s (![] : Fin 0 → Fin s.rank))
    (p g : (⟨s, .f32⟩ : BufTy).Contents (Elt F)) : (⟨s, .f32⟩ : BufTy).Contents (Elt F) :=
  subf (broadcastInDim s ![] hb (constant (F := F) S_ .f32 0x3F800000#32))
    (addf
      (Host.sqrt (addf (mulf p g) (broadcastInDim s ![] hb (constant (F := F) S_ .f32 0x322BCC77#32))))
      (Host.sqrt (addf
        (mulf (subf (broadcastInDim s ![] hb (constant (F := F) S_ .f32 0x3F800000#32)) p)
          (subf (broadcastInDim s ![] hb (constant (F := F) S_ .f32 0x3F800000#32)) g))
        (broadcastInDim s ![] hb (constant (F := F) S_ .f32 0x322BCC77#32)))))

/-- The mean fidelity term of column 0. -/
def mean0 (p g : (⟨S524288, .f32⟩ : BufTy).Contents (Elt F)) : (⟨S_, .f32⟩ : BufTy).Contents (Elt F) :=
  Host.divf
    (Host.reduceAdd (fidelity (F := F) S524288 bcast_S_S524288 p g) (constant (F := F) S_ .f32 0x00000000#32)
      reducesTo_S524288_S_d0 h_S_)
    (constant (F := F) S_ .f32 0x49000000#32)

/-- The mean fidelity term of columns 1-5. -/
def mean1 (p g : (⟨S524288x5, .f32⟩ : BufTy).Contents (Elt F)) : (⟨S_, .f32⟩ : BufTy).Contents (Elt F) :=
  Host.divf
    (Host.reduceAdd (fidelity (F := F) S524288x5 bcast_S_S524288x5 p g) (constant (F := F) S_ .f32 0x00000000#32)
      reducesTo_S524288x5_S_d0_1 h_S_)
    (constant (F := F) S_ .f32 0x4A200000#32)

/-- The mean fidelity term of columns 6-11. -/
def mean2 (p g : (⟨S524288x6, .f32⟩ : BufTy).Contents (Elt F)) : (⟨S_, .f32⟩ : BufTy).Contents (Elt F) :=
  Host.divf
    (Host.reduceAdd (fidelity (F := F) S524288x6 bcast_S_S524288x6 p g) (constant (F := F) S_ .f32 0x00000000#32)
      reducesTo_S524288x6_S_d0_1 h_S_)
    (constant (F := F) S_ .f32 0x4A400000#32)

/-- Three scalars joined into the array of three. -/
def join3 (a b c : (⟨S_, .f32⟩ : BufTy).Contents (Elt F)) : (⟨S3, .f32⟩ : BufTy).Contents (Elt F) :=
  concatenate S3 0 [⟨S1, broadcastInDim S1 ![] bcast_S_S1 a⟩, ⟨S1, broadcastInDim S1 ![] bcast_S_S1 b⟩,
    ⟨S1, broadcastInDim S1 ![] bcast_S_S1 c⟩] concatenates_S1_S1_S1_S3_d0

/-- The three losses. -/
def refLosses (x0 : (⟨S524288x12, .f32⟩ : BufTy).Contents (Elt F)) (x1 : (⟨S524288x12, .i32⟩ : BufTy).Contents (Elt F))
    (x2 : (⟨S96x12, .f32⟩ : BufTy).Contents (Elt F)) : (⟨S3, .f32⟩ : BufTy).Contents (Elt F) :=
  join3 (F := F)
    (mean0 (F := F) (col0 (F := F) (refMarginals (F := F) x0 x2)) (col0 (F := F) (labels (F := F) x1)))
    (mean1 (F := F) (cols1 (F := F) (refMarginals (F := F) x0 x2)) (cols1 (F := F) (labels (F := F) x1)))
    (mean2 (F := F) (cols2 (F := F) (refMarginals (F := F) x0 x2)) (cols2 (F := F) (labels (F := F) x1)))

end Cert.RefRun

end
-- ==== Proof.RefRun.lean ====
/-
  The reference program's run, read back in stages. The program's @main is a straight line of 104 host operations;
  it is cut into six consecutive stages: the marginals (with the labels as floats), the slices of the marginals and
  of the labels into the three column groups, the mean fidelity term of each group in turn, and the three means
  joined. For each stage and ANY contents of the buffers before it, what the stage's result buffers hold after it is
  the stage's function (of RefStages) of what the buffers it reads held before, and every buffer the stage does not
  write is unchanged. The run of the whole line is the stages' runs composed (`after_append`), innermost stage first:
  the composed term of all 104 operations is never formed.
-/
import proofs.«115745_j21517786153440_2_alg».proof.Proof.RefStages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) :=
  [ unary main_arg1 main_v0 (sitofp .f32 : (⟨S524288x12, .i32⟩ : BufTy).Contents (Elt F) → (⟨S524288x12, .f32⟩ : BufTy).Contents (Elt F)),
    unary main_arg0 main_v1 ((transpose S12x524288 [1, 0] · transposes_S524288x12_S12x524288_1_0) : (⟨S524288x12, .f32⟩ : BufTy).Contents (Elt F) → (⟨S12x524288, .f32⟩ : BufTy).Contents (Elt F)),
    binary main_arg2 main_v1 main_v2 ((fun l r => Host.dotGeneral dot_S96x12_S12x524288_S96x524288_1_0_0_1_n_n none l r) : (⟨S96x12, .f32⟩ : BufTy).Contents (Elt F) → (⟨S12x524288, .f32⟩ : BufTy).Contents (Elt F) → (⟨S96x524288, .f32⟩ : BufTy).Contents (Elt F)),
    nullary main_cst (constant S_ .f32 0xFF800000#32),
    binary main_v2 main_cst main_v3 ((fun x v => Host.reduce FloatOps.maximumf x v reducesTo_S96x524288_S524288_d0 h_S_) : (⟨S96x524288, .f32⟩ : BufTy).Contents (Elt F) → (⟨S_, .f32⟩ : BufTy).Contents (Elt F) → (⟨S524288, .f32⟩ : BufTy).Contents (Elt F)),
    unary main_v3 main_v4 (broadcastInDim S1x524288 ![1] bcast_S524288_S1x524288_1 : (⟨S524288, .f32⟩ : BufTy).Contents (Elt F) → (⟨S1x524288, .f32⟩ : BufTy).Contents (Elt F)),
    unary main_v4 main_v5 (broadcastInDim S96x524288 ![0, 1] bcast_S1x524288_S96x524288_0_1 : (⟨S1x524288, .f32⟩ : BufTy).Contents (Elt F) → (⟨S96x524288, .f32⟩ : BufTy).Contents (Elt F)),
    binary main_v2 main_v5 main_v6 (subf : (⟨S96x524288, .f32⟩ : BufTy).Contents (Elt F) → (⟨S96x524288, .f32⟩ : BufTy).Contents (Elt F) → (⟨S96x524288, .f32⟩ : BufTy).Contents (Elt F)),
    unary main_v6 main_v7 (Host.exp : (⟨S96x524288, .f32⟩ : BufTy).Contents (Elt F) → (⟨S96x524288, .f32⟩ : BufTy).Contents (Elt F)),
    nullary main_cst_0 (constant S_ .f32 0x00000000#32),
    binary main_v7 main_cst_0 main_v8 ((fun x v => Host.reduceAdd x v reducesTo_S96x524288_S524288_d0 h_S_) : (⟨S96x524288, .f32⟩ : BufTy).Contents (Elt F) → (⟨S_, .f32⟩ : BufTy).Contents (Elt F) → (⟨S524288, .f32⟩ : BufTy).Contents (Elt F)),
    nullary main_cst_1 (constant S_ .f32 0x00000000#32),
    unary main_cst_1 main_v9 (broadcastInDim S96x12 ![] bcast_S_S96x12 : (⟨S_, .f32⟩ : BufTy).Contents (Elt F) → (⟨S96x12, .f32⟩ : BufTy).Contents (Elt F)),
    binary main_arg2 main_v9 main_v10 (cmpf .ogt : (⟨S96x12, .f32⟩ : BufTy).Contents (Elt F) → (⟨S96x12, .f32⟩ : BufTy).Contents (Elt F) → (⟨S96x12, .i1⟩ : BufTy).Contents (Elt F)),
    unary main_v10 main_v11 (uitofp .f32 : (⟨S96x12, .i1⟩ : BufTy).Contents (Elt F) → (⟨S96x12, .f32⟩ : BufTy).Contents (Elt F)),
    unary main_v7 main_v12 ((transpose S524288x96 [1, 0] · transposes_S96x524288_S524288x96_1_0) : (⟨S96x524288, .f32⟩ : BufTy).Contents (Elt F) → (⟨S524288x96, .f32⟩ : BufTy).Contents (Elt F)),
    binary main_v12 main_v11 main_v13 ((fun l r => Host.dotGeneral dot_S524288x96_S96x12_S524288x12_1_0_0_1_n_n none l r) : (⟨S524288x96, .f32⟩ : BufTy).Contents (Elt F) → (⟨S96x12, .f32⟩ : BufTy).Contents (Elt F) → (⟨S524288x12, .f32⟩ : BufTy).Contents (Elt F)),
    unary main_v8 main_v14 (broadcastInDim S524288x1 ![0] bcast_S524288_S524288x1_0 : (⟨S524288, .f32⟩ : BufTy).Contents (Elt F) → (⟨S524288x1, .f32⟩ : BufTy).Contents (Elt F)),
    unary main_v14 main_v15 (broadcastInDim S524288x12 ![0, 1] bcast_S524288x1_S524288x12_0_1 : (⟨S524288x1, .f32⟩ : BufTy).Contents (Elt F) → (⟨S524288x12, .f32⟩ : BufTy).Contents (Elt F)),
    binary main_v13 main_v15 main_v16 (Host.divf : (⟨S524288x12, .f32⟩ : BufTy).Contents (Elt F) → (⟨S524288x12, .f32⟩ : BufTy).Contents (Elt F) → (⟨S524288x12, .f32⟩ : BufTy).Contents (Elt F)),
    unary main_v16 main_v17 ((extractStridedSlice S524288x1 ![0, 0] · slices_S524288x12_S524288x1_0_0) : (⟨S524288x12, .f32⟩ : BufTy).Contents (Elt F) → (⟨S524288x1, .f32⟩ : BufTy).Contents (Elt F)),
    reshape main_v17 main_v18 rfl shapeCasts_S524288x1_S524288,
    unary main_v16 main_v19 ((extractStridedSlice S524288x5 ![0, 1] · slices_S524288x12_S524288x5_0_1) : (⟨S524288x12, .f32⟩ : BufTy).Contents (Elt F) → (⟨S524288x5, .f32⟩ : BufTy).Contents (Elt F)),
    unary main_v16 main_v20 ((extractStridedSlice S524288x6 ![0, 6] · slices_S524288x12_S524288x6_0_6) : (⟨S524288x12, .f32⟩ : BufTy).Contents (Elt F) → (⟨S524288x6, .f32⟩ : BufTy).Contents (Elt F)),
    unary main_v0 main_v21 ((extractStridedSlice S524288x1 ![0, 0] · slices_S524288x12_S524288x1_0_0) : (⟨S524288x12, .f32⟩ : BufTy).Contents (Elt F) → (⟨S524288x1, .f32⟩ : BufTy).Contents (Elt F)),
    reshape main_v21 main_v22 rfl shapeCasts_S524288x1_S524288,
    unary main_v0 main_v23 ((extractStridedSlice S524288x5 ![0, 1] · slices_S524288x12_S524288x5_0_1) : (⟨S524288x12, .f32⟩ : BufTy).Contents (Elt F) → (⟨S524288x5, .f32⟩ : BufTy).Contents (Elt F)),
    unary main_v0 main_v24 ((extractStridedSlice S524288x6 ![0, 6] · slices_S524288x12_S524288x6_0_6) : (⟨S524288x12, .f32⟩ : BufTy).Contents (Elt F) → (⟨S524288x6, .f32⟩ : BufTy).Contents (Elt F)),
    binary main_v18 main_v22 main_v25 (mulf : (⟨S524288, .f32⟩ : BufTy).Contents (Elt F) → (⟨S524288, .f32⟩ : BufTy).Contents (Elt F) → (⟨S524288, .f32⟩ : BufTy).Contents (Elt F)),
    nullary main_cst_2 (constant S_ .f32 0x322BCC77#32),
    unary main_cst_2 main_v26 (broadcastInDim S524288 ![] bcast_S_S524288 : (⟨S_, .f32⟩ : BufTy).Contents (Elt F) → (⟨S524288, .f32⟩ : BufTy).Contents (Elt F)),
    binary main_v25 main_v26 main_v27 (addf : (⟨S524288, .f32⟩ : BufTy).Contents (Elt F) → (⟨S524288, .f32⟩ : BufTy).Contents (Elt F) → (⟨S524288, .f32⟩ : BufTy).Contents (Elt F)),
    unary main_v27 main_v28 (Host.sqrt : (⟨S524288, .f32⟩ : BufTy).Contents (Elt F) → (⟨S524288, .f32⟩ : BufTy).Contents (Elt F)),
    nullary main_cst_3 (constant S_ .f32 0x3F800000#32),
    unary main_cst_3 main_v29 (broadcastInDim S524288 ![] bcast_S_S524288 : (⟨S_, .f32⟩ : BufTy).Contents (Elt F) → (⟨S524288, .f32⟩ : BufTy).Contents (Elt F)),
    binary main_v29 main_v18 main_v30 (subf : (⟨S524288, .f32⟩ : BufTy).Contents (Elt F) → (⟨S524288, .f32⟩ : BufTy).Contents (Elt F) → (⟨S524288, .f32⟩ : BufTy).Contents (Elt F)),
    nullary main_cst_4 (constant S_ .f32 0x3F800000#32),
    unary main_cst_4 main_v31 (broadcastInDim S524288 ![] bcast_S_S524288 : (⟨S_, .f32⟩ : BufTy).Contents (Elt F) → (⟨S524288, .f32⟩ : BufTy).Contents (Elt F)),
    binary main_v31 main_v22 main_v32 (subf : (⟨S524288, .f32⟩ : BufTy).Contents (Elt F) → (⟨S524288, .f32⟩ : BufTy).Contents (Elt F) → (⟨S524288, .f32⟩ : BufTy).Contents (Elt F)),
    binary main_v30 main_v32 main_v33 (mulf : (⟨S524288, .f32⟩ : BufTy).Contents (Elt F) → (⟨S524288, .f32⟩ : BufTy).Contents (Elt F) → (⟨S524288, .f32⟩ : BufTy).Contents (Elt F)),
    nullary main_cst_5 (constant S_ .f32 0x322BCC77#32),
    unary main_cst_5 main_v34 (broadcastInDim S524288 ![] bcast_S_S524288 : (⟨S_, .f32⟩ : BufTy).Contents (Elt F) → (⟨S524288, .f32⟩ : BufTy).Contents (Elt F)),
    binary main_v33 main_v34 main_v35 (addf : (⟨S524288, .f32⟩ : BufTy).Contents (Elt F) → (⟨S524288, .f32⟩ : BufTy).Contents (Elt F) → (⟨S524288, .f32⟩ : BufTy).Contents (Elt F)),
    unary main_v35 main_v36 (Host.sqrt : (⟨S524288, .f32⟩ : BufTy).Contents (Elt F) → (⟨S524288, .f32⟩ : BufTy).Contents (Elt F)),
    binary main_v28 main_v36 main_v37 (addf : (⟨S524288, .f32⟩ : BufTy).Contents (Elt F) → (⟨S524288, .f32⟩ : BufTy).Contents (Elt F) → (⟨S524288, .f32⟩ : BufTy).Contents (Elt F)),
    nullary main_cst_6 (constant S_ .f32 0x3F800000#32),
    unary main_cst_6 main_v38 (broadcastInDim S524288 ![] bcast_S_S524288 : (⟨S_, .f32⟩ : BufTy).Contents (Elt F) → (⟨S524288, .f32⟩ : BufTy).Contents (Elt F)),
    binary main_v38 main_v37 main_v39 (subf : (⟨S524288, .f32⟩ : BufTy).Contents (Elt F) → (⟨S524288, .f32⟩ : BufTy).Contents (Elt F) → (⟨S524288, .f32⟩ : BufTy).Contents (Elt F)),
    nullary main_cst_7 (constant S_ .f32 0x00000000#32),
    binary main_v39 main_cst_7 main_v40 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    nullary main_cst_8 (constant S_ .f32 0x49000000#32),
    binary main_v40 main_cst_8 main_v41 (Host.divf : (⟨S_, .f32⟩ : BufTy).Contents (Elt F) → (⟨S_, .f32⟩ : BufTy).Contents (Elt F) → (⟨S_, .f32⟩ : BufTy).Contents (Elt F)),
    binary main_v19 main_v23 main_v42 (mulf : (⟨S524288x5, .f32⟩ : BufTy).Contents (Elt F) → (⟨S524288x5, .f32⟩ : BufTy).Contents (Elt F) → (⟨S524288x5, .f32⟩ : BufTy).Contents (Elt F)),
    nullary main_cst_9 (constant S_ .f32 0x322BCC77#32),
    unary main_cst_9 main_v43 (broadcastInDim S524288x5 ![] bcast_S_S524288x5 : (⟨S_, .f32⟩ : BufTy).Contents (Elt F) → (⟨S524288x5, .f32⟩ : BufTy).Contents (Elt F)),
    binary main_v42 main_v43 main_v44 (addf : (⟨S524288x5, .f32⟩ : BufTy).Contents (Elt F) → (⟨S524288x5, .f32⟩ : BufTy).Contents (Elt F) → (⟨S524288x5, .f32⟩ : BufTy).Contents (Elt F)),
    unary main_v44 main_v45 (Host.sqrt : (⟨S524288x5, .f32⟩ : BufTy).Contents (Elt F) → (⟨S524288x5, .f32⟩ : BufTy).Contents (Elt F)),
    nullary main_cst_10 (constant S_ .f32 0x3F800000#32),
    unary main_cst_10 main_v46 (broadcastInDim S524288x5 ![] bcast_S_S524288x5 : (⟨S_, .f32⟩ : BufTy).Contents (Elt F) → (⟨S524288x5, .f32⟩ : BufTy).Contents (Elt F)),
    binary main_v46 main_v19 main_v47 (subf : (⟨S524288x5, .f32⟩ : BufTy).Contents (Elt F) → (⟨S524288x5, .f32⟩ : BufTy).Contents (Elt F) → (⟨S524288x5, .f32⟩ : BufTy).Contents (Elt F)),
    nullary main_cst_11 (constant S_ .f32 0x3F800000#32),
    unary main_cst_11 main_v48 (broadcastInDim S524288x5 ![] bcast_S_S524288x5 : (⟨S_, .f32⟩ : BufTy).Contents (Elt F) → (⟨S524288x5, .f32⟩ : BufTy).Contents (Elt F)),
    binary main_v48 main_v23 main_v49 (subf : (⟨S524288x5, .f32⟩ : BufTy).Contents (Elt F) → (⟨S524288x5, .f32⟩ : BufTy).Contents (Elt F) → (⟨S524288x5, .f32⟩ : BufTy).Contents (Elt F)),
    binary main_v47 main_v49 main_v50 (mulf : (⟨S524288x5, .f32⟩ : BufTy).Contents (Elt F) → (⟨S524288x5, .f32⟩ : BufTy).Contents (Elt F) → (⟨S524288x5, .f32⟩ : BufTy).Contents (Elt F)),
    nullary main_cst_12 (constant S_ .f32 0x322BCC77#32),
    unary main_cst_12 main_v51 (broadcastInDim S524288x5 ![] bcast_S_S524288x5 : (⟨S_, .f32⟩ : BufTy).Contents (Elt F) → (⟨S524288x5, .f32⟩ : BufTy).Contents (Elt F)),
    binary main_v50 main_v51 main_v52 (addf : (⟨S524288x5, .f32⟩ : BufTy).Contents (Elt F) → (⟨S524288x5, .f32⟩ : BufTy).Contents (Elt F) → (⟨S524288x5, .f32⟩ : BufTy).Contents (Elt F)),
    unary main_v52 main_v53 (Host.sqrt : (⟨S524288x5, .f32⟩ : BufTy).Contents (Elt F) → (⟨S524288x5, .f32⟩ : BufTy).Contents (Elt F)),
    binary main_v45 main_v53 main_v54 (addf : (⟨S524288x5, .f32⟩ : BufTy).Contents (Elt F) → (⟨S524288x5, .f32⟩ : BufTy).Contents (Elt F) → (⟨S524288x5, .f32⟩ : BufTy).Contents (Elt F)),
    nullary main_cst_13 (constant S_ .f32 0x3F800000#32),
    unary main_cst_13 main_v55 (broadcastInDim S524288x5 ![] bcast_S_S524288x5 : (⟨S_, .f32⟩ : BufTy).Contents (Elt F) → (⟨S524288x5, .f32⟩ : BufTy).Contents (Elt F)),
    binary main_v55 main_v54 main_v56 (subf : (⟨S524288x5, .f32⟩ : BufTy).Contents (Elt F) → (⟨S524288x5, .f32⟩ : BufTy).Contents (Elt F) → (⟨S524288x5, .f32⟩ : BufTy).Contents (Elt F)),
    nullary main_cst_14 (constant S_ .f32 0x00000000#32),
    binary main_v56 main_cst_14 main_v57 ((fun x v => Host.reduceAdd x v reducesTo_S524288x5_S_d0_1 h_S_) : (⟨S524288x5, .f32⟩ : BufTy).Contents (Elt F) → (⟨S_, .f32⟩ : BufTy).Contents (Elt F) → (⟨S_, .f32⟩ : BufTy).Contents (Elt F)),
    nullary main_cst_15 (constant S_ .f32 0x4A200000#32),
    binary main_v57 main_cst_15 main_v58 (Host.divf : (⟨S_, .f32⟩ : BufTy).Contents (Elt F) → (⟨S_, .f32⟩ : BufTy).Contents (Elt F) → (⟨S_, .f32⟩ : BufTy).Contents (Elt F)),
    binary main_v20 main_v24 main_v59 (mulf : (⟨S524288x6, .f32⟩ : BufTy).Contents (Elt F) → (⟨S524288x6, .f32⟩ : BufTy).Contents (Elt F) → (⟨S524288x6, .f32⟩ : BufTy).Contents (Elt F)),
    nullary main_cst_16 (constant S_ .f32 0x322BCC77#32),
    unary main_cst_16 main_v60 (broadcastInDim S524288x6 ![] bcast_S_S524288x6 : (⟨S_, .f32⟩ : BufTy).Contents (Elt F) → (⟨S524288x6, .f32⟩ : BufTy).Contents (Elt F)),
    binary main_v59 main_v60 main_v61 (addf : (⟨S524288x6, .f32⟩ : BufTy).Contents (Elt F) → (⟨S524288x6, .f32⟩ : BufTy).Contents (Elt F) → (⟨S524288x6, .f32⟩ : BufTy).Contents (Elt F)),
    unary main_v61 main_v62 (Host.sqrt : (⟨S524288x6, .f32⟩ : BufTy).Contents (Elt F) → (⟨S524288x6, .f32⟩ : BufTy).Contents (Elt F)),
    nullary main_cst_17 (constant S_ .f32 0x3F800000#32),
    unary main_cst_17 main_v63 (broadcastInDim S524288x6 ![] bcast_S_S524288x6 : (⟨S_, .f32⟩ : BufTy).Contents (Elt F) → (⟨S524288x6, .f32⟩ : BufTy).Contents (Elt F)),
    binary main_v63 main_v20 main_v64 (subf : (⟨S524288x6, .f32⟩ : BufTy).Contents (Elt F) → (⟨S524288x6, .f32⟩ : BufTy).Contents (Elt F) → (⟨S524288x6, .f32⟩ : BufTy).Contents (Elt F)),
    nullary main_cst_18 (constant S_ .f32 0x3F800000#32),
    unary main_cst_18 main_v65 (broadcastInDim S524288x6 ![] bcast_S_S524288x6 : (⟨S_, .f32⟩ : BufTy).Contents (Elt F) → (⟨S524288x6, .f32⟩ : BufTy).Contents (Elt F)),
    binary main_v65 main_v24 main_v66 (subf : (⟨S524288x6, .f32⟩ : BufTy).Contents (Elt F) → (⟨S524288x6, .f32⟩ : BufTy).Contents (Elt F) → (⟨S524288x6, .f32⟩ : BufTy).Contents (Elt F)),
    binary main_v64 main_v66 main_v67 (mulf : (⟨S524288x6, .f32⟩ : BufTy).Contents (Elt F) → (⟨S524288x6, .f32⟩ : BufTy).Contents (Elt F) → (⟨S524288x6, .f32⟩ : BufTy).Contents (Elt F)),
    nullary main_cst_19 (constant S_ .f32 0x322BCC77#32),
    unary main_cst_19 main_v68 (broadcastInDim S524288x6 ![] bcast_S_S524288x6 : (⟨S_, .f32⟩ : BufTy).Contents (Elt F) → (⟨S524288x6, .f32⟩ : BufTy).Contents (Elt F)),
    binary main_v67 main_v68 main_v69 (addf : (⟨S524288x6, .f32⟩ : BufTy).Contents (Elt F) → (⟨S524288x6, .f32⟩ : BufTy).Contents (Elt F) → (⟨S524288x6, .f32⟩ : BufTy).Contents (Elt F)),
    unary main_v69 main_v70 (Host.sqrt : (⟨S524288x6, .f32⟩ : BufTy).Contents (Elt F) → (⟨S524288x6, .f32⟩ : BufTy).Contents (Elt F)),
    binary main_v62 main_v70 main_v71 (addf : (⟨S524288x6, .f32⟩ : BufTy).Contents (Elt F) → (⟨S524288x6, .f32⟩ : BufTy).Contents (Elt F) → (⟨S524288x6, .f32⟩ : BufTy).Contents (Elt F)),
    nullary main_cst_20 (constant S_ .f32 0x3F800000#32),
    unary main_cst_20 main_v72 (broadcastInDim S524288x6 ![] bcast_S_S524288x6 : (⟨S_, .f32⟩ : BufTy).Contents (Elt F) → (⟨S524288x6, .f32⟩ : BufTy).Contents (Elt F)),
    binary main_v72 main_v71 main_v73 (subf : (⟨S524288x6, .f32⟩ : BufTy).Contents (Elt F) → (⟨S524288x6, .f32⟩ : BufTy).Contents (Elt F) → (⟨S524288x6, .f32⟩ : BufTy).Contents (Elt F)),
    nullary main_cst_21 (constant S_ .f32 0x00000000#32),
    binary main_v73 main_cst_21 main_v74 ((fun x v => Host.reduceAdd x v reducesTo_S524288x6_S_d0_1 h_S_) : (⟨S524288x6, .f32⟩ : BufTy).Contents (Elt F) → (⟨S_, .f32⟩ : BufTy).Contents (Elt F) → (⟨S_, .f32⟩ : BufTy).Contents (Elt F)),
    nullary main_cst_22 (constant S_ .f32 0x4A400000#32),
    binary main_v74 main_cst_22 main_v75 (Host.divf : (⟨S_, .f32⟩ : BufTy).Contents (Elt F) → (⟨S_, .f32⟩ : BufTy).Contents (Elt F) → (⟨S_, .f32⟩ : BufTy).Contents (Elt F)),
    unary main_v41 main_v76 (broadcastInDim S1 ![] bcast_S_S1 : (⟨S_, .f32⟩ : BufTy).Contents (Elt F) → (⟨S1, .f32⟩ : BufTy).Contents (Elt F)),
    unary main_v58 main_v77 (broadcastInDim S1 ![] bcast_S_S1 : (⟨S_, .f32⟩ : BufTy).Contents (Elt F) → (⟨S1, .f32⟩ : BufTy).Contents (Elt F)),
    unary main_v75 main_v78 (broadcastInDim S1 ![] bcast_S_S1 : (⟨S_, .f32⟩ : BufTy).Contents (Elt F) → (⟨S1, .f32⟩ : BufTy).Contents (Elt F)),
    nary ![main_v76, main_v77, main_v78] main_v79 (fun u => concatenate S3 0 [⟨S1, u 0⟩, ⟨S1, u 1⟩, ⟨S1, u 2⟩] concatenates_S1_S1_S1_S3_d0) ]

abbrev seg1 : List (HloOp τ sig (Elt F)) :=
  [ unary main_arg1 main_v0 (sitofp .f32 : (⟨S524288x12, .i32⟩ : BufTy).Contents (Elt F) → (⟨S524288x12, .f32⟩ : BufTy).Contents (Elt F)),
    unary main_arg0 main_v1 ((transpose S12x524288 [1, 0] · transposes_S524288x12_S12x524288_1_0) : (⟨S524288x12, .f32⟩ : BufTy).Contents (Elt F) → (⟨S12x524288, .f32⟩ : BufTy).Contents (Elt F)),
    binary main_arg2 main_v1 main_v2 ((fun l r => Host.dotGeneral dot_S96x12_S12x524288_S96x524288_1_0_0_1_n_n none l r) : (⟨S96x12, .f32⟩ : BufTy).Contents (Elt F) → (⟨S12x524288, .f32⟩ : BufTy).Contents (Elt F) → (⟨S96x524288, .f32⟩ : BufTy).Contents (Elt F)),
    nullary main_cst (constant S_ .f32 0xFF800000#32),
    binary main_v2 main_cst main_v3 ((fun x v => Host.reduce FloatOps.maximumf x v reducesTo_S96x524288_S524288_d0 h_S_) : (⟨S96x524288, .f32⟩ : BufTy).Contents (Elt F) → (⟨S_, .f32⟩ : BufTy).Contents (Elt F) → (⟨S524288, .f32⟩ : BufTy).Contents (Elt F)),
    unary main_v3 main_v4 (broadcastInDim S1x524288 ![1] bcast_S524288_S1x524288_1 : (⟨S524288, .f32⟩ : BufTy).Contents (Elt F) → (⟨S1x524288, .f32⟩ : BufTy).Contents (Elt F)),
    unary main_v4 main_v5 (broadcastInDim S96x524288 ![0, 1] bcast_S1x524288_S96x524288_0_1 : (⟨S1x524288, .f32⟩ : BufTy).Contents (Elt F) → (⟨S96x524288, .f32⟩ : BufTy).Contents (Elt F)),
    binary main_v2 main_v5 main_v6 (subf : (⟨S96x524288, .f32⟩ : BufTy).Contents (Elt F) → (⟨S96x524288, .f32⟩ : BufTy).Contents (Elt F) → (⟨S96x524288, .f32⟩ : BufTy).Contents (Elt F)),
    unary main_v6 main_v7 (Host.exp : (⟨S96x524288, .f32⟩ : BufTy).Contents (Elt F) → (⟨S96x524288, .f32⟩ : BufTy).Contents (Elt F)),
    nullary main_cst_0 (constant S_ .f32 0x00000000#32),
    binary main_v7 main_cst_0 main_v8 ((fun x v => Host.reduceAdd x v reducesTo_S96x524288_S524288_d0 h_S_) : (⟨S96x524288, .f32⟩ : BufTy).Contents (Elt F) → (⟨S_, .f32⟩ : BufTy).Contents (Elt F) → (⟨S524288, .f32⟩ : BufTy).Contents (Elt F)),
    nullary main_cst_1 (constant S_ .f32 0x00000000#32),
    unary main_cst_1 main_v9 (broadcastInDim S96x12 ![] bcast_S_S96x12 : (⟨S_, .f32⟩ : BufTy).Contents (Elt F) → (⟨S96x12, .f32⟩ : BufTy).Contents (Elt F)),
    binary main_arg2 main_v9 main_v10 (cmpf .ogt : (⟨S96x12, .f32⟩ : BufTy).Contents (Elt F) → (⟨S96x12, .f32⟩ : BufTy).Contents (Elt F) → (⟨S96x12, .i1⟩ : BufTy).Contents (Elt F)),
    unary main_v10 main_v11 (uitofp .f32 : (⟨S96x12, .i1⟩ : BufTy).Contents (Elt F) → (⟨S96x12, .f32⟩ : BufTy).Contents (Elt F)),
    unary main_v7 main_v12 ((transpose S524288x96 [1, 0] · transposes_S96x524288_S524288x96_1_0) : (⟨S96x524288, .f32⟩ : BufTy).Contents (Elt F) → (⟨S524288x96, .f32⟩ : BufTy).Contents (Elt F)),
    binary main_v12 main_v11 main_v13 ((fun l r => Host.dotGeneral dot_S524288x96_S96x12_S524288x12_1_0_0_1_n_n none l r) : (⟨S524288x96, .f32⟩ : BufTy).Contents (Elt F) → (⟨S96x12, .f32⟩ : BufTy).Contents (Elt F) → (⟨S524288x12, .f32⟩ : BufTy).Contents (Elt F)),
    unary main_v8 main_v14 (broadcastInDim S524288x1 ![0] bcast_S524288_S524288x1_0 : (⟨S524288, .f32⟩ : BufTy).Contents (Elt F) → (⟨S524288x1, .f32⟩ : BufTy).Contents (Elt F)),
    unary main_v14 main_v15 (broadcastInDim S524288x12 ![0, 1] bcast_S524288x1_S524288x12_0_1 : (⟨S524288x1, .f32⟩ : BufTy).Contents (Elt F) → (⟨S524288x12, .f32⟩ : BufTy).Contents (Elt F)),
    binary main_v13 main_v15 main_v16 (Host.divf : (⟨S524288x12, .f32⟩ : BufTy).Contents (Elt F) → (⟨S524288x12, .f32⟩ : BufTy).Contents (Elt F) → (⟨S524288x12, .f32⟩ : BufTy).Contents (Elt F)) ]

abbrev seg2 : List (HloOp τ sig (Elt F)) :=
  [ unary main_v16 main_v17 ((extractStridedSlice S524288x1 ![0, 0] · slices_S524288x12_S524288x1_0_0) : (⟨S524288x12, .f32⟩ : BufTy).Contents (Elt F) → (⟨S524288x1, .f32⟩ : BufTy).Contents (Elt F)),
    reshape main_v17 main_v18 rfl shapeCasts_S524288x1_S524288,
    unary main_v16 main_v19 ((extractStridedSlice S524288x5 ![0, 1] · slices_S524288x12_S524288x5_0_1) : (⟨S524288x12, .f32⟩ : BufTy).Contents (Elt F) → (⟨S524288x5, .f32⟩ : BufTy).Contents (Elt F)),
    unary main_v16 main_v20 ((extractStridedSlice S524288x6 ![0, 6] · slices_S524288x12_S524288x6_0_6) : (⟨S524288x12, .f32⟩ : BufTy).Contents (Elt F) → (⟨S524288x6, .f32⟩ : BufTy).Contents (Elt F)),
    unary main_v0 main_v21 ((extractStridedSlice S524288x1 ![0, 0] · slices_S524288x12_S524288x1_0_0) : (⟨S524288x12, .f32⟩ : BufTy).Contents (Elt F) → (⟨S524288x1, .f32⟩ : BufTy).Contents (Elt F)),
    reshape main_v21 main_v22 rfl shapeCasts_S524288x1_S524288,
    unary main_v0 main_v23 ((extractStridedSlice S524288x5 ![0, 1] · slices_S524288x12_S524288x5_0_1) : (⟨S524288x12, .f32⟩ : BufTy).Contents (Elt F) → (⟨S524288x5, .f32⟩ : BufTy).Contents (Elt F)),
    unary main_v0 main_v24 ((extractStridedSlice S524288x6 ![0, 6] · slices_S524288x12_S524288x6_0_6) : (⟨S524288x12, .f32⟩ : BufTy).Contents (Elt F) → (⟨S524288x6, .f32⟩ : BufTy).Contents (Elt F)) ]

abbrev seg3 : List (HloOp τ sig (Elt F)) :=
  [ binary main_v18 main_v22 main_v25 (mulf : (⟨S524288, .f32⟩ : BufTy).Contents (Elt F) → (⟨S524288, .f32⟩ : BufTy).Contents (Elt F) → (⟨S524288, .f32⟩ : BufTy).Contents (Elt F)),
    nullary main_cst_2 (constant S_ .f32 0x322BCC77#32),
    unary main_cst_2 main_v26 (broadcastInDim S524288 ![] bcast_S_S524288 : (⟨S_, .f32⟩ : BufTy).Contents (Elt F) → (⟨S524288, .f32⟩ : BufTy).Contents (Elt F)),
    binary main_v25 main_v26 main_v27 (addf : (⟨S524288, .f32⟩ : BufTy).Contents (Elt F) → (⟨S524288, .f32⟩ : BufTy).Contents (Elt F) → (⟨S524288, .f32⟩ : BufTy).Contents (Elt F)),
    unary main_v27 main_v28 (Host.sqrt : (⟨S524288, .f32⟩ : BufTy).Contents (Elt F) → (⟨S524288, .f32⟩ : BufTy).Contents (Elt F)),
    nullary main_cst_3 (constant S_ .f32 0x3F800000#32),
    unary main_cst_3 main_v29 (broadcastInDim S524288 ![] bcast_S_S524288 : (⟨S_, .f32⟩ : BufTy).Contents (Elt F) → (⟨S524288, .f32⟩ : BufTy).Contents (Elt F)),
    binary main_v29 main_v18 main_v30 (subf : (⟨S524288, .f32⟩ : BufTy).Contents (Elt F) → (⟨S524288, .f32⟩ : BufTy).Contents (Elt F) → (⟨S524288, .f32⟩ : BufTy).Contents (Elt F)),
    nullary main_cst_4 (constant S_ .f32 0x3F800000#32),
    unary main_cst_4 main_v31 (broadcastInDim S524288 ![] bcast_S_S524288 : (⟨S_, .f32⟩ : BufTy).Contents (Elt F) → (⟨S524288, .f32⟩ : BufTy).Contents (Elt F)),
    binary main_v31 main_v22 main_v32 (subf : (⟨S524288, .f32⟩ : BufTy).Contents (Elt F) → (⟨S524288, .f32⟩ : BufTy).Contents (Elt F) → (⟨S524288, .f32⟩ : BufTy).Contents (Elt F)),
    binary main_v30 main_v32 main_v33 (mulf : (⟨S524288, .f32⟩ : BufTy).Contents (Elt F) → (⟨S524288, .f32⟩ : BufTy).Contents (Elt F) → (⟨S524288, .f32⟩ : BufTy).Contents (Elt F)),
    nullary main_cst_5 (constant S_ .f32 0x322BCC77#32),
    unary main_cst_5 main_v34 (broadcastInDim S524288 ![] bcast_S_S524288 : (⟨S_, .f32⟩ : BufTy).Contents (Elt F) → (⟨S524288, .f32⟩ : BufTy).Contents (Elt F)),
    binary main_v33 main_v34 main_v35 (addf : (⟨S524288, .f32⟩ : BufTy).Contents (Elt F) → (⟨S524288, .f32⟩ : BufTy).Contents (Elt F) → (⟨S524288, .f32⟩ : BufTy).Contents (Elt F)),
    unary main_v35 main_v36 (Host.sqrt : (⟨S524288, .f32⟩ : BufTy).Contents (Elt F) → (⟨S524288, .f32⟩ : BufTy).Contents (Elt F)),
    binary main_v28 main_v36 main_v37 (addf : (⟨S524288, .f32⟩ : BufTy).Contents (Elt F) → (⟨S524288, .f32⟩ : BufTy).Contents (Elt F) → (⟨S524288, .f32⟩ : BufTy).Contents (Elt F)),
    nullary main_cst_6 (constant S_ .f32 0x3F800000#32),
    unary main_cst_6 main_v38 (broadcastInDim S524288 ![] bcast_S_S524288 : (⟨S_, .f32⟩ : BufTy).Contents (Elt F) → (⟨S524288, .f32⟩ : BufTy).Contents (Elt F)),
    binary main_v38 main_v37 main_v39 (subf : (⟨S524288, .f32⟩ : BufTy).Contents (Elt F) → (⟨S524288, .f32⟩ : BufTy).Contents (Elt F) → (⟨S524288, .f32⟩ : BufTy).Contents (Elt F)),
    nullary main_cst_7 (constant S_ .f32 0x00000000#32),
    binary main_v39 main_cst_7 main_v40 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    nullary main_cst_8 (constant S_ .f32 0x49000000#32),
    binary main_v40 main_cst_8 main_v41 (Host.divf : (⟨S_, .f32⟩ : BufTy).Contents (Elt F) → (⟨S_, .f32⟩ : BufTy).Contents (Elt F) → (⟨S_, .f32⟩ : BufTy).Contents (Elt F)) ]

abbrev seg4 : List (HloOp τ sig (Elt F)) :=
  [ binary main_v19 main_v23 main_v42 (mulf : (⟨S524288x5, .f32⟩ : BufTy).Contents (Elt F) → (⟨S524288x5, .f32⟩ : BufTy).Contents (Elt F) → (⟨S524288x5, .f32⟩ : BufTy).Contents (Elt F)),
    nullary main_cst_9 (constant S_ .f32 0x322BCC77#32),
    unary main_cst_9 main_v43 (broadcastInDim S524288x5 ![] bcast_S_S524288x5 : (⟨S_, .f32⟩ : BufTy).Contents (Elt F) → (⟨S524288x5, .f32⟩ : BufTy).Contents (Elt F)),
    binary main_v42 main_v43 main_v44 (addf : (⟨S524288x5, .f32⟩ : BufTy).Contents (Elt F) → (⟨S524288x5, .f32⟩ : BufTy).Contents (Elt F) → (⟨S524288x5, .f32⟩ : BufTy).Contents (Elt F)),
    unary main_v44 main_v45 (Host.sqrt : (⟨S524288x5, .f32⟩ : BufTy).Contents (Elt F) → (⟨S524288x5, .f32⟩ : BufTy).Contents (Elt F)),
    nullary main_cst_10 (constant S_ .f32 0x3F800000#32),
    unary main_cst_10 main_v46 (broadcastInDim S524288x5 ![] bcast_S_S524288x5 : (⟨S_, .f32⟩ : BufTy).Contents (Elt F) → (⟨S524288x5, .f32⟩ : BufTy).Contents (Elt F)),
    binary main_v46 main_v19 main_v47 (subf : (⟨S524288x5, .f32⟩ : BufTy).Contents (Elt F) → (⟨S524288x5, .f32⟩ : BufTy).Contents (Elt F) → (⟨S524288x5, .f32⟩ : BufTy).Contents (Elt F)),
    nullary main_cst_11 (constant S_ .f32 0x3F800000#32),
    unary main_cst_11 main_v48 (broadcastInDim S524288x5 ![] bcast_S_S524288x5 : (⟨S_, .f32⟩ : BufTy).Contents (Elt F) → (⟨S524288x5, .f32⟩ : BufTy).Contents (Elt F)),
    binary main_v48 main_v23 main_v49 (subf : (⟨S524288x5, .f32⟩ : BufTy).Contents (Elt F) → (⟨S524288x5, .f32⟩ : BufTy).Contents (Elt F) → (⟨S524288x5, .f32⟩ : BufTy).Contents (Elt F)),
    binary main_v47 main_v49 main_v50 (mulf : (⟨S524288x5, .f32⟩ : BufTy).Contents (Elt F) → (⟨S524288x5, .f32⟩ : BufTy).Contents (Elt F) → (⟨S524288x5, .f32⟩ : BufTy).Contents (Elt F)),
    nullary main_cst_12 (constant S_ .f32 0x322BCC77#32),
    unary main_cst_12 main_v51 (broadcastInDim S524288x5 ![] bcast_S_S524288x5 : (⟨S_, .f32⟩ : BufTy).Contents (Elt F) → (⟨S524288x5, .f32⟩ : BufTy).Contents (Elt F)),
    binary main_v50 main_v51 main_v52 (addf : (⟨S524288x5, .f32⟩ : BufTy).Contents (Elt F) → (⟨S524288x5, .f32⟩ : BufTy).Contents (Elt F) → (⟨S524288x5, .f32⟩ : BufTy).Contents (Elt F)),
    unary main_v52 main_v53 (Host.sqrt : (⟨S524288x5, .f32⟩ : BufTy).Contents (Elt F) → (⟨S524288x5, .f32⟩ : BufTy).Contents (Elt F)),
    binary main_v45 main_v53 main_v54 (addf : (⟨S524288x5, .f32⟩ : BufTy).Contents (Elt F) → (⟨S524288x5, .f32⟩ : BufTy).Contents (Elt F) → (⟨S524288x5, .f32⟩ : BufTy).Contents (Elt F)),
    nullary main_cst_13 (constant S_ .f32 0x3F800000#32),
    unary main_cst_13 main_v55 (broadcastInDim S524288x5 ![] bcast_S_S524288x5 : (⟨S_, .f32⟩ : BufTy).Contents (Elt F) → (⟨S524288x5, .f32⟩ : BufTy).Contents (Elt F)),
    binary main_v55 main_v54 main_v56 (subf : (⟨S524288x5, .f32⟩ : BufTy).Contents (Elt F) → (⟨S524288x5, .f32⟩ : BufTy).Contents (Elt F) → (⟨S524288x5, .f32⟩ : BufTy).Contents (Elt F)),
    nullary main_cst_14 (constant S_ .f32 0x00000000#32),
    binary main_v56 main_cst_14 main_v57 ((fun x v => Host.reduceAdd x v reducesTo_S524288x5_S_d0_1 h_S_) : (⟨S524288x5, .f32⟩ : BufTy).Contents (Elt F) → (⟨S_, .f32⟩ : BufTy).Contents (Elt F) → (⟨S_, .f32⟩ : BufTy).Contents (Elt F)),
    nullary main_cst_15 (constant S_ .f32 0x4A200000#32),
    binary main_v57 main_cst_15 main_v58 (Host.divf : (⟨S_, .f32⟩ : BufTy).Contents (Elt F) → (⟨S_, .f32⟩ : BufTy).Contents (Elt F) → (⟨S_, .f32⟩ : BufTy).Contents (Elt F)) ]

abbrev seg5 : List (HloOp τ sig (Elt F)) :=
  [ binary main_v20 main_v24 main_v59 (mulf : (⟨S524288x6, .f32⟩ : BufTy).Contents (Elt F) → (⟨S524288x6, .f32⟩ : BufTy).Contents (Elt F) → (⟨S524288x6, .f32⟩ : BufTy).Contents (Elt F)),
    nullary main_cst_16 (constant S_ .f32 0x322BCC77#32),
    unary main_cst_16 main_v60 (broadcastInDim S524288x6 ![] bcast_S_S524288x6 : (⟨S_, .f32⟩ : BufTy).Contents (Elt F) → (⟨S524288x6, .f32⟩ : BufTy).Contents (Elt F)),
    binary main_v59 main_v60 main_v61 (addf : (⟨S524288x6, .f32⟩ : BufTy).Contents (Elt F) → (⟨S524288x6, .f32⟩ : BufTy).Contents (Elt F) → (⟨S524288x6, .f32⟩ : BufTy).Contents (Elt F)),
    unary main_v61 main_v62 (Host.sqrt : (⟨S524288x6, .f32⟩ : BufTy).Contents (Elt F) → (⟨S524288x6, .f32⟩ : BufTy).Contents (Elt F)),
    nullary main_cst_17 (constant S_ .f32 0x3F800000#32),
    unary main_cst_17 main_v63 (broadcastInDim S524288x6 ![] bcast_S_S524288x6 : (⟨S_, .f32⟩ : BufTy).Contents (Elt F) → (⟨S524288x6, .f32⟩ : BufTy).Contents (Elt F)),
    binary main_v63 main_v20 main_v64 (subf : (⟨S524288x6, .f32⟩ : BufTy).Contents (Elt F) → (⟨S524288x6, .f32⟩ : BufTy).Contents (Elt F) → (⟨S524288x6, .f32⟩ : BufTy).Contents (Elt F)),
    nullary main_cst_18 (constant S_ .f32 0x3F800000#32),
    unary main_cst_18 main_v65 (broadcastInDim S524288x6 ![] bcast_S_S524288x6 : (⟨S_, .f32⟩ : BufTy).Contents (Elt F) → (⟨S524288x6, .f32⟩ : BufTy).Contents (Elt F)),
    binary main_v65 main_v24 main_v66 (subf : (⟨S524288x6, .f32⟩ : BufTy).Contents (Elt F) → (⟨S524288x6, .f32⟩ : BufTy).Contents (Elt F) → (⟨S524288x6, .f32⟩ : BufTy).Contents (Elt F)),
    binary main_v64 main_v66 main_v67 (mulf : (⟨S524288x6, .f32⟩ : BufTy).Contents (Elt F) → (⟨S524288x6, .f32⟩ : BufTy).Contents (Elt F) → (⟨S524288x6, .f32⟩ : BufTy).Contents (Elt F)),
    nullary main_cst_19 (constant S_ .f32 0x322BCC77#32),
    unary main_cst_19 main_v68 (broadcastInDim S524288x6 ![] bcast_S_S524288x6 : (⟨S_, .f32⟩ : BufTy).Contents (Elt F) → (⟨S524288x6, .f32⟩ : BufTy).Contents (Elt F)),
    binary main_v67 main_v68 main_v69 (addf : (⟨S524288x6, .f32⟩ : BufTy).Contents (Elt F) → (⟨S524288x6, .f32⟩ : BufTy).Contents (Elt F) → (⟨S524288x6, .f32⟩ : BufTy).Contents (Elt F)),
    unary main_v69 main_v70 (Host.sqrt : (⟨S524288x6, .f32⟩ : BufTy).Contents (Elt F) → (⟨S524288x6, .f32⟩ : BufTy).Contents (Elt F)),
    binary main_v62 main_v70 main_v71 (addf : (⟨S524288x6, .f32⟩ : BufTy).Contents (Elt F) → (⟨S524288x6, .f32⟩ : BufTy).Contents (Elt F) → (⟨S524288x6, .f32⟩ : BufTy).Contents (Elt F)),
    nullary main_cst_20 (constant S_ .f32 0x3F800000#32),
    unary main_cst_20 main_v72 (broadcastInDim S524288x6 ![] bcast_S_S524288x6 : (⟨S_, .f32⟩ : BufTy).Contents (Elt F) → (⟨S524288x6, .f32⟩ : BufTy).Contents (Elt F)),
    binary main_v72 main_v71 main_v73 (subf : (⟨S524288x6, .f32⟩ : BufTy).Contents (Elt F) → (⟨S524288x6, .f32⟩ : BufTy).Contents (Elt F) → (⟨S524288x6, .f32⟩ : BufTy).Contents (Elt F)),
    nullary main_cst_21 (constant S_ .f32 0x00000000#32),
    binary main_v73 main_cst_21 main_v74 ((fun x v => Host.reduceAdd x v reducesTo_S524288x6_S_d0_1 h_S_) : (⟨S524288x6, .f32⟩ : BufTy).Contents (Elt F) → (⟨S_, .f32⟩ : BufTy).Contents (Elt F) → (⟨S_, .f32⟩ : BufTy).Contents (Elt F)),
    nullary main_cst_22 (constant S_ .f32 0x4A400000#32),
    binary main_v74 main_cst_22 main_v75 (Host.divf : (⟨S_, .f32⟩ : BufTy).Contents (Elt F) → (⟨S_, .f32⟩ : BufTy).Contents (Elt F) → (⟨S_, .f32⟩ : BufTy).Contents (Elt F)) ]

abbrev seg6 : List (HloOp τ sig (Elt F)) :=
  [ unary main_v41 main_v76 (broadcastInDim S1 ![] bcast_S_S1 : (⟨S_, .f32⟩ : BufTy).Contents (Elt F) → (⟨S1, .f32⟩ : BufTy).Contents (Elt F)),
    unary main_v58 main_v77 (broadcastInDim S1 ![] bcast_S_S1 : (⟨S_, .f32⟩ : BufTy).Contents (Elt F) → (⟨S1, .f32⟩ : BufTy).Contents (Elt F)),
    unary main_v75 main_v78 (broadcastInDim S1 ![] bcast_S_S1 : (⟨S_, .f32⟩ : BufTy).Contents (Elt F) → (⟨S1, .f32⟩ : BufTy).Contents (Elt F)),
    nary ![main_v76, main_v77, main_v78] main_v79 (fun u => concatenate S3 0 [⟨S1, u 0⟩, ⟨S1, u 1⟩, ⟨S1, u 2⟩] concatenates_S1_S1_S1_S3_d0) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., reshape_bufs_sub .., unary_bufs_sub .., unary_bufs_sub .., unary_bufs_sub .., reshape_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., binary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., binary_bufs_sub .., nullary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., nullary_bufs_sub .., binary_bufs_sub .., nullary_bufs_sub .., binary_bufs_sub .., unary_bufs_sub .., unary_bufs_sub .., unary_bufs_sub .., nary_bufs_sub ..⟩

set_option maxRecDepth 8192 in
/-- The 104 operations are the six stages' operations, in order. -/
theorem ops_split : (ops : List (HloOp τ sig (Elt F))) = seg1 ++ seg2 ++ seg3 ++ seg4 ++ seg5 ++ seg6 := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem seg1_v0 (V : Valuation τ sig (Elt F)) :
    after seg1 V (Proc.devRef .tc main_v0) = labels (F := F) (V (Proc.devRef .tc main_arg1)) := by
  after_results_simp <;> rfl

set_option maxRecDepth 8192 in
theorem seg1_v16 (V : Valuation τ sig (Elt F)) :
    after seg1 V (Proc.devRef .tc main_v16) = refMarginals (F := F) (V (Proc.devRef .tc main_arg0)) (V (Proc.devRef .tc main_arg2)) := by
  after_results_simp <;> rfl

theorem seg1_keep_arg0 (V : Valuation τ sig (Elt F)) :
    after seg1 V (Proc.devRef .tc main_arg0) = V (Proc.devRef .tc main_arg0) := by
  after_results_simp

theorem seg1_keep_arg1 (V : Valuation τ sig (Elt F)) :
    after seg1 V (Proc.devRef .tc main_arg1) = V (Proc.devRef .tc main_arg1) := by
  after_results_simp

theorem seg1_keep_arg2 (V : Valuation τ sig (Elt F)) :
    after seg1 V (Proc.devRef .tc main_arg2) = V (Proc.devRef .tc main_arg2) := by
  after_results_simp

theorem seg2_v18 (V : Valuation τ sig (Elt F)) :
    after seg2 V (Proc.devRef .tc main_v18) = col0 (F := F) (V (Proc.devRef .tc main_v16)) := by
  after_results_simp <;> rfl

theorem seg2_v19 (V : Valuation τ sig (Elt F)) :
    after seg2 V (Proc.devRef .tc main_v19) = cols1 (F := F) (V (Proc.devRef .tc main_v16)) := by
  after_results_simp <;> rfl

theorem seg2_v20 (V : Valuation τ sig (Elt F)) :
    after seg2 V (Proc.devRef .tc main_v20) = cols2 (F := F) (V (Proc.devRef .tc main_v16)) := by
  after_results_simp <;> rfl

theorem seg2_v22 (V : Valuation τ sig (Elt F)) :
    after seg2 V (Proc.devRef .tc main_v22) = col0 (F := F) (V (Proc.devRef .tc main_v0)) := by
  after_results_simp <;> rfl

theorem seg2_v23 (V : Valuation τ sig (Elt F)) :
    after seg2 V (Proc.devRef .tc main_v23) = cols1 (F := F) (V (Proc.devRef .tc main_v0)) := by
  after_results_simp <;> rfl

theorem seg2_v24 (V : Valuation τ sig (Elt F)) :
    after seg2 V (Proc.devRef .tc main_v24) = cols2 (F := F) (V (Proc.devRef .tc main_v0)) := by
  after_results_simp <;> rfl

theorem seg2_keep_v16 (V : Valuation τ sig (Elt F)) :
    after seg2 V (Proc.devRef .tc main_v16) = V (Proc.devRef .tc main_v16) := by
  after_results_simp

theorem seg2_keep_arg0 (V : Valuation τ sig (Elt F)) :
    after seg2 V (Proc.devRef .tc main_arg0) = V (Proc.devRef .tc main_arg0) := by
  after_results_simp

theorem seg2_keep_arg1 (V : Valuation τ sig (Elt F)) :
    after seg2 V (Proc.devRef .tc main_arg1) = V (Proc.devRef .tc main_arg1) := by
  after_results_simp

theorem seg2_keep_arg2 (V : Valuation τ sig (Elt F)) :
    after seg2 V (Proc.devRef .tc main_arg2) = V (Proc.devRef .tc main_arg2) := by
  after_results_simp

theorem seg3_v41 (V : Valuation τ sig (Elt F)) :
    after seg3 V (Proc.devRef .tc main_v41) = mean0 (F := F) (V (Proc.devRef .tc main_v18)) (V (Proc.devRef .tc main_v22)) := by
  after_results_simp <;> rfl

theorem seg3_keep_v19 (V : Valuation τ sig (Elt F)) :
    after seg3 V (Proc.devRef .tc main_v19) = V (Proc.devRef .tc main_v19) := by
  after_results_simp

theorem seg3_keep_v20 (V : Valuation τ sig (Elt F)) :
    after seg3 V (Proc.devRef .tc main_v20) = V (Proc.devRef .tc main_v20) := by
  after_results_simp

theorem seg3_keep_v23 (V : Valuation τ sig (Elt F)) :
    after seg3 V (Proc.devRef .tc main_v23) = V (Proc.devRef .tc main_v23) := by
  after_results_simp

theorem seg3_keep_v24 (V : Valuation τ sig (Elt F)) :
    after seg3 V (Proc.devRef .tc main_v24) = V (Proc.devRef .tc main_v24) := by
  after_results_simp

theorem seg3_keep_v16 (V : Valuation τ sig (Elt F)) :
    after seg3 V (Proc.devRef .tc main_v16) = V (Proc.devRef .tc main_v16) := by
  after_results_simp

theorem seg3_keep_arg0 (V : Valuation τ sig (Elt F)) :
    after seg3 V (Proc.devRef .tc main_arg0) = V (Proc.devRef .tc main_arg0) := by
  after_results_simp

theorem seg3_keep_arg1 (V : Valuation τ sig (Elt F)) :
    after seg3 V (Proc.devRef .tc main_arg1) = V (Proc.devRef .tc main_arg1) := by
  after_results_simp

theorem seg3_keep_arg2 (V : Valuation τ sig (Elt F)) :
    after seg3 V (Proc.devRef .tc main_arg2) = V (Proc.devRef .tc main_arg2) := by
  after_results_simp

theorem seg4_v58 (V : Valuation τ sig (Elt F)) :
    after seg4 V (Proc.devRef .tc main_v58) = mean1 (F := F) (V (Proc.devRef .tc main_v19)) (V (Proc.devRef .tc main_v23)) := by
  after_results_simp <;> rfl

theorem seg4_keep_v41 (V : Valuation τ sig (Elt F)) :
    after seg4 V (Proc.devRef .tc main_v41) = V (Proc.devRef .tc main_v41) := by
  after_results_simp

theorem seg4_keep_v20 (V : Valuation τ sig (Elt F)) :
    after seg4 V (Proc.devRef .tc main_v20) = V (Proc.devRef .tc main_v20) := by
  after_results_simp

theorem seg4_keep_v24 (V : Valuation τ sig (Elt F)) :
    after seg4 V (Proc.devRef .tc main_v24) = V (Proc.devRef .tc main_v24) := by
  after_results_simp

theorem seg4_keep_v16 (V : Valuation τ sig (Elt F)) :
    after seg4 V (Proc.devRef .tc main_v16) = V (Proc.devRef .tc main_v16) := by
  after_results_simp

theorem seg4_keep_arg0 (V : Valuation τ sig (Elt F)) :
    after seg4 V (Proc.devRef .tc main_arg0) = V (Proc.devRef .tc main_arg0) := by
  after_results_simp

theorem seg4_keep_arg1 (V : Valuation τ sig (Elt F)) :
    after seg4 V (Proc.devRef .tc main_arg1) = V (Proc.devRef .tc main_arg1) := by
  after_results_simp

theorem seg4_keep_arg2 (V : Valuation τ sig (Elt F)) :
    after seg4 V (Proc.devRef .tc main_arg2) = V (Proc.devRef .tc main_arg2) := by
  after_results_simp

theorem seg5_v75 (V : Valuation τ sig (Elt F)) :
    after seg5 V (Proc.devRef .tc main_v75) = mean2 (F := F) (V (Proc.devRef .tc main_v20)) (V (Proc.devRef .tc main_v24)) := by
  after_results_simp <;> rfl

theorem seg5_keep_v41 (V : Valuation τ sig (Elt F)) :
    after seg5 V (Proc.devRef .tc main_v41) = V (Proc.devRef .tc main_v41) := by
  after_results_simp

theorem seg5_keep_v58 (V : Valuation τ sig (Elt F)) :
    after seg5 V (Proc.devRef .tc main_v58) = V (Proc.devRef .tc main_v58) := by
  after_results_simp

theorem seg5_keep_v16 (V : Valuation τ sig (Elt F)) :
    after seg5 V (Proc.devRef .tc main_v16) = V (Proc.devRef .tc main_v16) := by
  after_results_simp

theorem seg5_keep_arg0 (V : Valuation τ sig (Elt F)) :
    after seg5 V (Proc.devRef .tc main_arg0) = V (Proc.devRef .tc main_arg0) := by
  after_results_simp

theorem seg5_keep_arg1 (V : Valuation τ sig (Elt F)) :
    after seg5 V (Proc.devRef .tc main_arg1) = V (Proc.devRef .tc main_arg1) := by
  after_results_simp

theorem seg5_keep_arg2 (V : Valuation τ sig (Elt F)) :
    after seg5 V (Proc.devRef .tc main_arg2) = V (Proc.devRef .tc main_arg2) := by
  after_results_simp

theorem seg6_v79 (V : Valuation τ sig (Elt F)) :
    after seg6 V (Proc.devRef .tc main_v79) = join3 (F := F) (V (Proc.devRef .tc main_v41)) (V (Proc.devRef .tc main_v58)) (V (Proc.devRef .tc main_v75)) := by
  after_results_simp <;> rfl

theorem seg6_keep_v16 (V : Valuation τ sig (Elt F)) :
    after seg6 V (Proc.devRef .tc main_v16) = V (Proc.devRef .tc main_v16) := by
  after_results_simp

theorem seg6_keep_arg0 (V : Valuation τ sig (Elt F)) :
    after seg6 V (Proc.devRef .tc main_arg0) = V (Proc.devRef .tc main_arg0) := by
  after_results_simp

theorem seg6_keep_arg1 (V : Valuation τ sig (Elt F)) :
    after seg6 V (Proc.devRef .tc main_arg1) = V (Proc.devRef .tc main_arg1) := by
  after_results_simp

theorem seg6_keep_arg2 (V : Valuation τ sig (Elt F)) :
    after seg6 V (Proc.devRef .tc main_arg2) = V (Proc.devRef .tc main_arg2) := by
  after_results_simp

set_option maxRecDepth 8192 in
set_option maxHeartbeats 4000000 in
/-- On every device, for any float values, from any memory with zero counters: every weakly fair execution of the
    reference program terminates with the three losses and the marginals at their staged values of the arguments'
    launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v79) = refLosses (m ((c.tc : Thread nD τ).loc main_arg0)) (m ((c.tc : Thread nD τ).loc main_arg1)) (m ((c.tc : Thread nD τ).loc main_arg2))
      ∧ r.2.mem ((c.tc : Thread nD τ).loc main_v16) = refMarginals (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v79).trans (by rw [ops_split]; simp only [after_append]; rw [seg6_v79, seg5_v75, seg5_keep_v58, seg5_keep_v41, seg4_v58, seg4_keep_v41, seg4_keep_v20, seg4_keep_v24, seg3_v41, seg3_keep_v19, seg3_keep_v23, seg3_keep_v20, seg3_keep_v24, seg2_v18, seg2_v22, seg2_v19, seg2_v23, seg2_v20, seg2_v24, seg1_v16, seg1_v0]; rfl),
      (h c main_v16).trans (by rw [ops_split]; simp only [after_append]; rw [seg6_keep_v16, seg5_keep_v16, seg4_keep_v16, seg3_keep_v16, seg2_keep_v16, seg1_v16]),
      (h c main_arg0).trans (by rw [ops_split]; simp only [after_append]; rw [seg6_keep_arg0, seg5_keep_arg0, seg4_keep_arg0, seg3_keep_arg0, seg2_keep_arg0, seg1_keep_arg0]),
      (h c main_arg1).trans (by rw [ops_split]; simp only [after_append]; rw [seg6_keep_arg1, seg5_keep_arg1, seg4_keep_arg1, seg3_keep_arg1, seg2_keep_arg1, seg1_keep_arg1]),
      (h c main_arg2).trans (by rw [ops_split]; simp only [after_append]; rw [seg6_keep_arg2, seg5_keep_arg2, seg4_keep_arg2, seg3_keep_arg2, seg2_keep_arg2, seg1_keep_arg2])⟩)
    (run_seq scopedRefs_eq scopedSems_eq defs main (fun _ => ops) main_eq (fun _ => ops_sub) m ρ)

end Cert.RefRun

end
-- ==== Proof.RefIsSpecA.lean ====
/-
  Facts about the literal shapes of the reference program, stated for arbitrary functions on them:
  the column maximum as a fold over the 96 states, sums over every index of a shape as sums over
  coordinates, and the three-piece concatenation read at each of its three indices.
-/
import proofs.«115745_j21517786153440_2_alg».proof.Proof.Gen.ReferenceIdeal
import Idealize.ShloMosaic.Lib.ValueIdx
import Idealize.ShloMosaic.Lib.Pipeline.Value
import Idealize.ShloMosaic.PureOps.Ideal.Laws
import Idealize.ShloMosaic.PureOps.Reduce

noncomputable section

namespace Cert.RefSpec

open Cert.ReferenceIdeal Cert.ReferenceIdeal.Gen Idealize.ShloMosaic Idealize.ShloMosaic.StableHlo

/-- The [96, 524288] shape with axis 0 dropped is the [524288] shape. -/
theorem reduces_d0 : S96x524288.Reduces [0] S524288 := by decide

/-- The index over column `j` with state coordinate `k` inserted is `(k, j)`. -/
theorem lift_d0 (j : S524288.Idx) (k : Fin 96) :
    reduces_d0.lift j k = ValueIdx.ix2 k (j 0) :=
  funext fun a => Fin.ext (by match a with | ⟨0, _⟩ => rfl | ⟨1, _⟩ => rfl)

/-- The column maximum: a fold of `max` over the 96 states from the initial value. -/
theorem colmax_apply (x : S96x524288.Idx → EReal) (init : S_.Idx → EReal) (j : S524288.Idx) :
    Host.reduce (max : EReal → EReal → EReal) x init reducesTo_S96x524288_S524288_d0 h_S_ j
      = (Finset.univ : Finset (Fin 96)).fold max (init (Shape.Idx.first h_S_)) (fun k => x (ValueIdx.ix2 k (j 0))) := by
  rw [Host.reduce_eq_fold_single (max : EReal → EReal → EReal) x init reducesTo_S96x524288_S524288_d0 reduces_d0 h_S_ j]
  have hf : (x ∘ reduces_d0.lift j) = fun k : Fin 96 => x (ValueIdx.ix2 k (j 0)) :=
    funext fun k => congrArg x (lift_d0 j k)
  rw [hf]
  rfl

/-- A rank-1 index set is its coordinate range. -/
def idxEquiv1 {n : Nat} : (⟨1, ![n]⟩ : Shape).Idx ≃ Fin n where
  toFun i := i 0
  invFun a := ValueIdx.ix1 a
  left_inv i := (ValueIdx.eq_ix1 i).symm
  right_inv _ := rfl

/-- A sum over every index of a rank-1 shape is the sum over its coordinate. -/
theorem sum_idx1 {M : Type*} [AddCommMonoid M] {n : Nat} (f : (⟨1, ![n]⟩ : Shape).Idx → M) :
    ∑ i, f i = ∑ a : Fin n, f (ValueIdx.ix1 a) := by
  rw [← Equiv.sum_comp (idxEquiv1 (n := n)).symm f]
  rfl

/-- The three one-element pieces joined along the axis, read at an index: the piece its coordinate names. -/
theorem concat3_apply (a b c : S1.Idx → EReal) (j : S3.Idx) :
    concatenate S3 0 [⟨S1, a⟩, ⟨S1, b⟩, ⟨S1, c⟩] concatenates_S1_S1_S1_S3_d0 j
      = ![a (ValueIdx.ix1 0), b (ValueIdx.ix1 0), c (ValueIdx.ix1 0)] (j 0) := by
  obtain ⟨k, rfl⟩ : ∃ k : Fin 3, j = ValueIdx.ix1 k := ⟨j 0, ValueIdx.eq_ix1 j⟩
  have hi : ∀ b' : Fin S1.rank, b'.cast (rfl : S1.rank = S3.rank) ≠ (0 : Fin S3.rank) →
      ((ValueIdx.ix1 (0 : Fin 1) : S1.Idx) b').val = ((ValueIdx.ix1 k : S3.Idx) (b'.cast rfl)).val := fun b' hb' =>
    match b', hb' with
    | ⟨0, _⟩, hb' => absurd rfl hb'
  match k with
  | ⟨0, _⟩ =>
    exact concatenate_apply_piece (t := S3) 0 [⟨S1, a⟩, ⟨S1, b⟩, ⟨S1, c⟩] concatenates_S1_S1_S1_S3_d0 _ 0 (by show 0 < 3; omega) S1 a rfl rfl 0 rfl
      (ValueIdx.ix1 0) hi rfl
  | ⟨1, _⟩ =>
    exact concatenate_apply_piece (t := S3) 0 [⟨S1, a⟩, ⟨S1, b⟩, ⟨S1, c⟩] concatenates_S1_S1_S1_S3_d0 _ 1 (by show 1 < 3; omega) S1 b rfl rfl 1 rfl
      (ValueIdx.ix1 0) hi rfl
  | ⟨2, _⟩ =>
    exact concatenate_apply_piece (t := S3) 0 [⟨S1, a⟩, ⟨S1, b⟩, ⟨S1, c⟩] concatenates_S1_S1_S1_S3_d0 _ 2 (by show 2 < 3; omega) S1 c rfl rfl 2 rfl
      (ValueIdx.ix1 0) hi rfl

end Cert.RefSpec

end
-- ==== Proof.RefIsSpec.lean ====
/-
  The reference program computes the mathematics of `Cert.Spec`: stage by stage, each value of the reference read
  at an index is the corresponding quantity of the specification at the index's coordinates. The features are
  `f b k`, the labels `y b k`, the state rows `S s k`: the three arguments read at `(b, k)`, `(b, k)`, `(s, k)`.
-/
import proofs.«115745_j21517786153440_2_alg».proof.Proof.RefStages
import proofs.«115745_j21517786153440_2_alg».proof.Proof.Spec
import proofs.«115745_j21517786153440_2_alg».proof.Proof.RefIsSpecA

noncomputable section

namespace Cert.RefSpec

open Cert.ReferenceIdeal Cert.ReferenceIdeal.Gen Cert.RefRun Idealize.ShloMosaic Idealize.ShloMosaic.StableHlo
open ValueIdx (ix1 ix2)

variable (x0 : (⟨S524288x12, .f32⟩ : BufTy).Contents (Elt Ideal)) (x1 : (⟨S524288x12, .i32⟩ : BufTy).Contents (Elt Ideal))
  (x2 : (⟨S96x12, .f32⟩ : BufTy).Contents (Elt Ideal))

/-- The features, labels and state rows as functions of coordinates. -/
abbrev fOf : Fin 524288 → Fin 12 → EReal := fun b k => x0 (ix2 b k)
abbrev yOf : Fin 524288 → Fin 12 → BitVec 32 := fun b k => x1 (ix2 b k)
abbrev sOf : Fin 96 → Fin 12 → EReal := fun s k => x2 (ix2 s k)

/-! ### The two products read at an index -/

theorem dot1_lhs0 (i : S96x524288.Idx) (q : dot_S96x12_S12x524288_S96x524288_1_0_0_1_n_n.contr.Idx) : (dot_S96x12_S12x524288_S96x524288_1_0_0_1_n_n.lhsIdx i q 0).val = (i 0).val := by
  unfold DotDims.lhsIdx
  rw [dif_neg (show ¬(0 : Fin S96x12.rank) ∈ dot_S96x12_S12x524288_S96x524288_1_0_0_1_n_n.lhsBatch by decide),
    dif_pos (show (0 : Fin S96x12.rank) ∈ dot_S96x12_S12x524288_S96x524288_1_0_0_1_n_n.lhsNonContracting by decide)]
  rfl
theorem dot1_rhs1 (i : S96x524288.Idx) (q : dot_S96x12_S12x524288_S96x524288_1_0_0_1_n_n.contr.Idx) : (dot_S96x12_S12x524288_S96x524288_1_0_0_1_n_n.rhsIdx i q 1).val = (i 1).val := by
  unfold DotDims.rhsIdx
  rw [dif_neg (show ¬(1 : Fin S12x524288.rank) ∈ dot_S96x12_S12x524288_S96x524288_1_0_0_1_n_n.rhsBatch by decide),
    dif_pos (show (1 : Fin S12x524288.rank) ∈ dot_S96x12_S12x524288_S96x524288_1_0_0_1_n_n.rhsNonContracting by decide)]
  rfl

/-- The first product at `(s, b)`: the sum over the twelve features of the state's entry times the row's. -/
theorem dot1_apply (l : FVec Ideal S96x12 .f32) (r : FVec Ideal S12x524288 .f32) (s : Fin 96) (b : Fin 524288) :
    Host.dotGeneral (F := Ideal) dot_S96x12_S12x524288_S96x524288_1_0_0_1_n_n none l r (ix2 s b) = ∑ k : Fin 12, l (ix2 s k) * r (ix2 k b) := by
  simp only [Host.dotGeneral]
  rw [Ideal.dotGeneral_apply, ← Equiv.sum_comp (ValueIdx.contrEquiv1 dot_S96x12_S12x524288_S96x524288_1_0_0_1_n_n 12 rfl rfl).symm]
  refine Finset.sum_congr rfl fun k _ => ?_
  have hk := ValueIdx.contrEquiv1_symm_val dot_S96x12_S12x524288_S96x524288_1_0_0_1_n_n 12 rfl rfl k
  have el : dot_S96x12_S12x524288_S96x524288_1_0_0_1_n_n.lhsIdx (ix2 s b) ((ValueIdx.contrEquiv1 dot_S96x12_S12x524288_S96x524288_1_0_0_1_n_n 12 rfl rfl).symm k) = ix2 s k :=
    funext fun a => Fin.ext (by
      match a with
      | ⟨0, _⟩ => exact dot1_lhs0 _ _
      | ⟨1, _⟩ => exact (dot_S96x12_S12x524288_S96x524288_1_0_0_1_n_n.lhsIdx_val_of_single rfl _ _).trans hk)
  have er : dot_S96x12_S12x524288_S96x524288_1_0_0_1_n_n.rhsIdx (ix2 s b) ((ValueIdx.contrEquiv1 dot_S96x12_S12x524288_S96x524288_1_0_0_1_n_n 12 rfl rfl).symm k) = ix2 k b :=
    funext fun a => Fin.ext (by
      match a with
      | ⟨0, _⟩ => exact (dot_S96x12_S12x524288_S96x524288_1_0_0_1_n_n.rhsIdx_val_of_single rfl _ _).trans hk
      | ⟨1, _⟩ => exact dot1_rhs1 _ _)
  rw [el, er]

theorem dot2_lhs0 (i : S524288x12.Idx) (q : dot_S524288x96_S96x12_S524288x12_1_0_0_1_n_n.contr.Idx) : (dot_S524288x96_S96x12_S524288x12_1_0_0_1_n_n.lhsIdx i q 0).val = (i 0).val := by
  unfold DotDims.lhsIdx
  rw [dif_neg (show ¬(0 : Fin S524288x96.rank) ∈ dot_S524288x96_S96x12_S524288x12_1_0_0_1_n_n.lhsBatch by decide),
    dif_pos (show (0 : Fin S524288x96.rank) ∈ dot_S524288x96_S96x12_S524288x12_1_0_0_1_n_n.lhsNonContracting by decide)]
  rfl
theorem dot2_rhs1 (i : S524288x12.Idx) (q : dot_S524288x96_S96x12_S524288x12_1_0_0_1_n_n.contr.Idx) : (dot_S524288x96_S96x12_S524288x12_1_0_0_1_n_n.rhsIdx i q 1).val = (i 1).val := by
  unfold DotDims.rhsIdx
  rw [dif_neg (show ¬(1 : Fin S96x12.rank) ∈ dot_S524288x96_S96x12_S524288x12_1_0_0_1_n_n.rhsBatch by decide),
    dif_pos (show (1 : Fin S96x12.rank) ∈ dot_S524288x96_S96x12_S524288x12_1_0_0_1_n_n.rhsNonContracting by decide)]
  rfl

/-- The second product at `(b, c)`: the sum over the 96 states. -/
theorem dot2_apply (l : FVec Ideal S524288x96 .f32) (r : FVec Ideal S96x12 .f32) (b : Fin 524288) (c : Fin 12) :
    Host.dotGeneral (F := Ideal) dot_S524288x96_S96x12_S524288x12_1_0_0_1_n_n none l r (ix2 b c) = ∑ k : Fin 96, l (ix2 b k) * r (ix2 k c) := by
  simp only [Host.dotGeneral]
  rw [Ideal.dotGeneral_apply, ← Equiv.sum_comp (ValueIdx.contrEquiv1 dot_S524288x96_S96x12_S524288x12_1_0_0_1_n_n 96 rfl rfl).symm]
  refine Finset.sum_congr rfl fun k _ => ?_
  have hk := ValueIdx.contrEquiv1_symm_val dot_S524288x96_S96x12_S524288x12_1_0_0_1_n_n 96 rfl rfl k
  have el : dot_S524288x96_S96x12_S524288x12_1_0_0_1_n_n.lhsIdx (ix2 b c) ((ValueIdx.contrEquiv1 dot_S524288x96_S96x12_S524288x12_1_0_0_1_n_n 96 rfl rfl).symm k) = ix2 b k :=
    funext fun a => Fin.ext (by
      match a with
      | ⟨0, _⟩ => exact dot2_lhs0 _ _
      | ⟨1, _⟩ => exact (dot_S524288x96_S96x12_S524288x12_1_0_0_1_n_n.lhsIdx_val_of_single rfl _ _).trans hk)
  have er : dot_S524288x96_S96x12_S524288x12_1_0_0_1_n_n.rhsIdx (ix2 b c) ((ValueIdx.contrEquiv1 dot_S524288x96_S96x12_S524288x12_1_0_0_1_n_n 96 rfl rfl).symm k) = ix2 k c :=
    funext fun a => Fin.ext (by
      match a with
      | ⟨0, _⟩ => exact (dot_S524288x96_S96x12_S524288x12_1_0_0_1_n_n.rhsIdx_val_of_single rfl _ _).trans hk
      | ⟨1, _⟩ => exact dot2_rhs1 _ _)
  rw [el, er]

/-- The host's quotient at an index. -/
theorem hdivf_apply {s : Shape} (a b : FVec Ideal s .f32) (i : s.Idx) :
    Host.divf (F := Ideal) a b i = Ideal.div (a i) (b i) := rfl

/-! ### The stages -/

/-- The potential of state `s` on row `b` (the reference multiplies in the other order). -/
theorem potential_eq (s : Fin 96) (b : Fin 524288) :
    potentials (F := Ideal) x0 x2 (ix2 s b) = Cert.Spec.potential (fOf x0) (sOf x2) b s := by
  unfold potentials Cert.Spec.potential
  rw [dot1_apply]
  refine Finset.sum_congr rfl fun k _ => ?_
  rw [mul_comm]
  exact congrArg (· * _) (transpose_apply [1, 0] x0 transposes_S524288x12_S12x524288_1_0 (ix2 k b) (ix2 b k)
    (fun c => match c with | ⟨0, _⟩ => rfl | ⟨1, _⟩ => rfl))

/-- The column maximum is the row's largest potential. -/
theorem rowMax_eq (b : Fin 524288) :
    colMax (F := Ideal) x0 x2 (ix1 b) = Cert.Spec.rowMax (fOf x0) (sOf x2) b := by
  unfold colMax Cert.Spec.rowMax
  show Host.reduce (max : EReal → EReal → EReal) _ _ _ _ (ix1 b) = _
  rw [colmax_apply]
  have hf : (fun k : Fin 96 => potentials (F := Ideal) x0 x2 (ix2 k ((ix1 b : S524288.Idx) 0)))
      = fun s => Cert.Spec.potential (fOf x0) (sOf x2) b s := funext fun k => potential_eq x0 x2 k b
  rw [hf]
  rfl

/-- The weight of state `s` on row `b`. -/
theorem weight_eq (s : Fin 96) (b : Fin 524288) :
    weights (F := Ideal) x0 x2 (ix2 s b) = Cert.Spec.weight (fOf x0) (sOf x2) b s := by
  unfold weights Cert.Spec.weight
  show Ideal.exp (potentials (F := Ideal) x0 x2 (ix2 s b) - _) = _
  rw [potential_eq]
  refine congrArg (fun t => Ideal.exp (_ - t)) ?_
  rw [broadcastInDim_apply ![0, 1] bcast_S1x524288_S96x524288_0_1 _ (ix2 s b) (ix2 (0 : Fin 1) b)
      (fun a => match a with
        | ⟨0, _⟩ => by show 0 = if (1 : Nat) = 1 then 0 else s.val; rw [if_pos rfl]
        | ⟨1, _⟩ => by show b.val = if (524288 : Nat) = 1 then 0 else b.val; rw [if_neg (by decide)]),
    broadcastInDim_apply ![1] bcast_S524288_S1x524288_1 _ (ix2 (0 : Fin 1) b) (ix1 b)
      (fun a => match a with
        | ⟨0, _⟩ => by show b.val = if (524288 : Nat) = 1 then 0 else b.val; rw [if_neg (by decide)])]
  exact rowMax_eq x0 x2 b

/-- The column sum is the total weight. -/
theorem partition_eq (b : Fin 524288) :
    partitions (F := Ideal) x0 x2 (ix1 b) = Cert.Spec.partition (fOf x0) (sOf x2) b := by
  unfold partitions Cert.Spec.partition
  simp only [Host.reduceAdd, Ideal.hostReduceAdd_def]
  rw [Ideal.hostReduceAdd_single reducesTo_S96x524288_S524288_d0 reduces_d0]
  show Ideal.ofBits .f32 0x00000000#32 + _ = _
  rw [Ideal.ofBits_zero_f32, zero_add]
  refine Finset.sum_congr rfl fun (k : Fin 96) _ => ?_
  exact (congrArg (weights (F := Ideal) x0 x2) (lift_d0 (ix1 b) k)).trans (weight_eq x0 x2 k b)

/-- The mask: whether the state switches the label on. -/
theorem legal_eq (s : Fin 96) (l : Fin 12) :
    legalMask (F := Ideal) x2 (ix2 s l) = Cert.Spec.legal (sOf x2) s l := by
  have h : legalMask (F := Ideal) x2 (ix2 s l) = FloatOps.uitofp (F := Ideal) .f32 (FloatOps.cmpf (F := Ideal) .ogt (x2 (ix2 s l))
      (broadcastInDim S96x12 ![] bcast_S_S96x12 (constant (F := Ideal) S_ .f32 0x00000000#32) (ix2 s l))) := rfl
  rw [h, broadcastInDim_apply ![] bcast_S_S96x12 _ (ix2 s l) ValueIdx.ix0 (fun a => a.elim0)]
  rfl

/-- The quotient is the marginal. -/
theorem marginal_ix (b : Fin 524288) (l : Fin 12) :
    refMarginals (F := Ideal) x0 x2 (ix2 b l) = Cert.Spec.marginal (fOf x0) (sOf x2) b l := by
  unfold refMarginals Cert.Spec.marginal
  rw [hdivf_apply, dot2_apply]
  have hs : ∀ k : Fin 96,
      transpose S524288x96 [1, 0] (weights (F := Ideal) x0 x2) transposes_S96x524288_S524288x96_1_0 (ix2 b k)
        * legalMask (F := Ideal) x2 (ix2 k l)
      = Cert.Spec.weight (fOf x0) (sOf x2) b k * Cert.Spec.legal (sOf x2) k l := fun k => by
    rw [transpose_apply [1, 0] (weights (F := Ideal) x0 x2) transposes_S96x524288_S524288x96_1_0 (ix2 b k) (ix2 k b)
      (fun c => match c with | ⟨0, _⟩ => rfl | ⟨1, _⟩ => rfl), weight_eq, legal_eq]
  rw [Finset.sum_congr rfl fun k _ => hs k]
  refine congrArg (Ideal.div _) ?_
  rw [broadcastInDim_apply ![0, 1] bcast_S524288x1_S524288x12_0_1 _ (ix2 b l) (ix2 b (0 : Fin 1))
      (fun a => match a with
        | ⟨0, _⟩ => by show b.val = if (524288 : Nat) = 1 then 0 else b.val; rw [if_neg (by decide)]
        | ⟨1, _⟩ => by show 0 = if (1 : Nat) = 1 then 0 else l.val; rw [if_pos rfl]),
    broadcastInDim_apply ![0] bcast_S524288_S524288x1_0 _ (ix2 b (0 : Fin 1)) (ix1 b)
      (fun a => match a with
        | ⟨0, _⟩ => by show b.val = if (524288 : Nat) = 1 then 0 else b.val; rw [if_neg (by decide)])]
  exact partition_eq x0 x2 b

theorem marginal_eq (i : S524288x12.Idx) :
    refMarginals (F := Ideal) x0 x2 i
      = Cert.Spec.marginal (fun b k => x0 (ix2 b k)) (fun s k => x2 (ix2 s k)) (i 0) (i 1) := by
  obtain ⟨b, l, rfl⟩ : ∃ (b : Fin 524288) (l : Fin 12), i = ix2 b l := ⟨i 0, i 1, ValueIdx.eq_ix2 i⟩
  exact marginal_ix x0 x2 b l

/-! ### The labels, the slices, the fidelity terms -/

/-- The label converted to a number. -/
theorem label_eq (b : Fin 524288) (l : Fin 12) :
    labels (F := Ideal) x1 (ix2 b l) = Cert.Spec.label (yOf x1) b l := rfl

/-- Column 0 of an array, read at row `b`. -/
theorem col0_apply (p : (⟨S524288x12, .f32⟩ : BufTy).Contents (Elt Ideal)) (b : Fin 524288) :
    col0 (F := Ideal) p (ix1 b) = p (ix2 b 0) := by
  unfold col0
  rw [shapeCast_apply _ shapeCasts_S524288x1_S524288 (ix1 b) (ix2 b (0 : Fin 1))
      (by rewrite [Shape.rowMajor_val_two, Shape.rowMajor_val_one]; show b.val * 1 + 0 = b.val; omega),
    extractStridedSlice_apply ![0, 0] p slices_S524288x12_S524288x1_0_0 (ix2 b (0 : Fin 1)) (ix2 b (0 : Fin 12))
      (fun a => match a with
        | ⟨0, _⟩ => by show b.val = 0 + b.val; omega
        | ⟨1, _⟩ => by show 0 = 0 + 0; omega)]

/-- Columns 1-5 of an array, read at `(b, l)`. -/
theorem cols1_apply (p : (⟨S524288x12, .f32⟩ : BufTy).Contents (Elt Ideal)) (b : Fin 524288) (l : Fin 5) :
    cols1 (F := Ideal) p (ix2 b l) = p (ix2 b (Cert.Spec.mid l)) :=
  extractStridedSlice_apply ![0, 1] p slices_S524288x12_S524288x5_0_1 (ix2 b l) (ix2 b (Cert.Spec.mid l))
    (fun a => match a with
      | ⟨0, _⟩ => by show b.val = 0 + b.val; omega
      | ⟨1, _⟩ => by show l.val + 1 = 1 + l.val; omega)

/-- Columns 6-11 of an array, read at `(b, l)`. -/
theorem cols2_apply (p : (⟨S524288x12, .f32⟩ : BufTy).Contents (Elt Ideal)) (b : Fin 524288) (l : Fin 6) :
    cols2 (F := Ideal) p (ix2 b l) = p (ix2 b (Cert.Spec.last l)) :=
  extractStridedSlice_apply ![0, 6] p slices_S524288x12_S524288x6_0_6 (ix2 b l) (ix2 b (Cert.Spec.last l))
    (fun a => match a with
      | ⟨0, _⟩ => by show b.val = 0 + b.val; omega
      | ⟨1, _⟩ => by show l.val + 6 = 6 + l.val; omega)

/-- A group's fidelity term at an index, from the group's marginal and label there. -/
theorem fidelity_apply (s : Shape) (hb : S_.BroadcastsInDim s (![] : Fin 0 → Fin s.rank))
    (p g : (⟨s, .f32⟩ : BufTy).Contents (Elt Ideal)) (i : s.Idx) :
    fidelity (F := Ideal) s hb p g i
      = Cert.Spec.oneW - (Ideal.sqrt (p i * g i + Cert.Spec.epsW)
          + Ideal.sqrt ((Cert.Spec.oneW - p i) * (Cert.Spec.oneW - g i) + Cert.Spec.epsW)) := by
  have hc : ∀ w : BitVec 32, broadcastInDim s ![] hb (constant (F := Ideal) S_ .f32 w) i = Ideal.ofBits .f32 w :=
    fun w => broadcastInDim_apply ![] hb _ i ValueIdx.ix0 (fun a => a.elim0)
  have h : fidelity (F := Ideal) s hb p g i
      = broadcastInDim s ![] hb (constant (F := Ideal) S_ .f32 0x3F800000#32) i
        - (Ideal.sqrt (p i * g i + broadcastInDim s ![] hb (constant (F := Ideal) S_ .f32 0x322BCC77#32) i)
          + Ideal.sqrt ((broadcastInDim s ![] hb (constant (F := Ideal) S_ .f32 0x3F800000#32) i - p i)
              * (broadcastInDim s ![] hb (constant (F := Ideal) S_ .f32 0x3F800000#32) i - g i)
            + broadcastInDim s ![] hb (constant (F := Ideal) S_ .f32 0x322BCC77#32) i)) := rfl
  rw [h, hc, hc]

/-! ### The three means -/

theorem loss0_eq (i : S_.Idx) :
    mean0 (F := Ideal) (col0 (F := Ideal) (refMarginals (F := Ideal) x0 x2)) (col0 (F := Ideal) (labels (F := Ideal) x1)) i
      = Cert.Spec.loss0 (fOf x0) (yOf x1) (sOf x2) := by
  have hsum : Host.reduceAdd (F := Ideal)
      (fidelity (F := Ideal) S524288 bcast_S_S524288 (col0 (F := Ideal) (refMarginals (F := Ideal) x0 x2))
        (col0 (F := Ideal) (labels (F := Ideal) x1)))
      (constant (F := Ideal) S_ .f32 0x00000000#32) reducesTo_S524288_S_d0 h_S_ i
      = ∑ b : Fin 524288, Cert.Spec.fidelity (fOf x0) (yOf x1) (sOf x2) b 0 := by
    simp only [Host.reduceAdd, Ideal.hostReduceAdd_def]
    rw [Ideal.hostReduceAdd_total reducesTo_S524288_S_d0 (fun b => b.elim0), ValueIdx.constant_apply, Ideal.ofBits_zero_f32, zero_add,
      sum_idx1]
    refine Finset.sum_congr rfl fun b _ => ?_
    rw [fidelity_apply, col0_apply, col0_apply, marginal_ix, label_eq]
    rfl
  unfold mean0 Cert.Spec.loss0
  rw [hdivf_apply, ValueIdx.constant_apply, hsum]

theorem loss1_eq (i : S_.Idx) :
    mean1 (F := Ideal) (cols1 (F := Ideal) (refMarginals (F := Ideal) x0 x2)) (cols1 (F := Ideal) (labels (F := Ideal) x1)) i
      = Cert.Spec.loss1 (fOf x0) (yOf x1) (sOf x2) := by
  have hsum : Host.reduceAdd (F := Ideal)
      (fidelity (F := Ideal) S524288x5 bcast_S_S524288x5 (cols1 (F := Ideal) (refMarginals (F := Ideal) x0 x2))
        (cols1 (F := Ideal) (labels (F := Ideal) x1)))
      (constant (F := Ideal) S_ .f32 0x00000000#32) reducesTo_S524288x5_S_d0_1 h_S_ i
      = ∑ b : Fin 524288, ∑ l : Fin 5, Cert.Spec.fidelity (fOf x0) (yOf x1) (sOf x2) b (Cert.Spec.mid l) := by
    simp only [Host.reduceAdd, Ideal.hostReduceAdd_def]
    rw [Ideal.hostReduceAdd_total reducesTo_S524288x5_S_d0_1 (fun b => b.elim0), ValueIdx.constant_apply, Ideal.ofBits_zero_f32, zero_add,
      ValueIdx.sum_idx2]
    refine Finset.sum_congr rfl fun b _ => Finset.sum_congr rfl fun l _ => ?_
    rw [fidelity_apply, cols1_apply, cols1_apply, marginal_ix, label_eq]
    rfl
  unfold mean1 Cert.Spec.loss1
  rw [hdivf_apply, ValueIdx.constant_apply, hsum]

theorem loss2_eq (i : S_.Idx) :
    mean2 (F := Ideal) (cols2 (F := Ideal) (refMarginals (F := Ideal) x0 x2)) (cols2 (F := Ideal) (labels (F := Ideal) x1)) i
      = Cert.Spec.loss2 (fOf x0) (yOf x1) (sOf x2) := by
  have hsum : Host.reduceAdd (F := Ideal)
      (fidelity (F := Ideal) S524288x6 bcast_S_S524288x6 (cols2 (F := Ideal) (refMarginals (F := Ideal) x0 x2))
        (cols2 (F := Ideal) (labels (F := Ideal) x1)))
      (constant (F := Ideal) S_ .f32 0x00000000#32) reducesTo_S524288x6_S_d0_1 h_S_ i
      = ∑ b : Fin 524288, ∑ l : Fin 6, Cert.Spec.fidelity (fOf x0) (yOf x1) (sOf x2) b (Cert.Spec.last l) := by
    simp only [Host.reduceAdd, Ideal.hostReduceAdd_def]
    rw [Ideal.hostReduceAdd_total reducesTo_S524288x6_S_d0_1 (fun b => b.elim0), ValueIdx.constant_apply, Ideal.ofBits_zero_f32, zero_add,
      ValueIdx.sum_idx2]
    refine Finset.sum_congr rfl fun b _ => Finset.sum_congr rfl fun l _ => ?_
    rw [fidelity_apply, cols2_apply, cols2_apply, marginal_ix, label_eq]
    rfl
  unfold mean2 Cert.Spec.loss2
  rw [hdivf_apply, ValueIdx.constant_apply, hsum]

/-! ### The three losses joined -/

theorem losses_eq (j : S3.Idx) :
    refLosses (F := Ideal) x0 x1 x2 j
      = Cert.Spec.losses (fun b k => x0 (ix2 b k)) (fun b k => x1 (ix2 b k)) (fun s k => x2 (ix2 s k)) (j 0) := by
  unfold refLosses join3
  refine Eq.trans (concat3_apply _ _ _ j) ?_
  have hb : ∀ a : (⟨S_, .f32⟩ : BufTy).Contents (Elt Ideal),
      broadcastInDim S1 ![] bcast_S_S1 a (ix1 (0 : Fin 1)) = a ValueIdx.ix0 :=
    fun a => broadcastInDim_apply ![] bcast_S_S1 a (ix1 (0 : Fin 1)) ValueIdx.ix0 (fun c => c.elim0)
  rw [hb, hb, hb, loss0_eq, loss1_eq, loss2_eq]
  rfl

end Cert.RefSpec

end
-- ==== Proof.lean ====
/-
  The certificate: a fused kernel for the marginals of twelve labels over 96 legal states and three fidelity losses,
  against its jnp reference, as extended reals.

  For every batch row both programs form the 96 potentials (the inner products of the row's features with the states'
  rows), subtract the row's largest, exponentiate, and divide the weight of the states that switch a label on by the
  total weight: the marginals. Both then compare each marginal with its 0/1 label through the same fidelity term and
  average the terms over three groups of label columns. They differ only in arrangement: the kernel works on blocks of
  8192 rows (a matrix product with the transposed matrix where the reference multiplies the other way round; sums and
  maxima along rows where the reference takes them along columns), adds each block's terms per column, then the
  columns of a group, then the 64 blocks, where the reference adds a whole group at once. Over the extended reals a
  finite sum may be taken in any order and grouping, and a product in either order, so the two results are one
  (`Cert.Spec`), entry by entry; no finiteness of the inputs is needed. The kernel's row-validity flag is 1 on every
  row, since the 64 blocks cover exactly the 524288 rows.

  The three frames: each kernel program's by the region's frame run followed by the host lines after it; the
  reference's by its run, taken in stages. The idealization rewrote nothing, so `preserves` is trivial.
-/
import proofs.«115745_j21517786153440_2_alg».proof.Defs
import proofs.«115745_j21517786153440_2_alg».proof.Proof.Gen.Kernel
import proofs.«115745_j21517786153440_2_alg».proof.Proof.Gen.KernelIdeal
import proofs.«115745_j21517786153440_2_alg».proof.Proof.Gen.ReferenceIdeal
import proofs.«115745_j21517786153440_2_alg».proof.Proof.Gen.Pre_finite_inputs
import proofs.«115745_j21517786153440_2_alg».proof.Proof.KernelFrame
import proofs.«115745_j21517786153440_2_alg».proof.Proof.KTail
import proofs.«115745_j21517786153440_2_alg».proof.Proof.RefRun
import proofs.«115745_j21517786153440_2_alg».proof.Proof.RefIsSpec

noncomputable section

namespace Cert.Proof

open Idealize.ShloMosaic Idealize.SL.Sem

/-- The kernel as printed runs and leaves its arguments as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- And the reference: its run with the two results dropped. -/
theorem frame_reference : Cert.frame_ReferenceIdeal := fun m ρ _ =>
  (θ_run Cert.ReferenceIdeal.defs _ _).mono (fun _ h c => (h c).2.2) (Cert.RefRun.run (F := Ideal) m ρ)

/-- The idealization rewrote no operation. -/
theorem preserves : Cert.preserves_Kernel_KernelIdeal := trivial

/-- From memories agreeing on the arguments both idealized programs end with the specification's losses and
    marginals of those arguments. -/
theorem algebraic : Cert.algebraic_KernelIdeal_ReferenceIdeal := by
  intro m ρ m' ρ' _ hagree
  refine ⟨fun c => Cert.KernelIdeal.Tail.lossesArr m c, fun c => Cert.KernelIdeal.Final.marginalsArr m c,
    Cert.KernelIdeal.Tail.run m ρ, ?_⟩
  refine (θ_run Cert.ReferenceIdeal.defs _ _).mono (fun _ h c => ⟨?_, ?_, (h c).2.2⟩) (Cert.RefRun.run (F := Ideal) m' ρ')
  · rw [(h c).1, (hagree c).1, (hagree c).2.1, (hagree c).2.2]
    funext j
    exact Cert.RefSpec.losses_eq _ _ _ j
  · rw [(h c).2.1, (hagree c).1, (hagree c).2.2]
    funext i
    exact Cert.RefSpec.marginal_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
